-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1 : Shape := ⟨2, ![50000, 1]⟩
abbrev S2x800000 : Shape := ⟨2, ![2, 800000]⟩
abbrev S50000 : Shape := ⟨1, ![50000]⟩
abbrev S1x256 : Shape := ⟨2, ![1, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S50000x1 : S_.BroadcastsInDim S50000x1 (![] : Fin 0 → Fin S50000x1.rank)
  reducesTo_S50000x1_S_d0_1 : S50000x1.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg9 : FVec F S256x128 .f32) (main_arg10 : FVec F S128 .f32) (main_arg11 : FVec F S256x128 .f32) (main_arg12 : FVec F S128 .f32) (main_arg13 : FVec F S128 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg11
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_v48 main_v49 main_v50

def fn_part1 {F : FTy → Type} [FloatOps F] (main_arg6 : FVec F S256x256 .f32) (main_arg7 : FVec F S256 .f32) (main_arg8 : FVec F S256x256 .f32) (main_arg9 : FVec F S256x128 .f32) (main_arg10 : FVec F S128 .f32) (main_arg11 : FVec F S256x128 .f32) (main_arg12 : FVec F S128 .f32) (main_arg13 : FVec F S128 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x1 .f32) (main_arg1 : IVec S2x800000 32) (main_arg2 : IVec S50000 32) (main_arg3 : FVec F S1x256 .f32) (main_arg4 : FVec F S256 .f32) (main_arg5 : FVec F S1x256 .f32) (main_arg6 : FVec F S256x256 .f32) (main_arg7 : FVec F S256 .f32) (main_arg8 : FVec F S256x256 .f32) (main_arg9 : FVec F S256x128 .f32) (main_arg10 : FVec F S128 .f32) (main_arg11 : FVec F S256x128 .f32) (main_arg12 : FVec F S128 .f32) (main_arg13 : FVec F S128 .f32) : IVec S_ 1 :=
  let main_v0 : FVec F S50000x1 .f32 := Host.absf main_arg0
  let main_cst : FVec F S_ .f32 := constant S_ .f32 0x7F800000#32
  let main_v1 : FVec F S50000x1 .f32 := broadcastInDim S50000x1 ![] bcast_S_S50000x1 main_cst
  let main_v2 : IVec S50000x1 1 := cmpf .olt main_v0 main_v1
  let main_c : IVec S_ 1 := constantI S_ 1 1#1
  let main_v3 : IVec S_ 1 := (fun x v => Host.reduce IntOp.andi x v reducesTo_S50000x1_S_d0_1 h_S_) main_v2 main_c
  let main_v4 : FVec F S1x256 .f32 := Host.absf main_arg3
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1x256 .f32 := Host.absf main_arg5
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg6 main_arg7 main_arg8 main_arg9 main_arg10 main_arg11 main_arg12 main_arg13 main_v13 main_v16
-- ==== Kernel.lean ====
abbrev S50000x1 : Shape := ⟨2, ![50000, 1]⟩
abbrev S2x800000 : Shape := ⟨2, ![2, 800000]⟩
abbrev S50000 : Shape := ⟨1, ![50000]⟩
abbrev S1x256 : Shape := ⟨2, ![1, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x256 : Shape := ⟨2, ![50000, 256]⟩
abbrev S2000x1 : Shape := ⟨2, ![2000, 1]⟩
abbrev S2000x256 : Shape := ⟨2, ![2000, 256]⟩
abbrev S800000x256 : Shape := ⟨2, ![800000, 256]⟩
abbrev S50000x128 : Shape := ⟨2, ![50000, 128]⟩
abbrev S2000x128 : Shape := ⟨2, ![2000, 128]⟩
abbrev S800000x128 : Shape := ⟨2, ![800000, 128]⟩
abbrev S1x128 : Shape := ⟨2, ![1, 128]⟩
abbrev S64x128 : Shape := ⟨2, ![64, 128]⟩
abbrev S64 : Shape := ⟨1, ![64]⟩
abbrev S64x1 : Shape := ⟨2, ![64, 1]⟩

abbrev nBuf : Space → Nat
  | .hbm => 96
  | .vmem => 39
  | .smem => 0
  | _ => 0

abbrev bufTy : (tb : Table) → Fin (tcTables nBuf tb) → BufTy
  | .hbm, ⟨0, _⟩ => ⟨S50000x1, .f32⟩
  | .hbm, ⟨1, _⟩ => ⟨S2x800000, .i32⟩
  | .hbm, ⟨2, _⟩ => ⟨S50000, .i32⟩
  | .hbm, ⟨3, _⟩ => ⟨S1x256, .f32⟩
  | .hbm, ⟨4, _⟩ => ⟨S256, .f32⟩
  | .hbm, ⟨5, _⟩ => ⟨S1x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S128, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x1, .f32⟩
  | .hbm, ⟨40, _⟩ => ⟨S_, .f32⟩
  | .hbm, ⟨41, _⟩ => ⟨S50000x1, .f32⟩
  | .hbm, ⟨42, _⟩ => ⟨S800000x1, .i32⟩
  | .hbm, ⟨43, _⟩ => ⟨S50000x1, .f32⟩
  | .hbm, ⟨44, _⟩ => ⟨S1x256, .f32⟩
  | .hbm, ⟨45, _⟩ => ⟨S50000x256, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x256, .f32⟩
  | .hbm, ⟨55, _⟩ => ⟨S_, .f32⟩
  | .hbm, ⟨56, _⟩ => ⟨S50000x256, .f32⟩
  | .hbm, ⟨57, _⟩ => ⟨S800000x1, .i32⟩
  | .hbm, ⟨58, _⟩ => ⟨S50000x256, .f32⟩
  | .hbm, ⟨59, _⟩ => ⟨S1x256, .f32⟩
  | .hbm, ⟨60, _⟩ => ⟨S50000x256, .f32⟩
  | .hbm, ⟨61, _⟩ => ⟨S50000x128, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x128, .f32⟩
  | .hbm, ⟨71, _⟩ => ⟨S_, .f32⟩
  | .hbm, ⟨72, _⟩ => ⟨S50000x128, .f32⟩
  | .hbm, ⟨73, _⟩ => ⟨S800000x1, .i32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S_, .f32⟩
  | .hbm, ⟨78, _⟩ => ⟨S64x128, .f32⟩
  | .hbm, ⟨79, _⟩ => ⟨S50000x1, .i32⟩
  | .hbm, ⟨80, _⟩ => ⟨S64x128, .f32⟩
  | .hbm, ⟨81, _⟩ => ⟨S_, .f32⟩
  | .hbm, ⟨82, _⟩ => ⟨S50000, .f32⟩
  | .hbm, ⟨83, _⟩ => ⟨S_, .f32⟩
  | .hbm, ⟨84, _⟩ => ⟨S64, .f32⟩
  | .hbm, ⟨85, _⟩ => ⟨S50000x1, .i32⟩
  | .hbm, ⟨86, _⟩ => ⟨S64, .f32⟩
  | .hbm, ⟨87, _⟩ => ⟨S_, .f32⟩
  | .hbm, ⟨88, _⟩ => ⟨S64, .f32⟩
  | .hbm, ⟨89, _⟩ => ⟨S64, .f32⟩
  | .hbm, ⟨90, _⟩ => ⟨S64x1, .f32⟩
  | .hbm, ⟨91, _⟩ => ⟨S64x128, .f32⟩
  | .hbm, ⟨92, _⟩ => ⟨S64x128, .f32⟩
  | .hbm, ⟨93, _⟩ => ⟨S1x128, .f32⟩
  | .hbm, ⟨94, _⟩ => ⟨S1x128, .f32⟩
  | .hbm, ⟨95, _⟩ => ⟨S64x128, .f32⟩
  | .local _ .vmem, ⟨0, _⟩ => ⟨S2000x1, .f32⟩
  | .local _ .vmem, ⟨1, _⟩ => ⟨S2000x1, .f32⟩
  | .local _ .vmem, ⟨2, _⟩ => ⟨S2000x1, .f32⟩
  | .local _ .vmem, ⟨3, _⟩ => ⟨S2000x1, .f32⟩
  | .local _ .vmem, ⟨4, _⟩ => ⟨S2000x1, .f32⟩
  | .local _ .vmem, ⟨5, _⟩ => ⟨S2000x1, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x1, .f32⟩
  | .local _ .vmem, ⟨16, _⟩ => ⟨S2000x1, .f32⟩
  | .local _ .vmem, ⟨17, _⟩ => ⟨S256x256, .f32⟩
  | .local _ .vmem, ⟨18, _⟩ => ⟨S256x256, .f32⟩
  | .local _ .vmem, ⟨19, _⟩ => ⟨S1x256, .f32⟩
  | .local _ .vmem, ⟨20, _⟩ => ⟨S256x128, .f32⟩
  | .local _ .vmem, ⟨21, _⟩ => ⟨S2000x256, .f32⟩
  | .local _ .vmem, ⟨22, _⟩ => ⟨S2000x256, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x256, .f32⟩
  | .local _ .vmem, ⟨28, _⟩ => ⟨S2000x256, .f32⟩
  | .local _ .vmem, ⟨29, _⟩ => ⟨S2000x1, .f32⟩
  | .local _ .vmem, ⟨30, _⟩ => ⟨S2000x1, .f32⟩
  | .local _ .vmem, ⟨31, _⟩ => ⟨S256x128, .f32⟩
  | .local _ .vmem, ⟨32, _⟩ => ⟨S1x128, .f32⟩
  | .local _ .vmem, ⟨33, _⟩ => ⟨S2000x128, .f32⟩
  | .local _ .vmem, ⟨34, _⟩ => ⟨S2000x128, .f32⟩
  | .local _ .vmem, ⟨35, _⟩ => ⟨S64x128, .f32⟩
  | .local _ .vmem, ⟨36, _⟩ => ⟨S1x128, .f32⟩
  | .local _ .vmem, ⟨37, _⟩ => ⟨S1x128, .f32⟩
  | .local _ .vmem, ⟨38, _⟩ => ⟨S64x128, .f32⟩
  | _, _ => ⟨S50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36_0 : Ref sig .tc := ⟨.hbm, 60, rfl⟩
abbrev main_v36_1 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_c_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_10 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_11 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_12 : Ref sig .tc := ⟨.hbm, 81, rfl⟩
abbrev main_v52 : Ref sig .tc := ⟨.hbm, 82, rfl⟩
abbrev main_cst_13 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_14 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc3_stg0_0 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22
abbrev cc1_sem8_0 : DmaSem sig := 23
abbrev cc1_sem8_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem4_0 : DmaSem sig := 32
abbrev cc2_sem5_0 : DmaSem sig := 33
abbrev cc2_sem5_1 : DmaSem sig := 34
abbrev cc3_sem0_0 : DmaSem sig := 35
abbrev cc3_sem1_0 : DmaSem sig := 36
abbrev cc3_sem2_0 : DmaSem sig := 37
abbrev cc3_sem3_0 : DmaSem sig := 38

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x1 : S_.BroadcastsInDim S50000x1 (![] : Fin 0 → Fin S50000x1.rank)
  shapeCasts_S256_S1x256 : S256.ShapeCasts S1x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x256_S1x256_0_0 : ∀ a, (![0, 0] : Fin 2 → Nat) a + S1x256.size a ≤ S1x256.size a
  h_S1x256 : 0 < S1x256.numel
  broadcasts_S2000x1_S2000x256 : S2000x1.Broadcasts S2000x256
  broadcasts_S1x256_S2000x256 : S1x256.Broadcasts S2000x256
  shapeCasts_S1x256_S1x256 : S1x256.ShapeCasts S1x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  reduces_S64x128_S64 : S64x128.Reduces [1] S64
  shapeCasts_S64_S64x1 : S64.ShapeCasts S64x1
  broadcasts_S64x1_S64x128 : S64x1.Broadcasts S64x128
  broadcasts_S1x128_S64x128 : S1x128.Broadcasts S64x128
  scatter_S50000_S800000x1_S800000_n_0_0_1_wf : ScatterDims.WF S50000 S800000x1 S800000 [] [0] [0] 1
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S50000x1.size a
  hwx0_0 : ∀ i : grid0.Coords, EltTy.bits .f32 = 32 ∨ (Rect.block (s := S50000x1) S2000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x128.size a ≤ S256x128.size a
  hwx1_6 : ∀ i : grid1.Coords, EltTy.bits .f32 = 32 ∨ (Rect.block (s := S256x128) S256x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S50000x256.size a
  hwx1_7 : ∀ i : grid1.Coords, EltTy.bits .f32 = 32 ∨ (Rect.block (s := S50000x256) S2000x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x128.size a
  hwx3_0 : ∀ i : grid3.Coords, EltTy.bits .f32 = 32 ∨ (Rect.block (s := S64x128) S64x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x128.size a ≤ S64x128.size a
  hwx3_3 : ∀ i : grid3.Coords, EltTy.bits .f32 = 32 ∨ (Rect.block (s := S64x128) S64x128.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

abbrev win0_0 : Pipeline.Window sig grid0 :=
  Pipeline.Window.ofSpec (Memref.whole main_v22) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S256x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36_0) S2000x256.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v36_1) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v46) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36_0) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v60) S64x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S64x128.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x1 : Shape := ⟨2, ![50000, 1]⟩
abbrev S2x800000 : Shape := ⟨2, ![2, 800000]⟩
abbrev S50000 : Shape := ⟨1, ![50000]⟩
abbrev S1x256 : Shape := ⟨2, ![1, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x256 : Shape := ⟨2, ![50000, 256]⟩
abbrev S800000x256 : Shape := ⟨2, ![800000, 256]⟩
abbrev S50000x128 : Shape := ⟨2, ![50000, 128]⟩
abbrev S1x128 : Shape := ⟨2, ![1, 128]⟩
abbrev S64x128 : Shape := ⟨2, ![64, 128]⟩
abbrev S64 : Shape := ⟨1, ![64]⟩
abbrev S64x1 : Shape := ⟨2, ![64, 1]⟩

abbrev nBuf : Space → Nat
  | .hbm => 159
  | .vmem => 0
  | .smem => 0
  | _ => 0

abbrev hbmTy0_0 (i : Nat) : BufTy := match i % 128 with
  | 0 => ⟨S50000x1, .f32⟩
  | 1 => ⟨S2x800000, .i32⟩
  | 2 => ⟨S50000, .i32⟩
  | 3 => ⟨S1x256, .f32⟩
  | 4 => ⟨S256, .f32⟩
  | 5 => ⟨S1x256, .f32⟩
  | 6 => ⟨S256x256, .f32⟩
  | 7 => ⟨S256, .f32⟩
  | 8 => ⟨S256x256, .f32⟩
  | 9 => ⟨S256x128, .f32⟩
  | 10 => ⟨S128, .f32⟩
  | 11 => ⟨S256x128, .f32⟩
  | 12 => ⟨S128, .f32⟩
  | 13 => ⟨S128, .f32⟩
  | 14 => ⟨S1x800000, .i32⟩
  | 15 => ⟨S800000, .i32⟩
  | 16 => ⟨S1x800000, .i32⟩
  | 17 => ⟨S800000, .i32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .f32⟩
  | 27 => ⟨S_, .f32⟩
  | 28 => ⟨S50000, .f32⟩
  | 29 => ⟨S50000, .f32⟩
  | 30 => ⟨S50000x1, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x1, .f32⟩
  | 40 => ⟨S_, .f32⟩
  | 41 => ⟨S50000x1, .f32⟩
  | 42 => ⟨S800000x1, .i32⟩
  | 43 => ⟨S50000x1, .f32⟩
  | 44 => ⟨S50000x1, .f32⟩
  | 45 => ⟨S50000x256, .f32⟩
  | 46 => ⟨S1x256, .f32⟩
  | 47 => ⟨S50000x256, .f32⟩
  | 48 => ⟨S50000x256, .f32⟩
  | 49 => ⟨S50000x256, .f32⟩
  | 50 => ⟨S50000x256, .f32⟩
  | 51 => ⟨S_, .f32⟩
  | 52 => ⟨S50000x256, .f32⟩
  | 53 => ⟨S50000x256, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x256, .f32⟩
  | 63 => ⟨S_, .f32⟩
  | 64 => ⟨S50000x256, .f32⟩
  | 65 => ⟨S800000x1, .i32⟩
  | 66 => ⟨S50000x256, .f32⟩
  | 67 => ⟨S50000x256, .f32⟩
  | 68 => ⟨S50000x256, .f32⟩
  | 69 => ⟨S50000x256, .f32⟩
  | 70 => ⟨S1x256, .f32⟩
  | 71 => ⟨S50000x256, .f32⟩
  | 72 => ⟨S50000x256, .f32⟩
  | 73 => ⟨S50000x256, .f32⟩
  | 74 => ⟨S50000x256, .f32⟩
  | 75 => ⟨S_, .f32⟩
  | 76 => ⟨S50000x256, .f32⟩
  | 77 => ⟨S50000x256, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x256, .f32⟩
  | 87 => ⟨S_, .f32⟩
  | 88 => ⟨S50000x256, .f32⟩
  | 89 => ⟨S800000x1, .i32⟩
  | 90 => ⟨S50000x256, .f32⟩
  | 91 => ⟨S50000x256, .f32⟩
  | 92 => ⟨S50000x256, .f32⟩
  | 93 => ⟨S50000x128, .f32⟩
  | 94 => ⟨S1x128, .f32⟩
  | 95 => ⟨S50000x128, .f32⟩
  | 96 => ⟨S50000x128, .f32⟩
  | 97 => ⟨S50000x128, .f32⟩
  | 98 => ⟨S50000x128, .f32⟩
  | 99 => ⟨S_, .f32⟩
  | 100 => ⟨S64x128, .f32⟩
  | 101 => ⟨S50000x1, .i32⟩
  | 102 => ⟨S64x128, .f32⟩
  | 103 => ⟨S_, .f32⟩
  | 104 => ⟨S50000, .f32⟩
  | 105 => ⟨S_, .f32⟩
  | 106 => ⟨S64, .f32⟩
  | 107 => ⟨S50000x1, .i32⟩
  | 108 => ⟨S64, .f32⟩
  | 109 => ⟨S_, .f32⟩
  | 110 => ⟨S64, .f32⟩
  | 111 => ⟨S64, .f32⟩
  | 112 => ⟨S64x1, .f32⟩
  | 113 => ⟨S64x128, .f32⟩
  | 114 => ⟨S64x128, .f32⟩
  | 115 => ⟨S_, .f32⟩
  | 116 => ⟨S64, .f32⟩
  | 117 => ⟨S64x1, .f32⟩
  | 118 => ⟨S_, .f32⟩
  | 119 => ⟨S64x1, .f32⟩
  | 120 => ⟨S64x1, .f32⟩
  | 121 => ⟨S_, .i32⟩
  | 122 => ⟨S_, .f32⟩
  | 123 => ⟨S64, .f32⟩
  | 124 => ⟨S64x1, .f32⟩
  | 125 => ⟨S_, .f32⟩
  | 126 => ⟨S64x1, .f32⟩
  | 127 => ⟨S64x1, .f32⟩
  | _ => ⟨S50000x1, .f32⟩

abbrev hbmTy0_1 (i : Nat) : BufTy := match i % 128 with
  | 0 => ⟨S64x128, .f32⟩
  | 1 => ⟨S64x128, .f32⟩
  | 2 => ⟨S64x128, .f32⟩
  | 3 => ⟨S_, .f32⟩
  | 4 => ⟨S_, .f32⟩
  | 5 => ⟨S_, .f32⟩
  | 6 => ⟨S_, .f32⟩
  | 7 => ⟨S64, .f32⟩
  | 8 => ⟨S64x1, .f32⟩
  | 9 => ⟨S64x1, .f32⟩
  | 10 => ⟨S64x1, .f32⟩
  | 11 => ⟨S_, .f32⟩
  | 12 => ⟨S_, .i1⟩
  | 13 => ⟨S_, .f32⟩
  | 14 => ⟨S_, .f32⟩
  | 15 => ⟨S64x1, .f32⟩
  | 16 => ⟨S64x1, .f32⟩
  | 17 => ⟨S64x128, .f32⟩
  | 18 => ⟨S64x128, .f32⟩
  | 19 => ⟨S_, .f32⟩
  | 20 => ⟨S64x1, .f32⟩
  | 21 => ⟨S64x1, .f32⟩
  | 22 => ⟨S64x1, .f32⟩
  | 23 => ⟨S64x128, .f32⟩
  | 24 => ⟨S64x128, .f32⟩
  | 25 => ⟨S1x128, .f32⟩
  | 26 => ⟨S64x128, .f32⟩
  | 27 => ⟨S64x128, .f32⟩
  | 28 => ⟨S1x128, .f32⟩
  | 29 => ⟨S64x128, .f32⟩
  | 30 => ⟨S64x128, .f32⟩
  | _ => ⟨S50000x1, .f32⟩

abbrev hbmTy (i : Nat) : BufTy := match i / 128 with
  | 0 => hbmTy0_0 i
  | 1 => hbmTy0_1 i
  | _ => ⟨S50000x1, .f32⟩

abbrev bufTy : (tb : Table) → Fin (tcTables nBuf tb) → BufTy
  | .hbm, ⟨i, _⟩ => hbmTy i
  | _, _ => ⟨S50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call0_cst : Ref sig .tc := ⟨.hbm, 51, rfl⟩
abbrev main_call0_v0 : Ref sig .tc := ⟨.hbm, 52, rfl⟩
abbrev main_v30 : Ref sig .tc := ⟨.hbm, 53, rfl⟩
abbrev main_c_5 : Ref sig .tc := ⟨.hbm, 54, rfl⟩
abbrev main_v31 : Ref sig .tc := ⟨.hbm, 55, rfl⟩
abbrev main_v32 : Ref sig .tc := ⟨.hbm, 56, rfl⟩
abbrev main_c_6 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_v49 : Ref sig .tc := ⟨.hbm, 77, rfl⟩
abbrev main_c_8 : Ref sig .tc := ⟨.hbm, 78, rfl⟩
abbrev main_v50 : Ref sig .tc := ⟨.hbm, 79, rfl⟩
abbrev main_v51 : Ref sig .tc := ⟨.hbm, 80, rfl⟩
abbrev main_c_9 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_11 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_12 : Ref sig .tc := ⟨.hbm, 103, rfl⟩
abbrev main_v71 : Ref sig .tc := ⟨.hbm, 104, rfl⟩
abbrev main_cst_13 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_14 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_15 : Ref sig .tc := ⟨.hbm, 115, rfl⟩
abbrev main_v80 : Ref sig .tc := ⟨.hbm, 116, rfl⟩
abbrev main_v81 : Ref sig .tc := ⟨.hbm, 117, rfl⟩
abbrev main_cst_16 : Ref sig .tc := ⟨.hbm, 118, rfl⟩
abbrev main_v82 : Ref sig .tc := ⟨.hbm, 119, rfl⟩
abbrev main_v83 : Ref sig .tc := ⟨.hbm, 120, rfl⟩
abbrev main_c_17 : Ref sig .tc := ⟨.hbm, 121, rfl⟩
abbrev main_call2_cst : Ref sig .tc := ⟨.hbm, 122, rfl⟩
abbrev main_call2_v0 : Ref sig .tc := ⟨.hbm, 123, rfl⟩
abbrev main_call2_v1 : Ref sig .tc := ⟨.hbm, 124, rfl⟩
abbrev main_call2_cst_0 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_call2_v5 : Ref sig .tc := ⟨.hbm, 129, rfl⟩
abbrev main_call2_v6 : Ref sig .tc := ⟨.hbm, 130, rfl⟩
abbrev main_call2_v7 : Ref sig .tc := ⟨.hbm, 131, rfl⟩
abbrev main_call2_cst_1 : Ref sig .tc := ⟨.hbm, 132, rfl⟩
abbrev main_call2_v8 : Ref sig .tc := ⟨.hbm, 133, rfl⟩
abbrev main_call2_cst_2 : Ref sig .tc := ⟨.hbm, 134, rfl⟩
abbrev main_call2_v9 : Ref sig .tc := ⟨.hbm, 135, rfl⟩
abbrev main_call2_v10 : Ref sig .tc := ⟨.hbm, 136, rfl⟩
abbrev main_call2_v11 : Ref sig .tc := ⟨.hbm, 137, rfl⟩
abbrev main_call2_v12 : Ref sig .tc := ⟨.hbm, 138, rfl⟩
abbrev main_call2_cst_3 : Ref sig .tc := ⟨.hbm, 139, rfl⟩
abbrev main_call2_v13 : Ref sig .tc := ⟨.hbm, 140, rfl⟩
abbrev main_call2_cst_4 : Ref sig .tc := ⟨.hbm, 141, rfl⟩
abbrev main_call2_call0_v0 : Ref sig .tc := ⟨.hbm, 142, rfl⟩
abbrev main_call2_call0_v1 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_cst_18 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  reducesTo_S64x128_S64_d1 : S64x128.ReducesTo [1] S64
  h_S_ : 0 < S_.numel
  bcast_S_S64x1 : S_.BroadcastsInDim S64x1 (![] : Fin 0 → Fin S64x1.rank)
  bcast_S1x128_S64x128_0_1 : S1x128.BroadcastsInDim S64x128 (![0, 1] : Fin 2 → Fin S64x128.rank)
  scatter_S50000_S800000x1_S800000_n_0_0_1_wf : ScatterDims.WF S50000 S800000x1 S800000 [] [0] [0] 1
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1
  dot_S50000x1_S1x256_S50000x256_1_0_0_1_n_n_wf : DotDims.WF S50000x1 S1x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x1_S1x256_S50000x256_1_0_0_1_n_n : DotDims S50000x1 S1x256 S50000x256 where
  lhsContracting := [1]
  rhsContracting := [0]
  lhsNonContracting := [0]
  rhsNonContracting := [1]
  lhsBatch := []
  rhsBatch := []
  wf := dot_S50000x1_S1x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.KRun.lean ====
/-
  The idealized kernel program's run, with its result named.

  Every weakly fair execution of the program from a launch memory ends, without a fault, in a state where the result
  buffer holds what the last launch's write-backs leave in it (the last boundary's contents at that buffer) and every
  argument array is as launched.  The contents at the last boundary are a fold through the program: each stretch of
  host operations applied to the contents before it, each launch's arrays replaced by what its write-backs leave.
-/
import proofs.«103097_j17102559773409_2_alg».proof.Proof.Gen.KernelIdeal.Frame

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result named: from any memory with zero counters every weakly fair execution of the program on the
    cores terminates, nothing faulting; in every final state the result buffer holds the last boundary's contents at
    it, and the fourteen argument arrays are as launched. -/
theorem run_result : θ_run defs (onTc (τ := τ) (main (F := F))) ⟨m, fun _ => 0, ρ⟩ (fun r => ∀ c : Dev nD,
      r.2.mem ((c.tc : Thread nD τ).loc main_v63) = W8 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v63 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.KernelIdeal.KVal

end
-- ==== Proof.LibRowGatherScatter.lean ====
/-
  Rows picked and rows accumulated by an integer list.

  A two-dimensional array `x : [N, C]` indexed by a list of row numbers `idx : [E, 1]` (what `x[idx]` of a matrix at a
  vector of integers lowers to) gives the array `[E, C]` whose row `e` is row `idx e` of `x`, the row number read as a
  signed integer and clamped into `[0, N - 1]`.

  Dually, accumulating the rows of `upd : [E, C]` into `x : [N, C]` at the row numbers `idx : [E, 1]` (a segment sum) gives,
  over the extended reals, at `(r, q)` the entry `x (r, q)` plus the sum over all `e` whose row number, read as a signed
  integer, IS `r` of `upd (e, q)`; a row number outside `[0, N)` lands nowhere.  The sum is written over ALL `e` with the
  summand `0` where the row number is another, so that two such sums over the same list can be compared term by term.

  Both are generic in the extents `N`, `E`, `C`; the dimension numbers are spelt as literals so that a program's own record
  of them unifies (its side condition `wf` is a parameter).
-/
import Idealize.ShloMosaic.Lib.ValueIdx
import Idealize.ShloMosaic.PureOps.Ideal.Laws

noncomputable section

namespace Cert.RowGatherScatter

open Idealize.ShloMosaic Idealize.ShloMosaic.ValueIdx

/-! ## Picking rows -/

section Gather
variable {α : Type}

/-- The dimension numbers of `x[idx]` for a matrix `x : [N, C]` and row numbers `idx : [E, 1]`: the result's axis 1 is the
    offset axis, the operand's axis 0 is collapsed and is the one the start index names. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row of `x` that entry `e` of the list names: its word read signed, clamped into `[0, N - 1]`. -/
def srcRow {N E w : Nat} (hN : 0 < N) (idx : IVec ⟨2, ![E, 1]⟩ w) (e : Fin E) : Fin N :=
  ⟨min (idx (ix2 e 0)).toInt.toNat (N - 1), by omega⟩

/-- THE ROW GATHER READ AT `(e, q)`: entry `q` of the row of `x` that entry `e` of the list names. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q) = x (ix2 (srcRow hN idx e) q) := by
  unfold Host.gather
  congr 1
  funext a
  refine Fin.ext ?_
  match a with
  | ⟨0, _⟩ =>
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e q) idx 1 + (rowGatherDims N E C wf).batchCoord (ix2 e q) 1
      + (rowGatherDims N E C wf).offCoord (ix2 e q) 1 = q.val
    rw [GatherDims.batchCoord_eq_zero _ _ _ List.not_mem_nil]
    have hst : (rowGatherDims N E C wf).start (ix2 e q) idx 1 = 0 := by
      unfold GatherDims.start
      rw [dif_neg (show ¬ (1 : Fin 2) ∈ (rowGatherDims N E C wf).startIndexMap from
        (show ¬ (1 : Fin 2) ∈ ([0] : List (Fin 2)) from by decide))]
    have hoff : (rowGatherDims N E C wf).offCoord (ix2 e q) 1 = q.val := by
      unfold GatherDims.offCoord
      rw [dif_pos (show (1 : Fin 2) ∈ (rowGatherDims N E C wf).sKept from
        ((rowGatherDims N E C wf).mem_sKept 1).2 ⟨(show ¬ (1 : Fin 2) ∈ ([0] : List (Fin 2)) from by decide), List.not_mem_nil⟩)]
      rfl
    rw [hst, hoff]
    omega

end Gather

/-! ## Accumulating rows -/

section Scatter

/-- The dimension numbers of a row accumulation into `[N, C]` of updates `[E, C]` at row numbers `[E, 1]`: the updates'
    axis 1 is the window axis, the operand's axis 0 is inserted and is the one the scatter index names. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w)

/-- On the row axis the window starts at the row number, read signed, and has no extent. -/
theorem start_window_row (e : Fin E) (c : Fin C) :
    (rowScatterDims N E C wf).start (ix2 e c) idx 0 + ((rowScatterDims N E C wf).window (ix2 e c) 0 : ℤ)
      = (idx (ix2 e 0)).toInt := by
  have hw : (rowScatterDims N E C wf).window (ix2 e c) 0 = 0 := by
    unfold ScatterDims.window
    rw [dif_neg (show ¬ (0 : Fin 2) ∈ (rowScatterDims N E C wf).sKept from
      (show ¬ (0 : Fin 2) ∈ (List.finRange 2).filter (· ∉ ([0] : List (Fin 2))) from by decide))]
  have hs : (rowScatterDims N E C wf).start (ix2 e c) idx 0 = (idx (ix2 e 0)).toInt := by
    unfold ScatterDims.start
    rw [dif_pos (show (0 : Fin 2) ∈ (rowScatterDims N E C wf).scatterDimsToOperandDims from List.mem_singleton.mpr rfl)]
    have hsi : (rowScatterDims N E C wf).siIdx (ix2 e c) ⟨List.idxOf (0 : Fin 2) (rowScatterDims N E C wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  rw [hw, hs]; simp

/-- On the column axis the window starts at `0` and the update's column is the window coordinate. -/
theorem start_window_col (e : Fin E) (c : Fin C) :
    (rowScatterDims N E C wf).start (ix2 e c) idx 1 + ((rowScatterDims N E C wf).window (ix2 e c) 1 : ℤ) = (c.val : ℤ) := by
  have hw : (rowScatterDims N E C wf).window (ix2 e c) 1 = c.val := by
    unfold ScatterDims.window
    rw [dif_pos (show (1 : Fin 2) ∈ (rowScatterDims N E C wf).sKept from
      (show (1 : Fin 2) ∈ (List.finRange 2).filter (· ∉ ([0] : List (Fin 2))) from by decide))]
    rfl
  have hs : (rowScatterDims N E C wf).start (ix2 e c) idx 1 = 0 := by
    unfold ScatterDims.start
    rw [dif_neg (show ¬ (1 : Fin 2) ∈ (rowScatterDims N E C wf).scatterDimsToOperandDims from
      (show ¬ (1 : Fin 2) ∈ ([0] : List (Fin 2)) from by decide))]
  rw [hw, hs]; simp

/-- WHERE AN UPDATE LANDS: update `(e, c)` lands at `(r, q)` exactly when entry `e` of the list, read signed, is `r` and
    the columns agree. -/
theorem resultIdx?_eq_some_iff (e : Fin E) (c : Fin C) (r : Fin N) (q : Fin C) :
    (rowScatterDims N E C wf).resultIdx? (ix2 e c) idx = some (ix2 r q) ↔ (idx (ix2 e 0)).toInt = (r.val : ℤ) ∧ c = q := by
  have h0 := start_window_row wf idx e c
  have h1 := start_window_col wf idx e c
  unfold ScatterDims.resultIdx?
  split
  · rename_i h
    rw [Option.some.injEq]
    constructor
    · intro hf
      have e0 : ((rowScatterDims N E C wf).start (ix2 e c) idx 0 + ((rowScatterDims N E C wf).window (ix2 e c) 0 : ℤ)).toNat = r.val :=
        congrArg (fun f : (⟨2, ![N, C]⟩ : Shape).Idx => (f 0).val) hf
      have e1 : ((rowScatterDims N E C wf).start (ix2 e c) idx 1 + ((rowScatterDims N E C wf).window (ix2 e c) 1 : ℤ)).toNat = q.val :=
        congrArg (fun f : (⟨2, ![N, C]⟩ : Shape).Idx => (f 1).val) hf
      have b0 := (h 0).1
      rw [h0] at e0 b0
      rw [h1] at e1
      exact ⟨by omega, Fin.ext (by omega)⟩
    · rintro ⟨hr, rfl⟩
      funext a; refine Fin.ext ?_
      match a with
      | ⟨0, _⟩ =>
        show ((rowScatterDims N E C wf).start (ix2 e c) idx 0 + ((rowScatterDims N E C wf).window (ix2 e c) 0 : ℤ)).toNat = r.val
        rw [h0, hr]; simp
      | ⟨1, _⟩ =>
        show ((rowScatterDims N E C wf).start (ix2 e c) idx 1 + ((rowScatterDims N E C wf).window (ix2 e c) 1 : ℤ)).toNat = c.val
        rw [h1]; simp
  · rename_i h
    constructor
    · intro hf; cases hf
    · rintro ⟨hr, rfl⟩
      exfalso; apply h
      intro a
      match a with
      | ⟨0, _⟩ =>
        show 0 ≤ (rowScatterDims N E C wf).start (ix2 e c) idx 0 + ((rowScatterDims N E C wf).window (ix2 e c) 0 : ℤ)
          ∧ (rowScatterDims N E C wf).start (ix2 e c) idx 0 + ((rowScatterDims N E C wf).window (ix2 e c) 0 : ℤ) < (N : ℤ)
        rw [h0, hr]; have := r.isLt; omega
      | ⟨1, _⟩ =>
        show 0 ≤ (rowScatterDims N E C wf).start (ix2 e c) idx 1 + ((rowScatterDims N E C wf).window (ix2 e c) 1 : ℤ)
          ∧ (rowScatterDims N E C wf).start (ix2 e c) idx 1 + ((rowScatterDims N E C wf).window (ix2 e c) 1 : ℤ) < (C : ℤ)
        rw [h1]; have := c.isLt; omega

/-- THE ROW ACCUMULATION READ AT `(r, q)`, over the extended reals: the operand's entry plus the sum over every `e` of
    `upd (e, q)` where entry `e` of the list is `r`, of `0` elsewhere. -/
theorem scatterAdd_rows_apply (x : (⟨2, ![N, C]⟩ : Shape).Idx → EReal) (upd : (⟨2, ![E, C]⟩ : Shape).Idx → EReal)
    (r : Fin N) (q : Fin C) :
    Ideal.hostScatterAdd (rowScatterDims N E C wf) x idx upd (ix2 r q)
      = x (ix2 r q) + ∑ e : Fin E, if (idx (ix2 e 0)).toInt = (r.val : ℤ) then upd (ix2 e q) else 0 := by
  unfold Ideal.hostScatterAdd
  congr 1
  rw [Finset.sum_filter, sum_idx2]
  refine Finset.sum_congr rfl fun e _ => ?_
  simp only [resultIdx?_eq_some_iff wf idx e _ r q]
  by_cases hr : (idx (ix2 e 0)).toInt = (r.val : ℤ)
  · simp only [hr, true_and, if_true]
    rw [Finset.sum_ite_eq' Finset.univ q (fun c => upd (ix2 e c))]
    simp
  · simp only [hr, false_and, if_false]
    exact Finset.sum_const_zero

/-- The same for the host operation as a program prints it, `Host.scatterAdd` read at the extended reals (there it IS the
    exact sum above, whatever order the colliding updates are added in). -/
theorem host_scatterAdd_rows_apply {φ : FTy} (x : FVec Ideal ⟨2, ![N, C]⟩ φ) (upd : FVec Ideal ⟨2, ![E, C]⟩ φ)
    (r : Fin N) (q : Fin C) :
    Host.scatterAdd (F := Ideal) (rowScatterDims N E C wf) x idx upd (ix2 r q)
      = x (ix2 r q) + ∑ e : Fin E, if (idx (ix2 e 0)).toInt = (r.val : ℤ) then upd (ix2 e q) else 0 :=
  scatterAdd_rows_apply wf idx x upd r q

end Scatter

end Cert.RowGatherScatter

end
-- ==== Proof.Spec.lean ====
/-
  A three-layer mean-aggregating graph network followed by per-graph mean pooling and a row normalisation,
  written index by index over the extended reals.

  Nodes carry rows of features; an edge list gives, per edge `e`, a source row `srcRow sidx e` and a destination row
  number `didx e`.  The aggregate of an array `h` at node `r` is the sum of the source rows of all edges whose
  destination is `r` (`agg`).  A layer multiplies the aggregate by the node's reciprocal degree `d r`, applies a
  weight matrix, adds a bias and the node's own row times a second matrix.

  Two arrangements of the same network are written here.  In the first (`netA`) the last layer's neighbour matrix is
  applied to every node's row BEFORE the rows are aggregated and scaled; in the second (`netB`) it is applied AFTER.
  They agree on real inputs because aggregation and scaling are linear (Proof/Linear.lean).
-/
import Idealize.ShloMosaic.PureOps.Ideal
import Idealize.ShloMosaic.PureOps.Ideal.Laws
import Idealize.ShloMosaic.Lib.ValueIdx
import proofs.«103097_j17102559773409_2_alg».proof.Proof.LibRowGatherScatter

noncomputable section

namespace Cert.Sage

open Idealize.ShloMosaic Idealize.ShloMosaic.ValueIdx

/-- The number of nodes and of edges. -/
abbrev NN : Nat := 50000
abbrev EE : Nat := 800000

/-- A matrix and a vector of extended reals, as functions of the index. -/
abbrev A2 (a b : Nat) : Type := (⟨2, ![a, b]⟩ : Shape).Idx → EReal
abbrev A1 (a : Nat) : Type := (⟨1, ![a]⟩ : Shape).Idx → EReal
/-- A list of row numbers, one per edge. -/
abbrev IdxList : Type := IVec ⟨2, ![EE, 1]⟩ 32

/-- A matrix from its entries. -/
def arr2 {a b : Nat} (f : Fin a → Fin b → EReal) : A2 a b := fun i => f (i 0) (i 1)

@[simp] theorem arr2_ix2 {a b : Nat} (f : Fin a → Fin b → EReal) (p : Fin a) (q : Fin b) : arr2 f (ix2 p q) = f p q := rfl

theorem eq_arr2 {a b : Nat} (x : A2 a b) (f : Fin a → Fin b → EReal) (h : ∀ p q, x (ix2 p q) = f p q) : x = arr2 f := by
  funext i; rw [eq_ix2 i]; exact h _ _

/-- The neighbour sum: at node `r`, column `q`, the sum over the edges whose destination is `r` of the source row's
    entry. -/
def agg {C : Nat} (sidx didx : IdxList) (h : A2 NN C) (r : Fin NN) (q : Fin C) : EReal :=
  ∑ e : Fin EE, if (didx (ix2 e 0)).toInt = (r.val : ℤ)
    then h (ix2 (Cert.RowGatherScatter.srcRow (N := NN) (Nat.succ_pos _) sidx e) q) else 0

/-- First layer, one input feature: scaled aggregate times the neighbour row, own feature times the root row, bias. -/
def lin0A (a x : A2 NN 1) (d : Fin NN → EReal) (wl wr : A2 1 256) (b : Fin 256 → EReal) (p : Fin NN) (q : Fin 256) : EReal :=
  (a (ix2 p 0) * d p) * wl (ix2 0 q) + x (ix2 p 0) * wr (ix2 0 q) + b q

/-- A layer with the two products added first and the bias last. -/
def lin1A {K M : Nat} (a h : A2 NN K) (d : Fin NN → EReal) (Wl Wr : A2 K M) (b : Fin M → EReal) (p : Fin NN) (q : Fin M) : EReal :=
  (∑ k : Fin K, (a (ix2 p k) * d p) * Wl (ix2 k q)) + (∑ k : Fin K, h (ix2 p k) * Wr (ix2 k q)) + b q

/-- A row times a matrix. -/
def proj {K M : Nat} (h : A2 NN K) (W : A2 K M) (p : Fin NN) (q : Fin M) : EReal :=
  ∑ k : Fin K, h (ix2 p k) * W (ix2 k q)

/-- Last layer over an aggregate that was projected before it was summed. -/
def lin2A {K M : Nat} (a : A2 NN M) (h : A2 NN K) (d : Fin NN → EReal) (Wr : A2 K M) (b : Fin M → EReal) (p : Fin NN) (q : Fin M) : EReal :=
  a (ix2 p q) * d p + (∑ k : Fin K, h (ix2 p k) * Wr (ix2 k q)) + b q

/-- A layer with the bias added to the neighbour product before the root product. -/
def linB {K M : Nat} (a h : A2 NN K) (d : Fin NN → EReal) (Wl Wr : A2 K M) (b : Fin M → EReal) (p : Fin NN) (q : Fin M) : EReal :=
  (∑ k : Fin K, (a (ix2 p k) * d p) * Wl (ix2 k q)) + b q + ∑ k : Fin K, h (ix2 p k) * Wr (ix2 k q)

/-- The mean of a row of 128 entries (the divisor is the f32 word of 128). -/
def rowMean (g : A2 64 128) (i : Fin 64) : EReal :=
  Ideal.div (∑ j : Fin 128, g (ix2 i j)) (Ideal.ofBits .f32 0x43000000#32)

/-- The mean square deviation of a row from its mean. -/
def rowVar (g : A2 64 128) (i : Fin 64) : EReal :=
  Ideal.div (∑ j : Fin 128, (g (ix2 i j) - rowMean g i) * (g (ix2 i j) - rowMean g i)) (Ideal.ofBits .f32 0x43000000#32)

/-- Row normalisation with scale and shift (the added constant is the f32 word nearest 1e-5). -/
def layerNorm (g : A2 64 128) (γ β : Fin 128 → EReal) (i : Fin 64) (j : Fin 128) : EReal :=
  ((g (ix2 i j) - rowMean g i) * Ideal.rsqrt (rowVar g i + Ideal.ofBits .f32 0x3727C5AC#32)) * γ j + β j

section Nets
variable (sidx didx : IdxList) (d : Fin NN → EReal) (pool : A2 NN 128 → A2 64 128)
  (x : A2 NN 1) (Wl0 : A2 1 256) (b0 : A1 256) (Wr0 : A2 1 256)
  (Wl1 : A2 256 256) (b1 : A1 256) (Wr1 : A2 256 256)
  (Wl2 : A2 256 128) (b2 : A1 128) (Wr2 : A2 256 128) (γ β : A1 128)

/-- First hidden layer, arrangement A. -/
def h0A : A2 NN 256 := arr2 fun p q => max (lin0A (arr2 (agg sidx didx x)) x d Wl0 Wr0 (fun q => b0 (ix1 q)) p q) 0
/-- Second hidden layer, arrangement A. -/
def h1A : A2 NN 256 :=
  arr2 fun p q => max (lin1A (arr2 (agg sidx didx (h0A sidx didx d x Wl0 b0 Wr0))) (h0A sidx didx d x Wl0 b0 Wr0) d Wl1 Wr1 (fun q => b1 (ix1 q)) p q) 0
/-- The second hidden layer's rows times the last neighbour matrix. -/
def hl2A : A2 NN 128 := arr2 (proj (h1A sidx didx d x Wl0 b0 Wr0 Wl1 b1 Wr1) Wl2)
/-- Output layer, arrangement A. -/
def h2A : A2 NN 128 :=
  arr2 (lin2A (arr2 (agg sidx didx (hl2A sidx didx d x Wl0 b0 Wr0 Wl1 b1 Wr1 Wl2))) (h1A sidx didx d x Wl0 b0 Wr0 Wl1 b1 Wr1) d Wr2 (fun q => b2 (ix1 q)))
/-- The whole network, arrangement A: pooled and normalised. -/
def netA : A2 64 128 :=
  arr2 (layerNorm (pool (h2A sidx didx d x Wl0 b0 Wr0 Wl1 b1 Wr1 Wl2 b2 Wr2)) (fun j => γ (ix1 j)) (fun j => β (ix1 j)))

/-- First hidden layer, arrangement B. -/
def h0B : A2 NN 256 := arr2 fun p q => max (linB (arr2 (agg sidx didx x)) x d Wl0 Wr0 (fun q => b0 (ix1 q)) p q) 0
/-- Second hidden layer, arrangement B. -/
def h1B : A2 NN 256 :=
  arr2 fun p q => max (linB (arr2 (agg sidx didx (h0B sidx didx d x Wl0 b0 Wr0))) (h0B sidx didx d x Wl0 b0 Wr0) d Wl1 Wr1 (fun q => b1 (ix1 q)) p q) 0
/-- Output layer, arrangement B. -/
def h2B : A2 NN 128 :=
  arr2 (linB (arr2 (agg sidx didx (h1B sidx didx d x Wl0 b0 Wr0 Wl1 b1 Wr1))) (h1B sidx didx d x Wl0 b0 Wr0 Wl1 b1 Wr1) d Wl2 Wr2 (fun q => b2 (ix1 q)))
/-- The whole network, arrangement B. -/
def netB : A2 64 128 :=
  arr2 (layerNorm (pool (h2B sidx didx d x Wl0 b0 Wr0 Wl1 b1 Wr1 Wl2 b2 Wr2)) (fun j => γ (ix1 j)) (fun j => β (ix1 j)))

end Nets

end Cert.Sage

end
-- ==== Proof.LibAgg.lean ====
/-
  A segment sum of picked rows is the neighbour sum.

  Picking the rows `x[sidx]` of a matrix and accumulating them into a zero matrix at the row numbers `didx` leaves, at node
  `r` and column `q`, the sum over the edges whose destination number is `r` of the source row's entry: `agg` of
  Proof/Spec.lean.  Generic in the number of columns; the dimension numbers are the literal records of the row gather and
  the row scatter, their side conditions parameters, so that a program's printed records unify.
-/
import proofs.«103097_j17102559773409_2_alg».proof.Proof.Spec

noncomputable section

namespace Cert.Sage

open Idealize.ShloMosaic Idealize.ShloMosaic.ValueIdx Cert.RowGatherScatter

/-- Scatter-add into zeros of gathered rows, as one whole array. -/
theorem scatter_gather_agg {C : Nat}
    (wfG : GatherDims.WF ⟨2, ![NN, C]⟩ ⟨2, ![EE, 1]⟩ ⟨2, ![EE, C]⟩ [1] [0] [] [0] [] 1 ![1, C])
    (wfS : ScatterDims.WF ⟨2, ![NN, C]⟩ ⟨2, ![EE, 1]⟩ ⟨2, ![EE, C]⟩ [1] [0] [0] 1)
    (z x : FVec Ideal ⟨2, ![NN, C]⟩ .f32) (hz : ∀ i, z i = 0) (sidx didx : IdxList) :
    Host.scatterAdd (F := Ideal) (rowScatterDims NN EE C wfS) z didx (Host.gather (rowGatherDims NN EE C wfG) x sidx)
      = arr2 (agg sidx didx x) := by
  refine eq_arr2 _ _ fun r q => ?_
  rw [host_scatterAdd_rows_apply wfS didx z _ r q, hz, zero_add]
  unfold agg
  refine Finset.sum_congr rfl fun e _ => ?_
  rw [gather_rows_apply (Nat.succ_pos _) wfG x sidx e q]

end Cert.Sage

end
-- ==== Proof.LibKeepdims.lean ====
/-
  Two layout operations read at an index given by coordinates, for a row reduction that keeps its axis
  (`sum(..., axis=-1, keepdims=True)`): the reduced vector `[a]` is first viewed as a column `[a, 1]`, and the column is
  then broadcast along the second axis to `[a, b]`. At `(p, c)` both read the vector's entry `p`: a row-major position in
  `[a, 1]` is the row number itself, and a broadcast reads coordinate `0` on the operand's unit axis whatever `c` is.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit coordinate `u`:
    the row-major position of `(p, u)` in `[a, 1]` is `p · 1 + u = p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`: the first axis is kept (also when
    `a = 1`, where the only row is row `0`), the second is the operand's unit axis and reads `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KHost.lean ====
/-
  The host operations between the kernel program's four launches, read as functions of what they find.

  The program's edge list has two rows, the source and the destination node number of every edge.  Before the first launch
  the host splits it, turns the source numbers into a column of row numbers (a negative number counts from the end), the
  destination numbers into another, counts every node's incoming edges and takes the reciprocal of the count (at least
  one) as the node's weight, and sums, for every node, the feature rows of the sources of its incoming edges.  Before the
  second and the third launch it sums the rows of the previous launch's output in the same way.  Before the last launch it
  averages the rows of every graph (a segment sum over the nodes' graph numbers, divided by the graph's node count, at
  least one).  A bias or scale vector is handed to a launch as a one-row matrix.

  Every stretch of host operations is read here from ANY contents it may find: each buffer a launch reads, as one
  function of the buffers the stretch itself reads; and a buffer the stretch does not write, as it was.
-/
import proofs.«103097_j17102559773409_2_alg».proof.Proof.Gen.KernelIdeal.Frame
import proofs.«103097_j17102559773409_2_alg».proof.Proof.Spec
import proofs.«103097_j17102559773409_2_alg».proof.Proof.LibAgg
import proofs.«103097_j17102559773409_2_alg».proof.Proof.LibKeepdims
import Idealize.ShloMosaic.Lib.ValueLayout

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen Cert.Sage

/-! ## The index lists, the node weights and the pooling, in the program's own operations -/

/-- The edge list's first row: every edge's source node number. -/
def srcs (ei : IVec S2x800000 32) : IVec S800000 32 :=
  shapeCast S800000 (extractStridedSlice S1x800000 ![0, 0] ei Gen.slices_S2x800000_S1x800000_0_0) Gen.shapeCasts_S1x800000_S800000

/-- The edge list's second row: every edge's destination node number. -/
def dsts (ei : IVec S2x800000 32) : IVec S800000 32 :=
  shapeCast S800000 (extractStridedSlice S1x800000 ![1, 0] ei Gen.slices_S2x800000_S1x800000_1_0) Gen.shapeCasts_S1x800000_S800000

/-- Source numbers as a column of row numbers: a negative number `n` stands for `n + 50000`. -/
def sidxOf (s : IVec S800000 32) : IVec S800000x1 32 :=
  broadcastInDim S800000x1 ![0] Gen.bcast_S800000_S800000x1_0
    (select (cmpi .slt s (broadcastInDim S800000 ![] Gen.bcast_S_S800000 (constantI S_ 32 0#32)))
      (addi s (broadcastInDim S800000 ![] Gen.bcast_S_S800000 (constantI S_ 32 50000#32))) s)

/-- Destination numbers as a column of row numbers. -/
def didxOf (t : IVec S800000 32) : IVec S800000x1 32 :=
  broadcastInDim S800000x1 ![0] Gen.bcast_S800000_S800000x1_0 t

/-- The source row numbers of the edge list. -/
def sidx (ei : IVec S2x800000 32) : IVec S800000x1 32 := sidxOf (srcs ei)

/-- The destination row numbers of the edge list. -/
def didx (ei : IVec S2x800000 32) : IVec S800000x1 32 := didxOf (dsts ei)

/-- Every node's weight from the destination numbers: one over the number of its incoming edges, the count taken as at
    least one. -/
def dvecOf (t : IVec S800000 32) : FVec Ideal S50000 .f32 :=
  Host.divf (F := Ideal) (broadcastInDim S50000 ![] Gen.bcast_S_S50000 (constant (F := Ideal) S_ .f32 0x3F800000#32))
    (maximumf (F := Ideal)
      (Host.scatterAdd (F := Ideal) scatter_S50000_S800000x1_S800000_n_0_0_1
        (broadcastInDim S50000 ![] Gen.bcast_S_S50000 (constant (F := Ideal) S_ .f32 0x00000000#32))
        (didxOf t)
        (broadcastInDim S800000 ![] Gen.bcast_S_S800000 (constant (F := Ideal) S_ .f32 0x3F800000#32)))
      (broadcastInDim S50000 ![] Gen.bcast_S_S50000 (constant (F := Ideal) S_ .f32 0x3F800000#32)))

/-- Every node's weight, from the edge list. -/
def dvec (ei : IVec S2x800000 32) : FVec Ideal S50000 .f32 := dvecOf (dsts ei)

/-- Per-graph mean of the node rows: the rows summed by graph number `bt`, divided by the graph's node count taken as at
    least one. -/
def pool (bt : IVec S50000 32) (h : FVec Ideal S50000x128 .f32) : FVec Ideal S64x128 .f32 :=
  Host.divf (F := Ideal)
    (Host.scatterAdd (F := Ideal) scatter_S64x128_S50000x1_S50000x128_1_0_0_1
      (broadcastInDim S64x128 ![] Gen.bcast_S_S64x128 (constant (F := Ideal) S_ .f32 0x00000000#32))
      (broadcastInDim S50000x1 ![0] Gen.bcast_S50000_S50000x1_0 bt) h)
    (broadcastInDim S64x128 ![0, 1] Gen.bcast_S64x1_S64x128_0_1
      (broadcastInDim S64x1 ![0] Gen.bcast_S64_S64x1_0
        (maximumf (F := Ideal)
          (Host.scatterAdd (F := Ideal) scatter_S64_S50000x1_S50000_n_0_0_1
            (broadcastInDim S64 ![] Gen.bcast_S_S64 (constant (F := Ideal) S_ .f32 0x00000000#32))
            (broadcastInDim S50000x1 ![0] Gen.bcast_S50000_S50000x1_0 bt)
            (broadcastInDim S50000 ![] Gen.bcast_S_S50000 (constant (F := Ideal) S_ .f32 0x3F800000#32)))
          (broadcastInDim S64 ![] Gen.bcast_S_S64 (constant (F := Ideal) S_ .f32 0x3F800000#32)))))

/-- A zero constant spread over any shape is zero at every index. -/
theorem bcast_zero {t : Shape} (h : S_.BroadcastsInDim t (![] : Fin 0 → Fin t.rank)) (i : t.Idx) :
    broadcastInDim t ![] h (constant (F := Ideal) S_ .f32 0x00000000#32) i = 0 :=
  Ideal.ofBits_zero_f32

variable (Vin : Valuation τ sig (Elt Ideal))

/-! ## The operations before the first launch -/

/-- The buffers they write. -/
def writes0 : List (Ref sig .tc) := [main_v0, main_v1, main_v2, main_v3, main_cst, main_v4, main_cst_0, main_v5, main_v6, main_v7, main_cst_1, main_v8, main_v9, main_cst_2, main_v10, main_v11, main_v12, main_c, main_v13, main_v14, main_c_3, main_v15, main_v16, main_v17, main_v18, main_v19, main_cst_4, main_v20, main_v21, main_v22, main_v23]

/-- A buffer they do not write is as it was. -/
theorem keep0 (r : Ref sig .tc) (hr : r ∉ writes0) :
    StableHlo.after hostOps0 Vin (Proc.devRef .tc r) = Vin (Proc.devRef .tc r) :=
  StableHlo.after_of_writes_sub (W := writes0) hostOps0 Vin (by
    simp only [hostOps0, writes0, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hr

/-- The source numbers. -/
theorem host0_v1 : StableHlo.after hostOps0 Vin (Proc.devRef .tc main_v1) = srcs (Vin (Proc.devRef .tc main_arg1)) := by
  after_results_simp
  rfl

/-- The destination numbers. -/
theorem host0_v3 : StableHlo.after hostOps0 Vin (Proc.devRef .tc main_v3) = dsts (Vin (Proc.devRef .tc main_arg1)) := by
  after_results_simp
  rfl

/-- The node weights, as a column: at row `p` the weight of node `p`. -/
theorem host0_v12 (p : Fin 50000) :
    StableHlo.after hostOps0 Vin (Proc.devRef .tc main_v12) (ix2 p 0) = dvec (Vin (Proc.devRef .tc main_arg1)) (ix1 p) := by
  after_results_simp
  exact shapeCast_a_a1_apply _ _ p 0

/-- The first neighbour sum: of the input features. -/
theorem host0_v22 :
    StableHlo.after hostOps0 Vin (Proc.devRef .tc main_v22)
      = arr2 (agg (sidx (Vin (Proc.devRef .tc main_arg1))) (didx (Vin (Proc.devRef .tc main_arg1))) (Vin (Proc.devRef .tc main_arg0))) := by
  after_results_simp
  exact scatter_gather_agg _ _ _ _ (bcast_zero _) _ _

/-- The first bias as a one-row matrix. -/
theorem host0_v23 (q : Fin 256) :
    StableHlo.after hostOps0 Vin (Proc.devRef .tc main_v23) (ix2 0 q) = Vin (Proc.devRef .tc main_arg4) (ix1 q) := by
  after_results_simp
  exact shapeCast_a_1a_apply _ _ 0 q

/-! ## The operations before the second launch -/

/-- The buffers they write. -/
def writes1 : List (Ref sig .tc) := [main_c_5, main_v25, main_v26, main_c_6, main_v27, main_v28, main_v29, main_v30, main_v31, main_cst_7, main_v32, main_v33, main_v34, main_v35]

/-- A buffer they do not write is as it was. -/
theorem keep1 (r : Ref sig .tc) (hr : r ∉ writes1) :
    StableHlo.after hostOps1 Vin (Proc.devRef .tc r) = Vin (Proc.devRef .tc r) :=
  StableHlo.after_of_writes_sub (W := writes1) hostOps1 Vin (by
    simp only [hostOps1, writes1, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hr

/-- The second neighbour sum: of the first launch's output rows. -/
theorem host1_v34 :
    StableHlo.after hostOps1 Vin (Proc.devRef .tc main_v34)
      = arr2 (agg (sidxOf (Vin (Proc.devRef .tc main_v1))) (didxOf (Vin (Proc.devRef .tc main_v3))) (Vin (Proc.devRef .tc main_v24))) := by
  after_results_simp
  exact scatter_gather_agg _ _ _ _ (bcast_zero _) _ _

/-- The second bias as a one-row matrix. -/
theorem host1_v35 (q : Fin 256) :
    StableHlo.after hostOps1 Vin (Proc.devRef .tc main_v35) (ix2 0 q) = Vin (Proc.devRef .tc main_arg7) (ix1 q) := by
  after_results_simp
  exact shapeCast_a_1a_apply _ _ 0 q

/-! ## The operations before the third launch -/

/-- The buffers they write. -/
def writes2 : List (Ref sig .tc) := [main_c_8, main_v37, main_v38, main_c_9, main_v39, main_v40, main_v41, main_v42, main_v43, main_cst_10, main_v44, main_v45, main_v46, main_v47]

/-- A buffer they do not write is as it was. -/
theorem keep2 (r : Ref sig .tc) (hr : r ∉ writes2) :
    StableHlo.after hostOps2 Vin (Proc.devRef .tc r) = Vin (Proc.devRef .tc r) :=
  StableHlo.after_of_writes_sub (W := writes2) hostOps2 Vin (by
    simp only [hostOps2, writes2, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hr

/-- The third neighbour sum: of the second launch's projected rows. -/
theorem host2_v46 :
    StableHlo.after hostOps2 Vin (Proc.devRef .tc main_v46)
      = arr2 (agg (sidxOf (Vin (Proc.devRef .tc main_v1))) (didxOf (Vin (Proc.devRef .tc main_v3))) (Vin (Proc.devRef .tc main_v36_1))) := by
  after_results_simp
  exact scatter_gather_agg _ _ _ _ (bcast_zero _) _ _

/-- The third bias as a one-row matrix. -/
theorem host2_v47 (q : Fin 128) :
    StableHlo.after hostOps2 Vin (Proc.devRef .tc main_v47) (ix2 0 q) = Vin (Proc.devRef .tc main_arg10) (ix1 q) := by
  after_results_simp
  exact shapeCast_a_1a_apply _ _ 0 q

/-! ## The operations before the last launch -/

/-- The buffers they write. -/
def writes3 : List (Ref sig .tc) := [main_cst_11, main_v49, main_v50, main_v51, main_cst_12, main_v52, main_cst_13, main_v53, main_v54, main_v55, main_cst_14, main_v56, main_v57, main_v58, main_v59, main_v60, main_v61, main_v62]

/-- A buffer they do not write is as it was. -/
theorem keep3 (r : Ref sig .tc) (hr : r ∉ writes3) :
    StableHlo.after hostOps3 Vin (Proc.devRef .tc r) = Vin (Proc.devRef .tc r) :=
  StableHlo.after_of_writes_sub (W := writes3) hostOps3 Vin (by
    simp only [hostOps3, writes3, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hr

/-- The pooled rows: the per-graph means of the third launch's output. -/
theorem host3_v60 :
    StableHlo.after hostOps3 Vin (Proc.devRef .tc main_v60)
      = pool (Vin (Proc.devRef .tc main_arg2)) (Vin (Proc.devRef .tc main_v48)) := by
  after_results_simp
  rfl

/-- The scale as a one-row matrix. -/
theorem host3_v61 (q : Fin 128) :
    StableHlo.after hostOps3 Vin (Proc.devRef .tc main_v61) (ix2 0 q) = Vin (Proc.devRef .tc main_arg12) (ix1 q) := by
  after_results_simp
  exact shapeCast_a_1a_apply _ _ 0 q

/-- The shift as a one-row matrix. -/
theorem host3_v62 (q : Fin 128) :
    StableHlo.after hostOps3 Vin (Proc.devRef .tc main_v62) (ix2 0 q) = Vin (Proc.devRef .tc main_arg13) (ix1 q) := by
  after_results_simp
  exact shapeCast_a_1a_apply _ _ 0 q

end Cert.KernelIdeal.KVal

end
-- ==== Proof.RegionStmts.lean ====
/-
  What each of the four kernel launches leaves in its output arrays, as statements: every launch turns the arrays it finds
  (the contents `V` of the core's buffers when the launch starts) into one whole-array function of them, entry by entry
  the layer formulas of Proof/Spec.lean.  The row blocks of 2000 nodes that the launches work on do not show in the statements.
-/
import proofs.«103097_j17102559773409_2_alg».proof.Proof.Gen.KernelIdeal.Frame
import proofs.«103097_j17102559773409_2_alg».proof.Proof.Spec

noncomputable section

namespace Cert.KernelIdeal.Reg

open Idealize.ShloMosaic Idealize.ShloMosaic.TcCoe Idealize.ShloMosaic.ValueIdx Idealize.SL.Sem
open Cert.KernelIdeal Cert.KernelIdeal.Gen Cert.Sage

/-- The contents of a core's buffers when a launch starts. -/
abbrev Contents : Type := (c : Dev nD) → (b : Ref sig .tc) → Buf (Elt Ideal) ((c : Thread nD τ).loc b)

/-- First launch: the first hidden layer from the aggregate %22, the features %arg0, the reciprocal degrees %12, the two
    weight rows %arg3, %arg5 and the bias row %23. -/
def Region0 : Prop := ∀ (V : Contents) (c : Dev nD),
  (dat0 (F := Ideal) V c).arrAt 6 cfg0.N = arr2 fun p q =>
    max (lin0A (V c main_v22) (V c main_arg0) (fun p => V c main_v12 (ix2 p 0)) (V c main_arg3) (V c main_arg5)
      (fun q => V c main_v23 (ix2 0 q)) p q) 0

/-- Second launch, first output: the second hidden layer from the aggregate %34, the first hidden layer %24, %12, the
    matrices %arg6, %arg8 and the bias row %35. -/
def Region1a : Prop := ∀ (V : Contents) (c : Dev nD),
  (dat1 (F := Ideal) V c).arrAt 7 cfg1.N = arr2 fun p q =>
    max (lin1A (V c main_v34) (V c main_v24) (fun p => V c main_v12 (ix2 p 0)) (V c main_arg6) (V c main_arg8)
      (fun q => V c main_v35 (ix2 0 q)) p q) 0

/-- Second launch, second output: the rows of its first output times %arg9. -/
def Region1b : Prop := ∀ (V : Contents) (c : Dev nD),
  (dat1 (F := Ideal) V c).arrAt 8 cfg1.N = arr2 (proj (arr2 fun p q =>
    max (lin1A (V c main_v34) (V c main_v24) (fun p => V c main_v12 (ix2 p 0)) (V c main_arg6) (V c main_arg8)
      (fun q => V c main_v35 (ix2 0 q)) p q) 0) (V c main_arg9))

/-- Third launch: the output layer from the aggregate %46 of the projected rows, the second hidden layer %36#0, %12, the
    root matrix %arg11 and the bias row %47. -/
def Region2 : Prop := ∀ (V : Contents) (c : Dev nD),
  (dat2 (F := Ideal) V c).arrAt 5 cfg2.N = arr2 (lin2A (V c main_v46) (V c main_v36_0) (fun p => V c main_v12 (ix2 p 0))
    (V c main_arg11) (fun q => V c main_v47 (ix2 0 q)))

/-- Fourth launch: the row normalisation of the pooled array %60 with scale row %61 and shift row %62. -/
def Region3 : Prop := ∀ (V : Contents) (c : Dev nD),
  (dat3 (F := Ideal) V c).arrAt 3 cfg3.N = arr2 (layerNorm (V c main_v60) (fun j => V c main_v61 (ix2 0 j)) (fun j => V c main_v62 (ix2 0 j)))

end Cert.KernelIdeal.Reg

end
-- ==== Proof.KChain.lean ====
/-
  The idealized kernel program's result as one function of its arguments.

  The program is four launches among four stretches of host operations.  Its buffers' contents at the eight boundaries
  are a fold from the launch memory: a stretch of host operations rewrites the buffers it writes, a launch rewrites its
  output arrays, everything else is carried along.  Walking that fold from the front: the first stretch leaves the first
  neighbour sum, the node weights and the first bias row, so the first launch leaves the first hidden layer; the second
  stretch sums its rows over the same edges, so the second launch leaves the second hidden layer and its rows times the
  last neighbour matrix; the third stretch sums those projected rows, so the third launch leaves the output layer; the
  last stretch pools it per graph, and the last launch normalises the pooled rows.  What each launch leaves, given what it
  finds, is taken as a hypothesis here (the five statements of Proof/RegionStmts.lean); the result is then the first
  arrangement of the network in Proof/Spec.lean, evaluated at the argument arrays.
-/
import proofs.«103097_j17102559773409_2_alg».proof.Proof.KHost
import proofs.«103097_j17102559773409_2_alg».proof.Proof.RegionStmts

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen Cert.Sage

section Walk

variable (m : (ℓ : Loc nD τ sig) → Buf (Elt Ideal) ℓ) (ρ : Dev nD → PrngReg) (c : Dev nD)

/-! ## Buffers carried unchanged from the launch memory

A buffer that no stretch of host operations so far writes and no launch so far has among its arrays still holds its
launch contents. -/

theorem W1_launch (b : Ref sig .tc) (h0 : b ∉ writes0) :
    W1 m ρ c (Proc.devRef .tc b) = m ((c.tc : Thread nD τ).loc b) :=
  keep0 (W0 m ρ c) b h0

theorem W2_launch (b : Ref sig .tc) (h0 : b ∉ writes0) (a0 : ∀ w, Pipeline.arrRef spec0 w ≠ b) :
    W2 m ρ c (Proc.devRef .tc b) = m ((c.tc : Thread nD τ).loc b) :=
  (W2_of_ne m ρ c b a0).trans (W1_launch m ρ c b h0)

theorem W3_launch (b : Ref sig .tc) (h0 : b ∉ writes0) (a0 : ∀ w, Pipeline.arrRef spec0 w ≠ b) (h1 : b ∉ writes1) :
    W3 m ρ c (Proc.devRef .tc b) = m ((c.tc : Thread nD τ).loc b) :=
  (keep1 (W2 m ρ c) b h1).trans (W2_launch m ρ c b h0 a0)

theorem W4_launch (b : Ref sig .tc) (h0 : b ∉ writes0) (a0 : ∀ w, Pipeline.arrRef spec0 w ≠ b) (h1 : b ∉ writes1)
    (a1 : ∀ w, Pipeline.arrRef spec1 w ≠ b) :
    W4 m ρ c (Proc.devRef .tc b) = m ((c.tc : Thread nD τ).loc b) :=
  (W4_of_ne m ρ c b a1).trans (W3_launch m ρ c b h0 a0 h1)

theorem W5_launch (b : Ref sig .tc) (h0 : b ∉ writes0) (a0 : ∀ w, Pipeline.arrRef spec0 w ≠ b) (h1 : b ∉ writes1)
    (a1 : ∀ w, Pipeline.arrRef spec1 w ≠ b) (h2 : b ∉ writes2) :
    W5 m ρ c (Proc.devRef .tc b) = m ((c.tc : Thread nD τ).loc b) :=
  (keep2 (W4 m ρ c) b h2).trans (W4_launch m ρ c b h0 a0 h1 a1)

theorem W6_launch (b : Ref sig .tc) (h0 : b ∉ writes0) (a0 : ∀ w, Pipeline.arrRef spec0 w ≠ b) (h1 : b ∉ writes1)
    (a1 : ∀ w, Pipeline.arrRef spec1 w ≠ b) (h2 : b ∉ writes2) (a2 : ∀ w, Pipeline.arrRef spec2 w ≠ b) :
    W6 m ρ c (Proc.devRef .tc b) = m ((c.tc : Thread nD τ).loc b) :=
  (W6_of_ne m ρ c b a2).trans (W5_launch m ρ c b h0 a0 h1 a1 h2)

/-! ## The edge numbers and the node weights, carried from the first stretch -/

/-- The source numbers after the first launch. -/
theorem W2_v1 : W2 m ρ c (Proc.devRef .tc main_v1) = srcs (m ((c.tc : Thread nD τ).loc main_arg1)) :=
  (W2_of_ne m ρ c main_v1 (by decide)).trans (host0_v1 (W0 m ρ c))

/-- The destination numbers after the first launch. -/
theorem W2_v3 : W2 m ρ c (Proc.devRef .tc main_v3) = dsts (m ((c.tc : Thread nD τ).loc main_arg1)) :=
  (W2_of_ne m ρ c main_v3 (by decide)).trans (host0_v3 (W0 m ρ c))

/-- The source numbers after the second launch. -/
theorem W4_v1 : W4 m ρ c (Proc.devRef .tc main_v1) = srcs (m ((c.tc : Thread nD τ).loc main_arg1)) :=
  (W4_of_ne m ρ c main_v1 (by decide)).trans ((keep1 (W2 m ρ c) main_v1 (by decide)).trans (W2_v1 m ρ c))

/-- The destination numbers after the second launch. -/
theorem W4_v3 : W4 m ρ c (Proc.devRef .tc main_v3) = dsts (m ((c.tc : Thread nD τ).loc main_arg1)) :=
  (W4_of_ne m ρ c main_v3 (by decide)).trans ((keep1 (W2 m ρ c) main_v3 (by decide)).trans (W2_v3 m ρ c))

/-- The weight column is an input of the first launch: it leaves it as it found it. -/
theorem W2_v12 : W2 m ρ c (Proc.devRef .tc main_v12) = W1 m ρ c (Proc.devRef .tc main_v12) :=
  (W2_arr m ρ c 2).trans (((dat0 (V1 m ρ) c).arrAt_in 2 rfl _).trans (A_eq0 (V1 m ρ) c 2))

/-- The second stretch does not write it. -/
theorem W3_v12 : W3 m ρ c (Proc.devRef .tc main_v12) = W1 m ρ c (Proc.devRef .tc main_v12) :=
  (keep1 (W2 m ρ c) main_v12 (by decide)).trans (W2_v12 m ρ c)

/-- It is an input of the second launch too. -/
theorem W4_v12 : W4 m ρ c (Proc.devRef .tc main_v12) = W1 m ρ c (Proc.devRef .tc main_v12) :=
  (W4_arr m ρ c 2).trans (((dat1 (V3 m ρ) c).arrAt_in 2 rfl _).trans ((A_eq1 (V3 m ρ) c 2).trans (W3_v12 m ρ c)))

/-- The third stretch does not write it. -/
theorem W5_v12 : W5 m ρ c (Proc.devRef .tc main_v12) = W1 m ρ c (Proc.devRef .tc main_v12) :=
  (keep2 (W4 m ρ c) main_v12 (by decide)).trans (W4_v12 m ρ c)

/-! ## What the first launch finds, and leaves -/

theorem V1_v22 : V1 m ρ c main_v22 = arr2 (agg (sidx (m ((c.tc : Thread nD τ).loc main_arg1))) (didx (m ((c.tc : Thread nD τ).loc main_arg1))) (m ((c.tc : Thread nD τ).loc main_arg0))) := host0_v22 (W0 m ρ c)
theorem V1_arg0 : V1 m ρ c main_arg0 = (m ((c.tc : Thread nD τ).loc main_arg0)) := keep0 (W0 m ρ c) main_arg0 (by decide)
theorem V1_v12 (p : Fin NN) : V1 m ρ c main_v12 (ix2 p 0) = dvec (m ((c.tc : Thread nD τ).loc main_arg1)) (ix1 p) := host0_v12 (W0 m ρ c) p
theorem V1_arg3 : V1 m ρ c main_arg3 = (m ((c.tc : Thread nD τ).loc main_arg3)) := keep0 (W0 m ρ c) main_arg3 (by decide)
theorem V1_arg5 : V1 m ρ c main_arg5 = (m ((c.tc : Thread nD τ).loc main_arg5)) := keep0 (W0 m ρ c) main_arg5 (by decide)
theorem V1_v23 (q : Fin 256) : V1 m ρ c main_v23 (ix2 0 q) = (m ((c.tc : Thread nD τ).loc main_arg4)) (ix1 q) := host0_v23 (W0 m ρ c) q

/-- The first launch leaves the first hidden layer. -/
theorem out0 (R0 : Reg.Region0) : W2 m ρ c (Proc.devRef .tc main_v24) = (h0A (sidx (m ((c.tc : Thread nD τ).loc main_arg1))) (didx (m ((c.tc : Thread nD τ).loc main_arg1))) (fun p => dvec (m ((c.tc : Thread nD τ).loc main_arg1)) (ix1 p)) (m ((c.tc : Thread nD τ).loc main_arg0)) (m ((c.tc : Thread nD τ).loc main_arg3)) (m ((c.tc : Thread nD τ).loc main_arg4)) (m ((c.tc : Thread nD τ).loc main_arg5))) := by
  refine (W2_arr m ρ c 6).trans ((R0 (V1 m ρ) c).trans ?_)
  simp only [V1_v22 m ρ c, V1_arg0 m ρ c, V1_v12 m ρ c, V1_arg3 m ρ c, V1_arg5 m ρ c, V1_v23 m ρ c]
  rfl

/-! ## What the second launch finds, and leaves -/

theorem V3_v34 (R0 : Reg.Region0) : V3 m ρ c main_v34 = arr2 (agg (sidx (m ((c.tc : Thread nD τ).loc main_arg1))) (didx (m ((c.tc : Thread nD τ).loc main_arg1))) (h0A (sidx (m ((c.tc : Thread nD τ).loc main_arg1))) (didx (m ((c.tc : Thread nD τ).loc main_arg1))) (fun p => dvec (m ((c.tc : Thread nD τ).loc main_arg1)) (ix1 p)) (m ((c.tc : Thread nD τ).loc main_arg0)) (m ((c.tc : Thread nD τ).loc main_arg3)) (m ((c.tc : Thread nD τ).loc main_arg4)) (m ((c.tc : Thread nD τ).loc main_arg5)))) := by
  refine (host1_v34 (W2 m ρ c)).trans ?_
  rw [W2_v1 m ρ c, W2_v3 m ρ c, out0 m ρ c R0]
  rfl
theorem V3_v24 (R0 : Reg.Region0) : V3 m ρ c main_v24 = (h0A (sidx (m ((c.tc : Thread nD τ).loc main_arg1))) (didx (m ((c.tc : Thread nD τ).loc main_arg1))) (fun p => dvec (m ((c.tc : Thread nD τ).loc main_arg1)) (ix1 p)) (m ((c.tc : Thread nD τ).loc main_arg0)) (m ((c.tc : Thread nD τ).loc main_arg3)) (m ((c.tc : Thread nD τ).loc main_arg4)) (m ((c.tc : Thread nD τ).loc main_arg5))) :=
  (keep1 (W2 m ρ c) main_v24 (by decide)).trans (out0 m ρ c R0)
theorem V3_v12 (p : Fin NN) : V3 m ρ c main_v12 (ix2 p 0) = dvec (m ((c.tc : Thread nD τ).loc main_arg1)) (ix1 p) := by
  show W3 m ρ c (Proc.devRef .tc main_v12) (ix2 p 0) = _
  rw [W3_v12 m ρ c]
  exact host0_v12 (W0 m ρ c) p
theorem V3_arg6 : V3 m ρ c main_arg6 = (m ((c.tc : Thread nD τ).loc main_arg6)) := W3_launch m ρ c main_arg6 (by decide) (by decide) (by decide)
theorem V3_arg8 : V3 m ρ c main_arg8 = (m ((c.tc : Thread nD τ).loc main_arg8)) := W3_launch m ρ c main_arg8 (by decide) (by decide) (by decide)
theorem V3_arg9 : V3 m ρ c main_arg9 = (m ((c.tc : Thread nD τ).loc main_arg9)) := W3_launch m ρ c main_arg9 (by decide) (by decide) (by decide)
theorem V3_v35 (q : Fin 256) : V3 m ρ c main_v35 (ix2 0 q) = (m ((c.tc : Thread nD τ).loc main_arg7)) (ix1 q) := by
  refine (host1_v35 (W2 m ρ c) q).trans ?_
  rw [W2_launch m ρ c main_arg7 (by decide) (by decide)]

/-- The second launch's first output is the second hidden layer. -/
theorem out1a (R0 : Reg.Region0) (R1a : Reg.Region1a) : W4 m ρ c (Proc.devRef .tc main_v36_0) = (h1A (sidx (m ((c.tc : Thread nD τ).loc main_arg1))) (didx (m ((c.tc : Thread nD τ).loc main_arg1))) (fun p => dvec (m ((c.tc : Thread nD τ).loc main_arg1)) (ix1 p)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  refine (W4_arr m ρ c 7).trans ((R1a (V3 m ρ) c).trans ?_)
  simp only [V3_v34 m ρ c R0, V3_v24 m ρ c R0, V3_v12 m ρ c, V3_arg6 m ρ c, V3_arg8 m ρ c, V3_v35 m ρ c]
  rfl

/-- Its second output is that layer's rows times the last neighbour matrix. -/
theorem out1b (R0 : Reg.Region0) (R1b : Reg.Region1b) : W4 m ρ c (Proc.devRef .tc main_v36_1) = (hl2A (sidx (m ((c.tc : Thread nD τ).loc main_arg1))) (didx (m ((c.tc : Thread nD τ).loc main_arg1))) (fun p => dvec (m ((c.tc : Thread nD τ).loc main_arg1)) (ix1 p)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := by
  refine (W4_arr m ρ c 8).trans ((R1b (V3 m ρ) c).trans ?_)
  simp only [V3_v34 m ρ c R0, V3_v24 m ρ c R0, V3_v12 m ρ c, V3_arg6 m ρ c, V3_arg8 m ρ c, V3_v35 m ρ c, V3_arg9 m ρ c]
  rfl

/-! ## What the third launch finds, and leaves -/

theorem V5_v46 (R0 : Reg.Region0) (R1b : Reg.Region1b) : V5 m ρ c main_v46 = arr2 (agg (sidx (m ((c.tc : Thread nD τ).loc main_arg1))) (didx (m ((c.tc : Thread nD τ).loc main_arg1))) (hl2A (sidx (m ((c.tc : Thread nD τ).loc main_arg1))) (didx (m ((c.tc : Thread nD τ).loc main_arg1))) (fun p => dvec (m ((c.tc : Thread nD τ).loc main_arg1)) (ix1 p)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))) := by
  refine (host2_v46 (W4 m ρ c)).trans ?_
  rw [W4_v1 m ρ c, W4_v3 m ρ c, out1b m ρ c R0 R1b]
  rfl
theorem V5_v36_0 (R0 : Reg.Region0) (R1a : Reg.Region1a) : V5 m ρ c main_v36_0 = (h1A (sidx (m ((c.tc : Thread nD τ).loc main_arg1))) (didx (m ((c.tc : Thread nD τ).loc main_arg1))) (fun p => dvec (m ((c.tc : Thread nD τ).loc main_arg1)) (ix1 p)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (keep2 (W4 m ρ c) main_v36_0 (by decide)).trans (out1a m ρ c R0 R1a)
theorem V5_v12 (p : Fin NN) : V5 m ρ c main_v12 (ix2 p 0) = dvec (m ((c.tc : Thread nD τ).loc main_arg1)) (ix1 p) := by
  show W5 m ρ c (Proc.devRef .tc main_v12) (ix2 p 0) = _
  rw [W5_v12 m ρ c]
  exact host0_v12 (W0 m ρ c) p
theorem V5_arg11 : V5 m ρ c main_arg11 = (m ((c.tc : Thread nD τ).loc main_arg11)) :=
  W5_launch m ρ c main_arg11 (by decide) (by decide) (by decide) (by decide) (by decide)
theorem V5_v47 (q : Fin 128) : V5 m ρ c main_v47 (ix2 0 q) = (m ((c.tc : Thread nD τ).loc main_arg10)) (ix1 q) := by
  refine (host2_v47 (W4 m ρ c) q).trans ?_
  rw [W4_launch m ρ c main_arg10 (by decide) (by decide) (by decide) (by decide)]

/-- The third launch leaves the output layer. -/
theorem out2 (R0 : Reg.Region0) (R1a : Reg.Region1a) (R1b : Reg.Region1b) (R2 : Reg.Region2) :
    W6 m ρ c (Proc.devRef .tc main_v48) = (h2A (sidx (m ((c.tc : Thread nD τ).loc main_arg1))) (didx (m ((c.tc : Thread nD τ).loc main_arg1))) (fun p => dvec (m ((c.tc : Thread nD τ).loc main_arg1)) (ix1 p)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) := by
  refine (W6_arr m ρ c 5).trans ((R2 (V5 m ρ) c).trans ?_)
  simp only [V5_v46 m ρ c R0 R1b, V5_v36_0 m ρ c R0 R1a, V5_v12 m ρ c, V5_arg11 m ρ c, V5_v47 m ρ c]
  rfl

/-! ## What the last launch finds, and leaves -/

theorem V7_v60 (R0 : Reg.Region0) (R1a : Reg.Region1a) (R1b : Reg.Region1b) (R2 : Reg.Region2) :
    V7 m ρ c main_v60 = pool (m ((c.tc : Thread nD τ).loc main_arg2)) (h2A (sidx (m ((c.tc : Thread nD τ).loc main_arg1))) (didx (m ((c.tc : Thread nD τ).loc main_arg1))) (fun p => dvec (m ((c.tc : Thread nD τ).loc main_arg1)) (ix1 p)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) := by
  refine (host3_v60 (W6 m ρ c)).trans ?_
  rw [W6_launch m ρ c main_arg2 (by decide) (by decide) (by decide) (by decide) (by decide) (by decide),
    out2 m ρ c R0 R1a R1b R2]
theorem V7_v61 (q : Fin 128) : V7 m ρ c main_v61 (ix2 0 q) = (m ((c.tc : Thread nD τ).loc main_arg12)) (ix1 q) := by
  refine (host3_v61 (W6 m ρ c) q).trans ?_
  rw [W6_launch m ρ c main_arg12 (by decide) (by decide) (by decide) (by decide) (by decide) (by decide)]
theorem V7_v62 (q : Fin 128) : V7 m ρ c main_v62 (ix2 0 q) = (m ((c.tc : Thread nD τ).loc main_arg13)) (ix1 q) := by
  refine (host3_v62 (W6 m ρ c) q).trans ?_
  rw [W6_launch m ρ c main_arg13 (by decide) (by decide) (by decide) (by decide) (by decide) (by decide)]

/-- The last launch leaves the pooled and normalised network output. -/
theorem out3 (R0 : Reg.Region0) (R1a : Reg.Region1a) (R1b : Reg.Region1b) (R2 : Reg.Region2) (R3 : Reg.Region3) :
    W8 m ρ c (Proc.devRef .tc main_v63)
      = netA (sidx (m ((c.tc : Thread nD τ).loc main_arg1))) (didx (m ((c.tc : Thread nD τ).loc main_arg1))) (fun p => dvec (m ((c.tc : Thread nD τ).loc main_arg1)) (ix1 p)) (pool (m ((c.tc : Thread nD τ).loc main_arg2))) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  refine (W8_arr m ρ c 3).trans ((R3 (V7 m ρ) c).trans ?_)
  simp only [V7_v60 m ρ c R0 R1a R1b R2, V7_v61 m ρ c, V7_v62 m ρ c]
  rfl

end Walk

/-- THE RESULT: given what each launch leaves of what it finds, the result buffer at the last boundary is the first
    arrangement of the network at the argument arrays — the source and destination row numbers and the node weights
    from the edge list, the pooling by the graph numbers. -/
theorem result_eq (R0 : Reg.Region0) (R1a : Reg.Region1a) (R1b : Reg.Region1b) (R2 : Reg.Region2) (R3 : Reg.Region3)
    (m : (ℓ : Loc nD τ sig) → Buf (Elt Ideal) ℓ) (ρ : Dev nD → PrngReg) (c : Dev nD) :
    Gen.W8 (F := Ideal) m ρ c (Proc.devRef .tc main_v63)
      = Cert.Sage.netA (sidx (m ((c.tc : Thread nD τ).loc main_arg1))) (didx (m ((c.tc : Thread nD τ).loc main_arg1))) (fun p => dvec (m ((c.tc : Thread nD τ).loc main_arg1)) (ix1 p)) (pool (m ((c.tc : Thread nD τ).loc main_arg2))) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  out3 m ρ c R0 R1a R1b R2 R3

end Cert.KernelIdeal.KVal

end
-- ==== Proof.Region0.lean ====
/-
  The first launch, read as one array.

  The launch works on 25 blocks of 2000 rows. At block `t` it loads rows `2000 t … 2000 t + 1999` of the aggregate, of
  the node features and of the reciprocal degrees (one column each), the two weight rows and the bias row whole, and
  stores, at row `p` and column `q` of the block,

      max ((a · d) · wl q + x · wr q + b q) 0

  with `a`, `x`, `d` the three column entries of row `2000 t + p`. That is the first hidden layer's entry at row
  `2000 t + p`, column `q`. Every row `r` of the 50000 lies in exactly the block numbered `r / 2000`, and every block is
  written back, so after the last block the output array holds the layer at every entry.
-/
import proofs.«103097_j17102559773409_2_alg».proof.Proof.RegionStmts
import proofs.«103097_j17102559773409_2_alg».proof.Proof.LibKeepdims
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Reg.R0

open Idealize.ShloMosaic Idealize.ShloMosaic.TcCoe Idealize.ShloMosaic.ValueIdx Idealize.SL.Sem
open Cert.KernelIdeal Cert.KernelIdeal.Gen Cert.KernelIdeal.Reg Cert.Sage
open Idealize.ShloMosaic.Pipeline (Dat)

/-- The zero offsets of a whole-block access, as a constant function. -/
theorem hz2 : (![0, 0] : Fin 2 → Nat) = fun _ => 0 := funext fun a => by fin_cases a <;> rfl

/-- The first launch's stored value at row `p`, column `q` of a block, from the six loaded blocks: the aggregate's entry
    times the reciprocal degree times the neighbour weight, plus the feature times the root weight, plus the bias,
    cut below at zero. -/
theorem pay0_apply (x0 x2 : Vec Ideal S2000x1 .f32) (x3 : Vec Ideal S1x256 .f32) (x1 : Vec Ideal S2000x1 .f32)
    (x4 x5 : Vec Ideal S1x256 .f32) (p : Fin 2000) (q : Fin 256) :
    k0_pay1 (F := Ideal) x0 x2 x3 x1 x4 x5 (ix2 p q)
      = max ((x0 (ix2 p 0) * x2 (ix2 p 0)) * x3 (ix2 0 q) + x1 (ix2 p 0) * x4 (ix2 0 q) + x5 (ix2 0 q)) 0 := by
  unfold k0_pay1
  simp only [shapeCast_self]
  rw [maximumf_apply, addf_apply, addf_apply, mulf_apply, mulf_apply,
    broadcastTo_a1_ab_apply, broadcastTo_a1_ab_apply, broadcastTo_1b_ab_apply, broadcastTo_1b_ab_apply,
    broadcastTo_1b_ab_apply, mulf_apply, broadcast_apply]
  show max _ (Ideal.ofBits .f32 0x00000000#32) = _
  rw [Ideal.ofBits_zero_f32]

/-- The block index maps of the first launch over its 25 points: row-blocked windows sit at block (t, 0), the weight
    and bias rows at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of the aggregate's block at point `t` is row `2000 t + p` of the aggregate. -/
theorem blk0_0 (V : Contents) (c : Dev nD) (t : Fin cfg0.N) (p : Fin 2000) (q : Fin 1) (r : Fin 50000) (hr : r.val = t.val * 2000 + p.val) :
    (iblk0 (F := Ideal) V c 0 t : Vec Ideal S2000x1 .f32) (ix2 p q) = (V c main_v22 : A2 50000 1) (ix2 r q) := by
  have e0 := (idx_facts0 t).1
  have e1 := (idx_facts0 t).2.1
  unfold iblk0
  rw [View.read_apply]
  show V c main_v22 _ = V c main_v22 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 1 + 1 * q.val = q.val; rw [e1]; omega

/-- Row `p` of the feature block at point `t` is row `2000 t + p` of the features. -/
theorem blk0_1 (V : Contents) (c : Dev nD) (t : Fin cfg0.N) (p : Fin 2000) (q : Fin 1) (r : Fin 50000) (hr : r.val = t.val * 2000 + p.val) :
    (iblk0 (F := Ideal) V c 1 t : Vec Ideal S2000x1 .f32) (ix2 p q) = (V c main_arg0 : A2 50000 1) (ix2 r q) := by
  have e0 := (idx_facts0 t).2.2.1
  have e1 := (idx_facts0 t).2.2.2.1
  unfold iblk0
  rw [View.read_apply]
  show V c main_arg0 _ = V c main_arg0 _
  congr 1
  funext a
  apply Fin.ext
  match a with
  | ⟨0, _⟩ => show win0_1.index t (0 : Fin 2) * 2000 + 1 * p.val = r.val; rw [e0, hr]; omega
  | ⟨1, _⟩ => show win0_1.index t (1 : Fin 2) * 1 + 1 * q.val = q.val; rw [e1]; omega

/-- Row `p` of the reciprocal-degree block at point `t` is row `2000 t + p` of the reciprocal degrees. -/
theorem blk0_2 (V : Contents) (c : Dev nD) (t : Fin cfg0.N) (p : Fin 2000) (q : Fin 1) (r : Fin 50000) (hr : r.val = t.val * 2000 + p.val) :
    (iblk0 (F := Ideal) V c 2 t : Vec Ideal S2000x1 .f32) (ix2 p q) = (V c main_v12 : A2 50000 1) (ix2 r q) := by
  have e0 := (idx_facts0 t).2.2.2.2.1
  have e1 := (idx_facts0 t).2.2.2.2.2.1
  unfold iblk0
  rw [View.read_apply]
  show V c main_v12 _ = V c main_v12 _
  congr 1
  funext a
  apply Fin.ext
  match a with
  | ⟨0, _⟩ => show win0_2.index t (0 : Fin 2) * 2000 + 1 * p.val = r.val; rw [e0, hr]; omega
  | ⟨1, _⟩ => show win0_2.index t (1 : Fin 2) * 1 + 1 * q.val = q.val; rw [e1]; omega

/-- The neighbour weight row's block is the whole row at every point. -/
theorem blk0_3 (V : Contents) (c : Dev nD) (t : Fin cfg0.N) (k : Fin 1) (q : Fin 256) :
    (iblk0 (F := Ideal) V c 3 t : Vec Ideal S1x256 .f32) (ix2 k q) = (V c main_arg3 : A2 1 256) (ix2 k q) := by
  have e0 := (idx_facts0 t).2.2.2.2.2.2.1
  have e1 := (idx_facts0 t).2.2.2.2.2.2.2.1
  unfold iblk0
  rw [View.read_apply]
  show V c main_arg3 _ = V c main_arg3 _
  congr 1
  funext a
  apply Fin.ext
  match a with
  | ⟨0, _⟩ => show win0_3.index t (0 : Fin 2) * 1 + 1 * k.val = k.val; rw [e0]; omega
  | ⟨1, _⟩ => show win0_3.index t (1 : Fin 2) * 256 + 1 * q.val = q.val; rw [e1]; omega

/-- The root weight row's block is the whole row at every point. -/
theorem blk0_4 (V : Contents) (c : Dev nD) (t : Fin cfg0.N) (k : Fin 1) (q : Fin 256) :
    (iblk0 (F := Ideal) V c 4 t : Vec Ideal S1x256 .f32) (ix2 k q) = (V c main_arg5 : A2 1 256) (ix2 k q) := by
  have e0 := (idx_facts0 t).2.2.2.2.2.2.2.2.1
  have e1 := (idx_facts0 t).2.2.2.2.2.2.2.2.2.1
  unfold iblk0
  rw [View.read_apply]
  show V c main_arg5 _ = V c main_arg5 _
  congr 1
  funext a
  apply Fin.ext
  match a with
  | ⟨0, _⟩ => show win0_4.index t (0 : Fin 2) * 1 + 1 * k.val = k.val; rw [e0]; omega
  | ⟨1, _⟩ => show win0_4.index t (1 : Fin 2) * 256 + 1 * q.val = q.val; rw [e1]; omega

/-- The bias row's block is the whole row at every point. -/
theorem blk0_5 (V : Contents) (c : Dev nD) (t : Fin cfg0.N) (k : Fin 1) (q : Fin 256) :
    (iblk0 (F := Ideal) V c 5 t : Vec Ideal S1x256 .f32) (ix2 k q) = (V c main_v23 : A2 1 256) (ix2 k q) := by
  have e0 := (idx_facts0 t).2.2.2.2.2.2.2.2.2.2.1
  have e1 := (idx_facts0 t).2.2.2.2.2.2.2.2.2.2.2.1
  unfold iblk0
  rw [View.read_apply]
  show V c main_v23 _ = V c main_v23 _
  congr 1
  funext a
  apply Fin.ext
  match a with
  | ⟨0, _⟩ => show win0_5.index t (0 : Fin 2) * 1 + 1 * k.val = k.val; rw [e0]; omega
  | ⟨1, _⟩ => show win0_5.index t (1 : Fin 2) * 256 + 1 * q.val = q.val; rw [e1]; omega

/-- The first hidden layer as one array function of the buffers the launch reads. -/
abbrev layer0 (V : Contents) (c : Dev nD) : A2 50000 256 := arr2 fun p q =>
  max (lin0A (V c main_v22) (V c main_arg0) (fun p => V c main_v12 (ix2 p 0)) (V c main_arg3) (V c main_arg5)
    (fun q => V c main_v23 (ix2 0 q)) p q) 0

/-- What point `t` stores at row `p`, column `q` of its block is the layer's entry at row `2000 t + p`. -/
theorem point0 (V : Contents) (c : Dev nD) (t : Fin cfg0.N) (p : Fin 2000) (q : Fin 256) (r : Fin 50000)
    (hr : r.val = t.val * 2000 + p.val) :
    k0_pay1 (F := Ideal) (iblk0 V c 0 t) (iblk0 V c 2 t) (iblk0 V c 3 t) (iblk0 V c 1 t) (iblk0 V c 4 t) (iblk0 V c 5 t) (ix2 p q)
      = layer0 V c (ix2 r q) := by
  refine (pay0_apply (iblk0 V c 0 t) (iblk0 V c 2 t) (iblk0 V c 3 t) (iblk0 V c 1 t) (iblk0 V c 4 t) (iblk0 V c 5 t) p q).trans ?_
  rw [blk0_0 V c t p 0 r hr, blk0_1 V c t p 0 r hr, blk0_2 V c t p 0 r hr, blk0_3 V c t 0 q, blk0_4 V c t 0 q, blk0_5 V c t 0 q]
  rfl

/-- What point `t` writes back is block `t` of the layer. -/
theorem flushed0_eq (V : Contents) (c : Dev nD) (t : Fin cfg0.N) :
    (dat0 (F := Ideal) V c).flushed 6 t = ((cfg0.win 6).blk t).view.read (Elt Ideal) (layer0 V c) := by
  show (cfg0.win 6).cut (grid0.coords t) ((dat0 V c).after 6 t) = _
  rw [after0_6]
  unfold out0_6
  rw [View.canon_unit_zero hz2]
  simp only [View.ld_unit_zero (S := S2000x1) hz2, View.ld_unit_zero (S := S1x256) hz2]
  funext j
  obtain ⟨p, q, rfl⟩ : ∃ (p : Fin 2000) (q : Fin 256), j = ix2 p q := ⟨j 0, j 1, eq_ix2 j⟩
  have ht : t.val < 25 := Nat.lt_of_lt_of_eq t.isLt (show cfg0.N = 25 from N_0)
  have e0 := (idx_facts0 t).2.2.2.2.2.2.2.2.2.2.2.2.1
  have e1 := (idx_facts0 t).2.2.2.2.2.2.2.2.2.2.2.2.2
  rw [View.read_apply]
  refine (point0 V c t p q ⟨t.val * 2000 + p.val, by have := p.isLt; omega⟩ rfl).trans ?_
  show layer0 V c _ = layer0 V c _
  congr 1
  funext a
  apply Fin.ext
  match a with
  | ⟨0, _⟩ => show t.val * 2000 + p.val = win0_6.index t (0 : Fin 2) * 2000 + 1 * p.val; rw [e0]; omega
  | ⟨1, _⟩ => show q.val = win0_6.index t (1 : Fin 2) * 256 + 1 * q.val; rw [e1]; omega

/-- A row and column of the layer's array lie in point `t`'s block iff each coordinate is in the block's range. -/
theorem mem_blk0 (t : Fin cfg0.N) (i : S50000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v24).slice (win0_6.rect t)).set ↔ _
  rw [View.set_slice_whole, Rect.mem_set_unit]
  exact Iff.rfl

/-- Every row of the layer's array lies in the block of the point numbered by the row divided by 2000, and that point
    writes its block back. -/
theorem cover0 (i : S50000x256.Idx) : ∃ t : Fin cfg0.N, (cfg0.win 6).flush t = true ∧ i ∈ ((cfg0.win 6).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  have e0 : win0_6.index t (0 : Fin 2) = (i 0).val / 2000 := (idx_facts0 t).2.2.2.2.2.2.2.2.2.2.2.2.1
  have e1 := (idx_facts0 t).2.2.2.2.2.2.2.2.2.2.2.2.2
  refine ⟨t, flush0_6 t, ?_⟩
  rw [mem_blk0]
  intro a
  match a with
  | ⟨0, _⟩ => show win0_6.index t (0 : Fin 2) * 2000 ≤ (i 0).val ∧ (i 0).val < win0_6.index t (0 : Fin 2) * 2000 + 2000; rw [e0]; omega
  | ⟨1, _⟩ => show win0_6.index t (1 : Fin 2) * 256 ≤ (i 1).val ∧ (i 1).val < win0_6.index t (1 : Fin 2) * 256 + 256; rw [e1]; omega

end Cert.KernelIdeal.Reg.R0

namespace Cert.KernelIdeal.Reg

open Idealize.ShloMosaic Idealize.ShloMosaic.TcCoe
open Cert.KernelIdeal Cert.KernelIdeal.Gen

/-- After its 25 points the first launch's output array holds the first hidden layer of the buffers it read. -/
theorem region0 : Region0 := fun V c =>
  (dat0 (F := Ideal) V c).arrAt_eq_of_cover 6 (R0.layer0 V c) (fun t _ => R0.flushed0_eq V c t) R0.cover0

end Cert.KernelIdeal.Reg

end
-- ==== Proof.LibRowReduce.lean ====
/-
  Row reductions of a matrix and a scalar broadcast, read at an index given by coordinates, at the exact values.

  A `vector.multi_reduction` along axis `1` of an `[a, b]` array, read at row `p`: for `<add>` from the zero word the sum
  over the row's `b` entries; for `<maximumf>` from the word of `-∞` the fold of `max` over them, in any order. Both are
  stated with the accumulator hypothesis as the printed programs carry it (an equation between two copies of the same
  word), so that they apply to a printed reduction as it stands. A `[1, 1]` array broadcast to `[a, b]` reads its one
  entry everywhere. Generic in `a` and `b`.
-/
import Idealize.ShloMosaic.Lib.Pipeline.Value
import Idealize.ShloMosaic.Lib.ValueIdx
import Idealize.ShloMosaic.PureOps.Ideal.Laws

namespace Idealize.ShloMosaic.ValueIdx

open Idealize.ShloMosaic

/-- A `[1, 1]` array broadcast to `[a, b]` reads, at every `(p, c)`, its one entry: both axes of the operand are unit
    axes and read coordinate `0`. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) :=
  broadcastTo_apply v h (ix2 p c) (ix2 (0 : Fin 1) (0 : Fin 1)) fun ax => by
    match ax with
    | ⟨0, _⟩ => rfl
    | ⟨1, _⟩ => rfl

/-- The sum along the rows of an `[a, b]` array of exact values, at row `p`: the sum over the row's `b` entries (the
    reduced index with the coordinate `t` put back on axis `1` is `(p, t)`). -/
theorem multiReduction_add_row {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ t : Fin b, src (ix2 p t) := by
  refine (Ideal.multiReduction_add_single src 0x00000000#32 h hφ hacc (ix1 p)).trans ?_
  exact Finset.sum_congr rfl fun t _ => congrArg src (funext fun c => Fin.ext (by
    match c with
    | ⟨0, _⟩ => rfl
    | ⟨1, _⟩ => rfl))

/-- The maximum along the rows of an `[a, b]` array of exact values, at row `p`: the fold of `max` over the row's `b`
    entries, started from what the word of `-∞` denotes. -/
theorem multiReduction_maximumf_row {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun t => src (ix2 p t)) := by
  refine (Ideal.multiReduction_maximumf_single src 0xFF800000#32 h hφ hacc (ix1 p)).trans ?_
  refine congrArg ((Finset.univ : Finset (Fin b)).fold max (Ideal.ofBits .f32 0xFF800000#32)) (funext fun t => ?_)
  exact congrArg src (funext fun c => Fin.ext (by
    match c with
    | ⟨0, _⟩ => rfl
    | ⟨1, _⟩ => rfl))

end Idealize.ShloMosaic.ValueIdx
-- ==== Proof.LibDotPlain.lean ====
/-
  A matrix product with one contracted axis, read at an entry.

  For dimension numbers `D` of a product [N, K] × [K, M] → [N, M] that contract the left operand's axis 1 against the
  right operand's axis 0, the sum over the contraction's index set of the products of the operands read at `D`'s operand
  indices is the plain sum over `k : Fin K` of `l (p, k) · r (k, q)`. The four hypotheses say where `D` reads its
  operands, coordinate by coordinate; for printed dimension numbers each is one line (the two non-contracted
  coordinates by unfolding the index function, the two contracted ones by `DotDims.lhsIdx_val_of_single` and
  `DotDims.rhsIdx_val_of_single`).
-/
import Idealize.ShloMosaic.PureOps.Ideal
import Idealize.ShloMosaic.PureOps.Ideal.Laws
import Idealize.ShloMosaic.Lib.ValueIdx

noncomputable section

open scoped BigOperators

namespace Cert.LibDotPlain

open Idealize.ShloMosaic Idealize.ShloMosaic.ValueIdx

/-- The contraction's sum, re-indexed by the contracted coordinate. -/
theorem sum_contr_plain {N K M : Nat} {α : Type} [AddCommMonoid α] [Mul α]
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (l : (⟨2, ![N, K]⟩ : Shape).Idx → α) (r : (⟨2, ![K, M]⟩ : Shape).Idx → α) (p : Fin N) (q : Fin M) :
    ∑ k : D.contr.Idx, l (D.lhsIdx (ix2 p q) k) * r (D.rhsIdx (ix2 p q) k) = ∑ k : Fin K, l (ix2 p k) * r (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A matrix-unit product into a zero accumulator, at the extended reals, read at entry (p, q). -/
theorem matmul_zero_plain {N K M : Nat} {φ₁ φ₂ : FTy}
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (prec : Option ContractPrecision)
    (l : FVec Ideal ⟨2, ![N, K]⟩ φ₁) (r : FVec Ideal ⟨2, ![K, M]⟩ φ₂) (p : Fin N) (q : Fin M) :
    FloatOps.matmul D prec l r (constant ⟨2, ![N, M]⟩ .f32 0x00000000#32) (ix2 p q) = ∑ k : Fin K, l (ix2 p k) * r (ix2 k q) :=
  (Ideal.matmul_constant_zero_apply D prec l r (ix2 p q)).trans (sum_contr_plain D hr hs hl0 hl1 hr0 hr1 l r p q)

end Cert.LibDotPlain

end
-- ==== Proof.LibPlainDot.lean ====
/-
  Plain matrix products on the host, read at an entry.

  Dimension numbers of a product [N, K] × [K, M] → [N, M] are PLAIN when they contract the left operand's axis 1 against
  the right operand's axis 0, keep the left operand's axis 0 and the right operand's axis 1, and have no batch axis.
  For such dimension numbers the contraction has one axis of extent K, the operands are read at (p, k) and (k, q),
  and the host's product at entry (p, q) is the sum over k of l (p, k) · r (k, q) on the extended reals.
-/
import Idealize.ShloMosaic.PureOps.Ideal
import Idealize.ShloMosaic.PureOps.Ideal.Laws
import Idealize.ShloMosaic.Lib.ValueIdx
import proofs.«103097_j17102559773409_2_alg».proof.Proof.LibDotPlain

noncomputable section

open scoped BigOperators

namespace Cert.LibPlainDot

open Idealize.ShloMosaic Idealize.ShloMosaic.ValueIdx

variable {N K M : Nat} (D : DotDims ⟨2, ![N, K]⟩ ⟨2, ![K, M]⟩ ⟨2, ![N, M]⟩)

/-- What makes dimension numbers plain. -/
structure Plain : Prop where
  lc : D.lhsContracting = [1]
  rc : D.rhsContracting = [0]
  ln : D.lhsNonContracting = [0]
  rn : D.rhsNonContracting = [1]
  lb : D.lhsBatch = []
  rb : D.rhsBatch = []

variable {D}

theorem Plain.rank (h : Plain D) : D.contr.rank = 1 := by rw [D.rank_contr, h.lc]; rfl

theorem Plain.size (h : Plain D) : D.contr.size ⟨0, by rw [h.rank]; exact Nat.one_pos⟩ = K := by
  have hp : 0 < D.lhsContracting.length := by rw [h.lc]; exact Nat.one_pos
  rw [D.size_contr 0 hp]
  have : D.lhsContracting[0] = (1 : Fin 2) := by simp [h.lc]
  rw [this]; rfl

theorem Plain.l0 (h : Plain D) (i : (⟨2, ![N, M]⟩ : Shape).Idx) (k : D.contr.Idx) : (D.lhsIdx i k 0).val = (i 0).val := by
  unfold DotDims.lhsIdx
  simp only [h.lb, h.ln, List.not_mem_nil, List.mem_singleton, dite_false, dite_true, Fin.val_cast]
  have key : ∀ (p q : Nat) (hp : p < 2) (hq : q < 2), p = q → (i ⟨p, hp⟩).val = (i ⟨q, hq⟩).val :=
    fun p q hp hq e => by subst e; rfl
  exact key _ _ _ _ (by simp [h.lb, h.ln])

theorem Plain.l1 (h : Plain D) (i : (⟨2, ![N, M]⟩ : Shape).Idx) (k : D.contr.Idx) :
    (D.lhsIdx i k 1).val = (k ⟨0, by rw [h.rank]; exact Nat.one_pos⟩).val := D.lhsIdx_val_of_single h.lc i k

theorem Plain.r0 (h : Plain D) (i : (⟨2, ![N, M]⟩ : Shape).Idx) (k : D.contr.Idx) :
    (D.rhsIdx i k 0).val = (k ⟨0, by rw [h.rank]; exact Nat.one_pos⟩).val := D.rhsIdx_val_of_single h.rc i k

theorem Plain.r1 (h : Plain D) (i : (⟨2, ![N, M]⟩ : Shape).Idx) (k : D.contr.Idx) : (D.rhsIdx i k 1).val = (i 1).val := by
  unfold DotDims.rhsIdx
  have h10 : ¬ ((1 : Fin 2) ∈ ([] : List (Fin 2))) := List.not_mem_nil
  simp only [h.rb, h.rn, List.not_mem_nil, List.mem_singleton, dite_false, dite_true, Fin.val_cast]
  have key : ∀ (p q : Nat) (hp : p < 2) (hq : q < 2), p = q → (i ⟨p, hp⟩).val = (i ⟨q, hq⟩).val :=
    fun p q hp hq e => by subst e; rfl
  exact key _ _ _ _ (by simp [h.lb, h.ln, h.rn])

/-- The host's plain product at entry (p, q). -/
theorem hostDot_apply (h : Plain D) {φ₁ φ₂ : FTy} (prec : Option ContractPrecision) (l : FVec Ideal ⟨2, ![N, K]⟩ φ₁)
    (r : FVec Ideal ⟨2, ![K, M]⟩ φ₂) (p : Fin N) (q : Fin M) :
    Host.dotGeneral D prec l r (ix2 p q) = ∑ k : Fin K, l (ix2 p k) * r (ix2 k q) := by
  simp only [Host.dotGeneral]
  rw [Ideal.dotGeneral_apply]
  exact Cert.LibDotPlain.sum_contr_plain D h.rank h.size h.l0 h.l1 h.r0 h.r1 l r p q

/-- A matrix-unit plain product into a zero accumulator at entry (p, q). -/
theorem matmul_zero_apply (h : Plain D) {φ₁ φ₂ : FTy} (prec : Option ContractPrecision) (l : FVec Ideal ⟨2, ![N, K]⟩ φ₁)
    (r : FVec Ideal ⟨2, ![K, M]⟩ φ₂) (p : Fin N) (q : Fin M) :
    FloatOps.matmul D prec l r (constant ⟨2, ![N, M]⟩ .f32 0x00000000#32) (ix2 p q) = ∑ k : Fin K, l (ix2 p k) * r (ix2 k q) :=
  Cert.LibDotPlain.matmul_zero_plain D h.rank h.size h.l0 h.l1 h.r0 h.r1 prec l r p q

end Cert.LibPlainDot

end
-- ==== Proof.Region1.lean ====
/-
  What the second launch leaves in its two output arrays.

  The launch works on the 50000 nodes in 25 blocks of 2000 rows. At grid point t the body reads rows 2000 t … 2000 t + 1999
  of the aggregate, of the first hidden layer and of the reciprocal degrees, and the whole of the two weight matrices, the
  bias row and the last matrix. At row p, column q of the block it leaves, in the first output, the aggregate's row scaled
  by the row's reciprocal degree times the neighbour matrix, plus the row's own features times the root matrix, plus the
  bias, cut off below at zero; in the second output, that first result's row p times the last matrix. Each matrix product
  into a zero accumulator is, at an entry, the sum over the contracted index of the products of the operands' entries;
  the change of float format in front of the products is the identity on exact values.

  Row p of block t is row 2000 t + p of each row-blocked array, so what point t writes back is block t of ONE whole-array
  function: the layer formula `lin1A` of Proof/Spec.lean cut off at zero for the first output, and that array's rows times
  the last matrix (`proj`) for the second. Row r lies in the block of point r / 2000 and every point writes back, so the
  blocks cover both arrays, which therefore end holding exactly those functions.
-/
import proofs.«103097_j17102559773409_2_alg».proof.Proof.RegionStmts
import proofs.«103097_j17102559773409_2_alg».proof.Proof.LibRowReduce
import proofs.«103097_j17102559773409_2_alg».proof.Proof.LibKeepdims
import proofs.«103097_j17102559773409_2_alg».proof.Proof.LibPlainDot
import Idealize.ShloMosaic.Lib.Pipeline.Value
import Idealize.ShloMosaic.Lib.ValueLayout

noncomputable section

namespace Cert.KernelIdeal.Reg

open Idealize.ShloMosaic Idealize.ShloMosaic.TcCoe Idealize.ShloMosaic.ValueIdx Idealize.SL.Sem
open Cert.KernelIdeal Cert.KernelIdeal.Gen Cert.Sage
open Idealize.ShloMosaic.Pipeline (Dat)

namespace R1

private theorem zero2 : (![0, 0] : Fin 2 → Nat) = fun _ => 0 := funext fun a => by fin_cases a <;> rfl

/-! ## The body's two results at an entry of a block -/

/-- The two matrix products of the launch contract the left operand's columns against the right operand's rows. -/
theorem plain256 : Cert.LibPlainDot.Plain dot_S2000x256_S256x256_S2000x256_1_0_0_1_n_n := ⟨rfl, rfl, rfl, rfl, rfl, rfl⟩
theorem plain128 : Cert.LibPlainDot.Plain dot_S2000x256_S256x128_S2000x128_1_0_0_1_n_n := ⟨rfl, rfl, rfl, rfl, rfl, rfl⟩

/-- The layer formula over one block of 2000 rows: the aggregate's row scaled by the row's reciprocal degree times the
    neighbour matrix, plus the row's own features times the root matrix, plus the bias, cut off below at zero. -/
def blockLayer (a : Vec Ideal S2000x256 .f32) (d : Vec Ideal S2000x1 .f32) (h : Vec Ideal S2000x256 .f32)
    (Wl Wr : Vec Ideal S256x256 .f32) (b : Vec Ideal S1x256 .f32) (p : Fin 2000) (q : Fin 256) : EReal :=
  max ((∑ k : Fin 256, (a (ix2 p k) * d (ix2 p 0)) * Wl (ix2 k q)) + (∑ k : Fin 256, h (ix2 p k) * Wr (ix2 k q)) + b (ix2 0 q)) 0

/-- The body's first result at row p, column q of the block. -/
theorem pay1_apply (x0 : Vec Ideal S2000x256 .f32) (x2 : Vec Ideal S2000x1 .f32) (x7 : Vec Ideal S2000x256 .f32)
    (x10 x12 : Vec Ideal S256x256 .f32) (x17 : Vec Ideal S1x256 .f32) (p : Fin 2000) (q : Fin 256) :
    k1_pay1 x0 x2 x7 x10 x12 x17 (ix2 p q) = blockLayer x0 x2 x7 x10 x12 x17 p q := by
  unfold k1_pay1
  simp only [shapeCast_self]
  simp only [maximumf_apply, addf_apply, broadcast_apply, broadcastTo_1b_ab_apply]
  refine congrArg₂ max (congrArg₂ (· + ·) (congrArg₂ (· + ·) ?_ ?_) rfl) Ideal.ofBits_zero_f32
  · refine (Cert.LibPlainDot.matmul_zero_apply plain256 none _ _ p q).trans (Finset.sum_congr rfl fun k _ => ?_)
    refine congrArg (· * x10 (ix2 k q)) ?_
    exact congrArg (x0 (ix2 p k) * ·) (broadcastTo_a1_ab_apply x2 broadcasts_S2000x1_S2000x256 p k)
  · exact Cert.LibPlainDot.matmul_zero_apply plain256 none _ _ p q

/-- The body's second result at row p, column q of the block: the first result's row p times the last matrix. -/
theorem pay2_apply (x0 : Vec Ideal S2000x256 .f32) (x2 : Vec Ideal S2000x1 .f32) (x7 : Vec Ideal S2000x256 .f32)
    (x10 x12 : Vec Ideal S256x256 .f32) (x17 : Vec Ideal S1x256 .f32) (x24 : Vec Ideal S256x128 .f32) (p : Fin 2000) (q : Fin 128) :
    k1_pay2 x0 x2 x7 x10 x12 x17 x24 (ix2 p q) = ∑ k : Fin 256, blockLayer x0 x2 x7 x10 x12 x17 p k * x24 (ix2 k q) := by
  unfold k1_pay2
  refine (Cert.LibPlainDot.matmul_zero_apply plain128 none _ _ p q).trans (Finset.sum_congr rfl fun k _ => ?_)
  exact congrArg (· * x24 (ix2 k q)) (pay1_apply x0 x2 x7 x10 x12 x17 p k)

/-! ## Where the blocks sit in the arrays -/

/-- The printed index maps over the 25 grid points: the row-blocked windows (the aggregate, the first hidden layer, the
    reciprocal degrees and the two outputs) have block index (t, 0) at point t; the two weight matrices, the bias row and
    the last matrix have block index (0, 0): their block is the whole array. -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0)
    ∧ (win1_8.index t (0 : Fin 2) = t.val ∧ win1_8.index t (1 : Fin 2) = 0) :=
  (by decide +kernel : ∀ t : Fin grid1.N, _)

/-- Row p of the block at grid point t is row 2000 t + p of the array. -/
def rowOf (t : Fin cfg1.N) (p : Fin 2000) : Fin 50000 :=
  ⟨t.val * 2000 + p.val, by have ht := t.isLt; have hN : cfg1.N = 25 := N_1; have hp := p.isLt; omega⟩

/-- The aggregate's block at point t, entry (p, k), is the aggregate at row 2000 t + p. -/
theorem blk1_0 (V : Contents) (c : Dev nD) (t : Fin cfg1.N) (p : Fin 2000) (k : Fin 256) :
    (iblk1 V c 0 t : Vec Ideal S2000x256 .f32) (ix2 p k) = V c main_v34 (ix2 (rowOf t p) k) := by
  obtain ⟨⟨e0, e1⟩, -⟩ := idx1 t
  show V c main_v34 (((cfg1.win 0).blk t).view.emb (ix2 p k)) = _
  refine congrArg (V c main_v34) (funext fun a => Fin.ext ?_)
  match a with
  | ⟨0, _⟩ => show win1_0.index t (0 : Fin 2) * 2000 + 1 * p.val = t.val * 2000 + p.val; omega
  | ⟨1, _⟩ => show win1_0.index t (1 : Fin 2) * 256 + 1 * k.val = k.val; omega

/-- The first hidden layer's block at point t, entry (p, k), is that layer at row 2000 t + p. -/
theorem blk1_1 (V : Contents) (c : Dev nD) (t : Fin cfg1.N) (p : Fin 2000) (k : Fin 256) :
    (iblk1 V c 1 t : Vec Ideal S2000x256 .f32) (ix2 p k) = V c main_v24 (ix2 (rowOf t p) k) := by
  obtain ⟨-, ⟨e0, e1⟩, -⟩ := idx1 t
  show V c main_v24 (((cfg1.win 1).blk t).view.emb (ix2 p k)) = _
  refine congrArg (V c main_v24) (funext fun a => Fin.ext ?_)
  match a with
  | ⟨0, _⟩ => show win1_1.index t (0 : Fin 2) * 2000 + 1 * p.val = t.val * 2000 + p.val; omega
  | ⟨1, _⟩ => show win1_1.index t (1 : Fin 2) * 256 + 1 * k.val = k.val; omega

/-- The reciprocal degrees' block at point t, row p, is the reciprocal degree of node 2000 t + p. -/
theorem blk1_2 (V : Contents) (c : Dev nD) (t : Fin cfg1.N) (p : Fin 2000) :
    (iblk1 V c 2 t : Vec Ideal S2000x1 .f32) (ix2 p 0) = V c main_v12 (ix2 (rowOf t p) 0) := by
  obtain ⟨-, -, ⟨e0, e1⟩, -⟩ := idx1 t
  show V c main_v12 (((cfg1.win 2).blk t).view.emb (ix2 p 0)) = _
  refine congrArg (V c main_v12) (funext fun a => Fin.ext ?_)
  match a with
  | ⟨0, _⟩ => show win1_2.index t (0 : Fin 2) * 2000 + 1 * p.val = t.val * 2000 + p.val; omega
  | ⟨1, _⟩ => show win1_2.index t (1 : Fin 2) * 1 + 1 * 0 = 0; omega

/-- The neighbour matrix's block is the neighbour matrix. -/
theorem blk1_3 (V : Contents) (c : Dev nD) (t : Fin cfg1.N) : (iblk1 V c 3 t : Vec Ideal S256x256 .f32) = V c main_arg6 := by
  obtain ⟨-, -, -, ⟨e0, e1⟩, -⟩ := idx1 t
  funext y
  show V c main_arg6 (((cfg1.win 3).blk t).view.emb y) = V c main_arg6 y
  refine congrArg (V c main_arg6) (funext fun a => Fin.ext ?_)
  match a with
  | ⟨0, _⟩ => show win1_3.index t (0 : Fin 2) * 256 + 1 * (y 0).val = (y 0).val; omega
  | ⟨1, _⟩ => show win1_3.index t (1 : Fin 2) * 256 + 1 * (y 1).val = (y 1).val; omega

/-- The root matrix's block is the root matrix. -/
theorem blk1_4 (V : Contents) (c : Dev nD) (t : Fin cfg1.N) : (iblk1 V c 4 t : Vec Ideal S256x256 .f32) = V c main_arg8 := by
  obtain ⟨-, -, -, -, ⟨e0, e1⟩, -⟩ := idx1 t
  funext y
  show V c main_arg8 (((cfg1.win 4).blk t).view.emb y) = V c main_arg8 y
  refine congrArg (V c main_arg8) (funext fun a => Fin.ext ?_)
  match a with
  | ⟨0, _⟩ => show win1_4.index t (0 : Fin 2) * 256 + 1 * (y 0).val = (y 0).val; omega
  | ⟨1, _⟩ => show win1_4.index t (1 : Fin 2) * 256 + 1 * (y 1).val = (y 1).val; omega

/-- The bias row's block is the bias row. -/
theorem blk1_5 (V : Contents) (c : Dev nD) (t : Fin cfg1.N) : (iblk1 V c 5 t : Vec Ideal S1x256 .f32) = V c main_v35 := by
  obtain ⟨-, -, -, -, -, ⟨e0, e1⟩, -⟩ := idx1 t
  funext y
  show V c main_v35 (((cfg1.win 5).blk t).view.emb y) = V c main_v35 y
  refine congrArg (V c main_v35) (funext fun a => Fin.ext ?_)
  match a with
  | ⟨0, _⟩ => show win1_5.index t (0 : Fin 2) * 1 + 1 * (y 0).val = (y 0).val; omega
  | ⟨1, _⟩ => show win1_5.index t (1 : Fin 2) * 256 + 1 * (y 1).val = (y 1).val; omega

/-- The last matrix's block is the last matrix. -/
theorem blk1_6 (V : Contents) (c : Dev nD) (t : Fin cfg1.N) : (iblk1 V c 6 t : Vec Ideal S256x128 .f32) = V c main_arg9 := by
  obtain ⟨-, -, -, -, -, -, ⟨e0, e1⟩, -⟩ := idx1 t
  funext y
  show V c main_arg9 (((cfg1.win 6).blk t).view.emb y) = V c main_arg9 y
  refine congrArg (V c main_arg9) (funext fun a => Fin.ext ?_)
  match a with
  | ⟨0, _⟩ => show win1_6.index t (0 : Fin 2) * 256 + 1 * (y 0).val = (y 0).val; omega
  | ⟨1, _⟩ => show win1_6.index t (1 : Fin 2) * 128 + 1 * (y 1).val = (y 1).val; omega

/-- The second hidden layer as one array: entry (r, q) is the layer formula of the arrays the launch finds. -/
abbrev layer1 (V : Contents) (c : Dev nD) : A2 NN 256 := arr2 fun p q =>
  max (lin1A (V c main_v34) (V c main_v24) (fun p => V c main_v12 (ix2 p 0)) (V c main_arg6) (V c main_arg8)
    (fun q => V c main_v35 (ix2 0 q)) p q) 0

/-- Over the blocks at point t the block formula is the layer formula at row 2000 t + p. -/
theorem blockLayer_eq (V : Contents) (c : Dev nD) (t : Fin cfg1.N) (p : Fin 2000) (q : Fin 256) :
    blockLayer (iblk1 V c 0 t) (iblk1 V c 2 t) (iblk1 V c 1 t) (iblk1 V c 3 t) (iblk1 V c 4 t) (iblk1 V c 5 t) p q
      = layer1 V c (ix2 (rowOf t p) q) := by
  rw [blk1_3, blk1_4, blk1_5]
  show max _ 0 = max (lin1A (V c main_v34) (V c main_v24) (fun p => V c main_v12 (ix2 p 0)) (V c main_arg6) (V c main_arg8)
    (fun q => V c main_v35 (ix2 0 q)) (rowOf t p) q) 0
  unfold lin1A
  refine congrArg (max · 0) (congrArg₂ (· + ·) (congrArg₂ (· + ·) (Finset.sum_congr rfl fun k _ => ?_) (Finset.sum_congr rfl fun k _ => ?_)) rfl)
  · exact congrArg₂ (· * ·) (congrArg₂ (· * ·) (blk1_0 V c t p k) (blk1_2 V c t p)) rfl
  · exact congrArg₂ (· * ·) (blk1_1 V c t p k) rfl

/-! ## What each grid point writes back -/

/-- To the first output, grid point t writes back block t of the second hidden layer. -/
theorem flushed1_7_eq (V : Contents) (c : Dev nD) (t : Fin cfg1.N) :
    (dat1 V c).flushed 7 t = ((cfg1.win 7).blk t).view.read (Elt Ideal) (layer1 V c) := by
  show (cfg1.win 7).cut (grid1.coords t) ((dat1 V c).after 7 t) = _
  rw [after1_7]
  unfold out1_7
  rw [View.canon_unit_zero zero2]
  simp only [View.ld_unit_zero (S := S2000x256) zero2, View.ld_unit_zero (S := S2000x1) zero2,
    View.ld_unit_zero (S := S256x256) zero2, View.ld_unit_zero (S := S1x256) zero2]
  obtain ⟨-, -, -, -, -, -, -, ⟨e0, e1⟩, -⟩ := idx1 t
  funext y
  obtain ⟨p, q, rfl⟩ : ∃ (p : Fin 2000) (q : Fin 256), y = ix2 p q := ⟨y 0, y 1, eq_ix2 y⟩
  have hemb : ((cfg1.win 7).blk t).view.emb (ix2 p q) = ix2 (rowOf t p) q := funext fun a => Fin.ext (by
    match a with
    | ⟨0, _⟩ => show win1_7.index t (0 : Fin 2) * 2000 + 1 * p.val = t.val * 2000 + p.val; omega
    | ⟨1, _⟩ => show win1_7.index t (1 : Fin 2) * 256 + 1 * q.val = q.val; omega)
  show k1_pay1 (iblk1 V c 0 t) (iblk1 V c 2 t) (iblk1 V c 1 t) (iblk1 V c 3 t) (iblk1 V c 4 t) (iblk1 V c 5 t) (ix2 p q)
    = layer1 V c (((cfg1.win 7).blk t).view.emb (ix2 p q))
  rw [hemb]
  exact (pay1_apply (iblk1 V c 0 t) (iblk1 V c 2 t) (iblk1 V c 1 t) (iblk1 V c 3 t) (iblk1 V c 4 t) (iblk1 V c 5 t) p q).trans
    (blockLayer_eq V c t p q)

/-- To the second output, grid point t writes back block t of the second hidden layer's rows times the last matrix. -/
theorem flushed1_8_eq (V : Contents) (c : Dev nD) (t : Fin cfg1.N) :
    (dat1 V c).flushed 8 t = ((cfg1.win 8).blk t).view.read (Elt Ideal) (arr2 (proj (layer1 V c) (V c main_arg9))) := by
  show (cfg1.win 8).cut (grid1.coords t) ((dat1 V c).after 8 t) = _
  rw [after1_8]
  unfold out1_8
  rw [View.canon_unit_zero zero2]
  simp only [View.ld_unit_zero (S := S2000x256) zero2, View.ld_unit_zero (S := S2000x1) zero2,
    View.ld_unit_zero (S := S256x256) zero2, View.ld_unit_zero (S := S1x256) zero2, View.ld_unit_zero (S := S256x128) zero2]
  obtain ⟨-, -, -, -, -, -, -, -, ⟨e0, e1⟩⟩ := idx1 t
  funext y
  obtain ⟨p, q, rfl⟩ : ∃ (p : Fin 2000) (q : Fin 128), y = ix2 p q := ⟨y 0, y 1, eq_ix2 y⟩
  have hemb : ((cfg1.win 8).blk t).view.emb (ix2 p q) = ix2 (rowOf t p) q := funext fun a => Fin.ext (by
    match a with
    | ⟨0, _⟩ => show win1_8.index t (0 : Fin 2) * 2000 + 1 * p.val = t.val * 2000 + p.val; omega
    | ⟨1, _⟩ => show win1_8.index t (1 : Fin 2) * 128 + 1 * q.val = q.val; omega)
  show k1_pay2 (iblk1 V c 0 t) (iblk1 V c 2 t) (iblk1 V c 1 t) (iblk1 V c 3 t) (iblk1 V c 4 t) (iblk1 V c 5 t) (iblk1 V c 6 t) (ix2 p q)
    = arr2 (proj (layer1 V c) (V c main_arg9)) (((cfg1.win 8).blk t).view.emb (ix2 p q))
  rw [hemb]
  refine (pay2_apply (iblk1 V c 0 t) (iblk1 V c 2 t) (iblk1 V c 1 t) (iblk1 V c 3 t) (iblk1 V c 4 t) (iblk1 V c 5 t) (iblk1 V c 6 t) p q).trans ?_
  show _ = ∑ k : Fin 256, layer1 V c (ix2 (rowOf t p) k) * V c main_arg9 (ix2 k q)
  refine Finset.sum_congr rfl fun k _ => ?_
  exact congrArg₂ (· * ·) (blockLayer_eq V c t p k) (congrFun (blk1_6 V c t) (ix2 k q))

/-! ## The blocks cover the arrays -/

/-- An index of the first output is in point t's block iff each coordinate is in the block's range on its axis. -/
theorem mem_blk1_7 (t : Fin cfg1.N) (i : S50000x256.Idx) :
    i ∈ ((cfg1.win 7).blk t).view.set ↔ ∀ a : Fin 2, win1_7.index t a * S2000x256.size a ≤ (i a).val ∧ (i a).val < win1_7.index t a * S2000x256.size a + S2000x256.size a := by
  show i ∈ ((View.whole main_v36_0).slice (win1_7.rect t)).set ↔ _
  rw [View.set_slice_whole, Rect.mem_set_unit]
  exact Iff.rfl

/-- The same for the second output. -/
theorem mem_blk1_8 (t : Fin cfg1.N) (i : S50000x128.Idx) :
    i ∈ ((cfg1.win 8).blk t).view.set ↔ ∀ a : Fin 2, win1_8.index t a * S2000x128.size a ≤ (i a).val ∧ (i a).val < win1_8.index t a * S2000x128.size a + S2000x128.size a := by
  show i ∈ ((View.whole main_v36_1).slice (win1_8.rect t)).set ↔ _
  rw [View.set_slice_whole, Rect.mem_set_unit]
  exact Iff.rfl

/-- Row r of the first output is in the block of grid point r / 2000, and every point writes back. -/
theorem covered1_7 (i : S50000x256.Idx) : ∃ t : Fin cfg1.N, (cfg1.win 7).flush t = true ∧ i ∈ ((cfg1.win 7).blk t).view.set := by
  have hi0 : (i 0).val < 50000 := (i 0).isLt
  have hi1 : (i 1).val < 256 := (i 1).isLt
  have hN : cfg1.N = 25 := N_1
  have ht : (i 0).val / 2000 < cfg1.N := by omega
  refine ⟨⟨(i 0).val / 2000, ht⟩, flush1_7 _, ?_⟩
  rw [mem_blk1_7]
  obtain ⟨-, -, -, -, -, -, -, ⟨e0, e1⟩, -⟩ := idx1 ⟨(i 0).val / 2000, ht⟩
  have e0' : win1_7.index ⟨(i 0).val / 2000, ht⟩ (0 : Fin 2) = (i 0).val / 2000 := e0
  intro a
  match a with
  | ⟨0, _⟩ => show win1_7.index ⟨(i 0).val / 2000, ht⟩ (0 : Fin 2) * 2000 ≤ (i 0).val ∧ (i 0).val < win1_7.index ⟨(i 0).val / 2000, ht⟩ (0 : Fin 2) * 2000 + 2000; omega
  | ⟨1, _⟩ => show win1_7.index ⟨(i 0).val / 2000, ht⟩ (1 : Fin 2) * 256 ≤ (i 1).val ∧ (i 1).val < win1_7.index ⟨(i 0).val / 2000, ht⟩ (1 : Fin 2) * 256 + 256; omega

/-- The same for the second output. -/
theorem covered1_8 (i : S50000x128.Idx) : ∃ t : Fin cfg1.N, (cfg1.win 8).flush t = true ∧ i ∈ ((cfg1.win 8).blk t).view.set := by
  have hi0 : (i 0).val < 50000 := (i 0).isLt
  have hi1 : (i 1).val < 128 := (i 1).isLt
  have hN : cfg1.N = 25 := N_1
  have ht : (i 0).val / 2000 < cfg1.N := by omega
  refine ⟨⟨(i 0).val / 2000, ht⟩, flush1_8 _, ?_⟩
  rw [mem_blk1_8]
  obtain ⟨-, -, -, -, -, -, -, -, ⟨e0, e1⟩⟩ := idx1 ⟨(i 0).val / 2000, ht⟩
  have e0' : win1_8.index ⟨(i 0).val / 2000, ht⟩ (0 : Fin 2) = (i 0).val / 2000 := e0
  intro a
  match a with
  | ⟨0, _⟩ => show win1_8.index ⟨(i 0).val / 2000, ht⟩ (0 : Fin 2) * 2000 ≤ (i 0).val ∧ (i 0).val < win1_8.index ⟨(i 0).val / 2000, ht⟩ (0 : Fin 2) * 2000 + 2000; omega
  | ⟨1, _⟩ => show win1_8.index ⟨(i 0).val / 2000, ht⟩ (1 : Fin 2) * 128 ≤ (i 1).val ∧ (i 1).val < win1_8.index ⟨(i 0).val / 2000, ht⟩ (1 : Fin 2) * 128 + 128; omega

end R1

/-! ## The two output arrays after the launch -/

/-- The second launch leaves the second hidden layer in its first output. -/
theorem region1a : Region1a := fun V c =>
  (dat1 V c).arrAt_eq_of_cover 7 _ (fun t _ => R1.flushed1_7_eq V c t) R1.covered1_7

/-- The second launch leaves the second hidden layer's rows times the last matrix in its second output. -/
theorem region1b : Region1b := fun V c =>
  (dat1 V c).arrAt_eq_of_cover 8 _ (fun t _ => R1.flushed1_8_eq V c t) R1.covered1_8

end Cert.KernelIdeal.Reg

end
-- ==== Proof.Region2.lean ====
/-
  The third launch, read as one array.

  The launch works on 25 blocks of 2000 rows. At block `t` it loads rows `2000 t … 2000 t + 1999` of the aggregate of the
  projected rows (128 columns), of the second hidden layer (256 columns) and of the reciprocal degrees (one column),
  the root matrix and the bias row whole, and stores, at row `p` and column `q` of the block,

      a q · d + (∑ k, h k · Wr (k, q)) + b q

  with `a`, `h`, `d` taken in row `2000 t + p`. The sum is a matrix product into a zero accumulator, whose operands pass
  through a change of float format that is the identity on exact values. That is the output layer's entry at row
  `2000 t + p`, column `q`. Every row `r` of the 50000 lies in exactly the block numbered `r / 2000`, and every block is
  written back, so after the last block the output array holds the layer at every entry.
-/
import proofs.«103097_j17102559773409_2_alg».proof.Proof.RegionStmts
import proofs.«103097_j17102559773409_2_alg».proof.Proof.LibKeepdims
import proofs.«103097_j17102559773409_2_alg».proof.Proof.LibPlainDot
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Reg.R2

open Idealize.ShloMosaic Idealize.ShloMosaic.TcCoe Idealize.ShloMosaic.ValueIdx Idealize.SL.Sem
open Cert.KernelIdeal Cert.KernelIdeal.Gen Cert.KernelIdeal.Reg Cert.Sage
open Idealize.ShloMosaic.Pipeline (Dat)
open scoped BigOperators

/-- The zero offsets of a whole-block access, as a constant function. -/
theorem hz2 : (![0, 0] : Fin 2 → Nat) = fun _ => 0 := funext fun a => by fin_cases a <;> rfl

/-- The product in the third launch contracts the left operand's columns against the right operand's rows. -/
theorem plain2 : Cert.LibPlainDot.Plain dot_S2000x256_S256x128_S2000x128_1_0_0_1_n_n := ⟨rfl, rfl, rfl, rfl, rfl, rfl⟩

/-- The third launch's stored value at row `p`, column `q` of a block, from the five loaded blocks: the aggregate's
    entry times the row's reciprocal degree, plus the row of the hidden layer times column `q` of the root matrix, plus
    the bias. The change of float format before the product is the identity on exact values, and the product starts
    from a zero accumulator. -/
theorem pay2_apply (x0 : Vec Ideal S2000x128 .f32) (x2 : Vec Ideal S2000x1 .f32) (x1 : Vec Ideal S2000x256 .f32)
    (x3 : Vec Ideal S256x128 .f32) (x4 : Vec Ideal S1x128 .f32) (p : Fin 2000) (q : Fin 128) :
    k2_pay1 (F := Ideal) x0 x2 x1 x3 x4 (ix2 p q)
      = x0 (ix2 p q) * x2 (ix2 p 0) + (∑ k : Fin 256, x1 (ix2 p k) * x3 (ix2 k q)) + x4 (ix2 0 q) := by
  unfold k2_pay1
  simp only [shapeCast_self]
  rw [addf_apply, addf_apply, mulf_apply, broadcastTo_a1_ab_apply, broadcastTo_1b_ab_apply]
  congr 2
  exact Cert.LibPlainDot.matmul_zero_apply plain2 none (truncf .bf16 x1 bitsLt_bf16_f32) (truncf .bf16 x3 bitsLt_bf16_f32) p q

/-- The block index maps of the third launch over its 25 points: row-blocked windows sit at block (t, 0), the root
    matrix and the bias row at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of the aggregate's block at point `t` is row `2000 t + p` of the aggregate. -/
theorem blk2_0 (V : Contents) (c : Dev nD) (t : Fin cfg2.N) (p : Fin 2000) (q : Fin 128) (r : Fin 50000) (hr : r.val = t.val * 2000 + p.val) :
    (iblk2 (F := Ideal) V c 0 t : Vec Ideal S2000x128 .f32) (ix2 p q) = (V c main_v46 : A2 50000 128) (ix2 r q) := by
  have e0 := (idx_facts2 t).1
  have e1 := (idx_facts2 t).2.1
  unfold iblk2
  rw [View.read_apply]
  show V c main_v46 _ = V c main_v46 _
  congr 1
  funext a
  apply Fin.ext
  match a with
  | ⟨0, _⟩ => show win2_0.index t (0 : Fin 2) * 2000 + 1 * p.val = r.val; rw [e0, hr]; omega
  | ⟨1, _⟩ => show win2_0.index t (1 : Fin 2) * 128 + 1 * q.val = q.val; rw [e1]; omega

/-- Row `p` of the hidden layer's block at point `t` is row `2000 t + p` of the hidden layer. -/
theorem blk2_1 (V : Contents) (c : Dev nD) (t : Fin cfg2.N) (p : Fin 2000) (q : Fin 256) (r : Fin 50000) (hr : r.val = t.val * 2000 + p.val) :
    (iblk2 (F := Ideal) V c 1 t : Vec Ideal S2000x256 .f32) (ix2 p q) = (V c main_v36_0 : A2 50000 256) (ix2 r q) := by
  have e0 := (idx_facts2 t).2.2.1
  have e1 := (idx_facts2 t).2.2.2.1
  unfold iblk2
  rw [View.read_apply]
  show V c main_v36_0 _ = V c main_v36_0 _
  congr 1
  funext a
  apply Fin.ext
  match a with
  | ⟨0, _⟩ => show win2_1.index t (0 : Fin 2) * 2000 + 1 * p.val = r.val; rw [e0, hr]; omega
  | ⟨1, _⟩ => show win2_1.index t (1 : Fin 2) * 256 + 1 * q.val = q.val; rw [e1]; omega

/-- Row `p` of the reciprocal-degree block at point `t` is row `2000 t + p` of the reciprocal degrees. -/
theorem blk2_2 (V : Contents) (c : Dev nD) (t : Fin cfg2.N) (p : Fin 2000) (q : Fin 1) (r : Fin 50000) (hr : r.val = t.val * 2000 + p.val) :
    (iblk2 (F := Ideal) V c 2 t : Vec Ideal S2000x1 .f32) (ix2 p q) = (V c main_v12 : A2 50000 1) (ix2 r q) := by
  have e0 := (idx_facts2 t).2.2.2.2.1
  have e1 := (idx_facts2 t).2.2.2.2.2.1
  unfold iblk2
  rw [View.read_apply]
  show V c main_v12 _ = V c main_v12 _
  congr 1
  funext a
  apply Fin.ext
  match a with
  | ⟨0, _⟩ => show win2_2.index t (0 : Fin 2) * 2000 + 1 * p.val = r.val; rw [e0, hr]; omega
  | ⟨1, _⟩ => show win2_2.index t (1 : Fin 2) * 1 + 1 * q.val = q.val; rw [e1]; omega

/-- The root matrix's block is the whole matrix at every point. -/
theorem blk2_3 (V : Contents) (c : Dev nD) (t : Fin cfg2.N) (k : Fin 256) (q : Fin 128) :
    (iblk2 (F := Ideal) V c 3 t : Vec Ideal S256x128 .f32) (ix2 k q) = (V c main_arg11 : A2 256 128) (ix2 k q) := by
  have e0 := (idx_facts2 t).2.2.2.2.2.2.1
  have e1 := (idx_facts2 t).2.2.2.2.2.2.2.1
  unfold iblk2
  rw [View.read_apply]
  show V c main_arg11 _ = V c main_arg11 _
  congr 1
  funext a
  apply Fin.ext
  match a with
  | ⟨0, _⟩ => show win2_3.index t (0 : Fin 2) * 256 + 1 * k.val = k.val; rw [e0]; omega
  | ⟨1, _⟩ => show win2_3.index t (1 : Fin 2) * 128 + 1 * q.val = q.val; rw [e1]; omega

/-- The bias row's block is the whole row at every point. -/
theorem blk2_4 (V : Contents) (c : Dev nD) (t : Fin cfg2.N) (k : Fin 1) (q : Fin 128) :
    (iblk2 (F := Ideal) V c 4 t : Vec Ideal S1x128 .f32) (ix2 k q) = (V c main_v47 : A2 1 128) (ix2 k q) := by
  have e0 := (idx_facts2 t).2.2.2.2.2.2.2.2.1
  have e1 := (idx_facts2 t).2.2.2.2.2.2.2.2.2.1
  unfold iblk2
  rw [View.read_apply]
  show V c main_v47 _ = V c main_v47 _
  congr 1
  funext a
  apply Fin.ext
  match a with
  | ⟨0, _⟩ => show win2_4.index t (0 : Fin 2) * 1 + 1 * k.val = k.val; rw [e0]; omega
  | ⟨1, _⟩ => show win2_4.index t (1 : Fin 2) * 128 + 1 * q.val = q.val; rw [e1]; omega

/-- The output layer as one array function of the buffers the launch reads. -/
abbrev layer2 (V : Contents) (c : Dev nD) : A2 50000 128 :=
  arr2 (lin2A (V c main_v46) (V c main_v36_0) (fun p => V c main_v12 (ix2 p 0)) (V c main_arg11) (fun q => V c main_v47 (ix2 0 q)))

/-- What point `t` stores at row `p`, column `q` of its block is the layer's entry at row `2000 t + p`. -/
theorem point2 (V : Contents) (c : Dev nD) (t : Fin cfg2.N) (p : Fin 2000) (q : Fin 128) (r : Fin 50000)
    (hr : r.val = t.val * 2000 + p.val) :
    k2_pay1 (F := Ideal) (iblk2 V c 0 t) (iblk2 V c 2 t) (iblk2 V c 1 t) (iblk2 V c 3 t) (iblk2 V c 4 t) (ix2 p q)
      = layer2 V c (ix2 r q) := by
  refine (pay2_apply (iblk2 V c 0 t) (iblk2 V c 2 t) (iblk2 V c 1 t) (iblk2 V c 3 t) (iblk2 V c 4 t) p q).trans ?_
  rw [blk2_0 V c t p q r hr, blk2_2 V c t p 0 r hr, blk2_4 V c t 0 q]
  show _ + (∑ k : Fin 256, _) + _ = _ + (∑ k : Fin 256, _) + _
  congr 2
  exact Finset.sum_congr rfl fun k _ => by rw [blk2_1 V c t p k r hr, blk2_3 V c t k q]

/-- What point `t` writes back is block `t` of the layer. -/
theorem flushed2_eq (V : Contents) (c : Dev nD) (t : Fin cfg2.N) :
    (dat2 (F := Ideal) V c).flushed 5 t = ((cfg2.win 5).blk t).view.read (Elt Ideal) (layer2 V c) := by
  show (cfg2.win 5).cut (grid2.coords t) ((dat2 V c).after 5 t) = _
  rw [after2_5]
  unfold out2_5
  rw [View.canon_unit_zero hz2]
  simp only [View.ld_unit_zero (S := S2000x128) hz2, View.ld_unit_zero (S := S2000x1) hz2, View.ld_unit_zero (S := S2000x256) hz2,
    View.ld_unit_zero (S := S256x128) hz2, View.ld_unit_zero (S := S1x128) hz2]
  funext j
  obtain ⟨p, q, rfl⟩ : ∃ (p : Fin 2000) (q : Fin 128), j = ix2 p q := ⟨j 0, j 1, eq_ix2 j⟩
  have ht : t.val < 25 := Nat.lt_of_lt_of_eq t.isLt (show cfg2.N = 25 from N_2)
  have e0 := (idx_facts2 t).2.2.2.2.2.2.2.2.2.2.1
  have e1 := (idx_facts2 t).2.2.2.2.2.2.2.2.2.2.2
  rw [View.read_apply]
  refine (point2 V c t p q ⟨t.val * 2000 + p.val, by have := p.isLt; omega⟩ rfl).trans ?_
  show layer2 V c _ = layer2 V c _
  congr 1
  funext a
  apply Fin.ext
  match a with
  | ⟨0, _⟩ => show t.val * 2000 + p.val = win2_5.index t (0 : Fin 2) * 2000 + 1 * p.val; rw [e0]; omega
  | ⟨1, _⟩ => show q.val = win2_5.index t (1 : Fin 2) * 128 + 1 * q.val; rw [e1]; omega

/-- A row and column of the layer's array lie in point `t`'s block iff each coordinate is in the block's range. -/
theorem mem_blk2 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v48).slice (win2_5.rect t)).set ↔ _
  rw [View.set_slice_whole, Rect.mem_set_unit]
  exact Iff.rfl

/-- Every row of the layer's array lies in the block of the point numbered by the row divided by 2000, and that point
    writes its block back. -/
theorem cover2 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  have e0 : win2_5.index t (0 : Fin 2) = (i 0).val / 2000 := (idx_facts2 t).2.2.2.2.2.2.2.2.2.2.1
  have e1 := (idx_facts2 t).2.2.2.2.2.2.2.2.2.2.2
  refine ⟨t, flush2_5 t, ?_⟩
  rw [mem_blk2]
  intro a
  match a with
  | ⟨0, _⟩ => show win2_5.index t (0 : Fin 2) * 2000 ≤ (i 0).val ∧ (i 0).val < win2_5.index t (0 : Fin 2) * 2000 + 2000; rw [e0]; omega
  | ⟨1, _⟩ => show win2_5.index t (1 : Fin 2) * 128 ≤ (i 1).val ∧ (i 1).val < win2_5.index t (1 : Fin 2) * 128 + 128; rw [e1]; omega

end Cert.KernelIdeal.Reg.R2

namespace Cert.KernelIdeal.Reg

open Idealize.ShloMosaic Idealize.ShloMosaic.TcCoe
open Cert.KernelIdeal Cert.KernelIdeal.Gen

/-- After its 25 points the third launch's output array holds the output layer of the buffers it read. -/
theorem region2 : Region2 := fun V c =>
  (dat2 (F := Ideal) V c).arrAt_eq_of_cover 5 (R2.layer2 V c) (fun t _ => R2.flushed2_eq V c t) R2.cover2

end Cert.KernelIdeal.Reg

end
-- ==== Proof.Region3.lean ====
/-
  What the fourth launch leaves in its output array.

  The launch has a single grid point whose blocks are the whole arrays: the pooled array of 64 rows and 128 columns and
  the scale and shift rows. Its body computes, row by row, the mean of the row (the row's sum divided by 128), the mean
  square deviation from that mean (again a row sum divided by 128), the reciprocal square root of that deviation plus a
  small constant, and leaves at (i, j) the deviation of entry (i, j) from its row's mean times that reciprocal root,
  times the scale at j, plus the shift at j. Entry by entry this is the row normalisation `layerNorm` of Proof/Spec.lean;
  the one block covers the array, so the array ends holding exactly that function.
-/
import proofs.«103097_j17102559773409_2_alg».proof.Proof.RegionStmts
import proofs.«103097_j17102559773409_2_alg».proof.Proof.LibRowReduce
import proofs.«103097_j17102559773409_2_alg».proof.Proof.LibKeepdims
import Idealize.ShloMosaic.Lib.Pipeline.Value
import Idealize.ShloMosaic.Lib.ValueLayout

noncomputable section

namespace Cert.KernelIdeal.Reg

open Idealize.ShloMosaic Idealize.ShloMosaic.TcCoe Idealize.ShloMosaic.ValueIdx Idealize.SL.Sem
open Cert.KernelIdeal Cert.KernelIdeal.Gen Cert.Sage
open Idealize.ShloMosaic.Pipeline (Dat)

namespace R3

/-- A row sum kept as a column and divided by a constant column: at (p, u) the sum of row p divided by the constant. -/
theorem rowQuotCol_apply (x : FVec Ideal S64x128 .f32) (w : BitVec 32) (h1 : S64x128.Reduces [1] S64) (hφ : FKind.Formats .f32)
    (hacc : (0x00000000#32 : BitVec 32) = 0x00000000#32) (h2 : S64.ShapeCasts S64x1) (p : Fin 64) (u : Fin 1) :
    divf (shapeCast S64x1 (multiReduction .add [1] S64 x 0x00000000#32 h1 hφ hacc) h2)
        (broadcast S64x1 (FloatOps.ofBits .f32 w)) (ix2 p u)
      = Ideal.div (∑ t : Fin 128, x (ix2 p t)) (Ideal.ofBits .f32 w) := by
  show Ideal.div (shapeCast S64x1 (multiReduction .add [1] S64 x 0x00000000#32 h1 hφ hacc) h2 (ix2 p u)) (Ideal.ofBits .f32 w) = _
  refine congrArg (fun s => Ideal.div s (Ideal.ofBits .f32 w)) ?_
  exact (shapeCast_a_a1_apply _ h2 p u).trans (multiReduction_add_row x h1 hφ hacc p)

/-- The same column broadcast back along the rows: at (p, q) the sum of row p divided by the constant. -/
theorem rowQuot_apply (x : FVec Ideal S64x128 .f32) (w : BitVec 32) (h1 : S64x128.Reduces [1] S64) (hφ : FKind.Formats .f32)
    (hacc : (0x00000000#32 : BitVec 32) = 0x00000000#32) (h2 : S64.ShapeCasts S64x1) (h3 : S64x1.Broadcasts S64x128)
    (p : Fin 64) (q : Fin 128) :
    broadcastTo S64x128 (divf (shapeCast S64x1 (multiReduction .add [1] S64 x 0x00000000#32 h1 hφ hacc) h2)
        (broadcast S64x1 (FloatOps.ofBits .f32 w))) h3 (ix2 p q)
      = Ideal.div (∑ t : Fin 128, x (ix2 p t)) (Ideal.ofBits .f32 w) :=
  (broadcastTo_a1_ab_apply _ h3 p q).trans (rowQuotCol_apply x w h1 hφ hacc h2 p 0)

/-- The reciprocal square root of a column plus a constant, broadcast along the rows. -/
theorem rsqrtCol_apply (v : FVec Ideal S64x1 .f32) (w : BitVec 32) (h3 : S64x1.Broadcasts S64x128) (p : Fin 64) (q : Fin 128) :
    broadcastTo S64x128 (rsqrt (addf v (broadcast S64x1 (FloatOps.ofBits .f32 w)))) h3 (ix2 p q)
      = Ideal.rsqrt (v (ix2 p (0 : Fin 1)) + Ideal.ofBits .f32 w) :=
  broadcastTo_a1_ab_apply _ h3 p q

/-- The normalisation body's result at row p, column q: the row normalisation of its first operand with the scale and shift
    rows read at column q. -/
theorem pay3_apply (x0 : Vec Ideal S64x128 .f32) (x1 x2 : Vec Ideal S1x128 .f32) (p : Fin 64) (q : Fin 128) :
    k3_pay1 x0 x1 x2 (ix2 p q) = layerNorm x0 (fun j => x1 (ix2 0 j)) (fun j => x2 (ix2 0 j)) p q := by
  unfold k3_pay1
  simp only [shapeCast_self]
  simp only [addf_apply, mulf_apply, subf_apply, rsqrtCol_apply, broadcastTo_1b_ab_apply]
  show _ = ((x0 (ix2 p q) - rowMean x0 p) * Ideal.rsqrt (rowVar x0 p + Ideal.ofBits .f32 0x3727C5AC#32)) * x1 (ix2 0 q) + x2 (ix2 0 q)
  have hmean := fun t : Fin 128 => rowQuot_apply x0 0x43000000#32 reduces_S64x128_S64 (.inl rfl) rfl shapeCasts_S64_S64x1
    broadcasts_S64x1_S64x128 p t
  refine congrArg₂ (· + ·) (congrArg₂ (· * ·) (congrArg₂ (· * ·) (congrArg₂ (· - ·) rfl (hmean q)) ?_) rfl) rfl
  refine congrArg (fun s => Ideal.rsqrt (s + Ideal.ofBits .f32 0x3727C5AC#32)) ?_
  refine (rowQuotCol_apply _ _ _ _ _ _ p 0).trans ?_
  refine congrArg (fun s => Ideal.div s (Ideal.ofBits .f32 0x43000000#32)) (Finset.sum_congr rfl fun t _ => ?_)
  exact congrArg₂ (· * ·) (congrArg₂ (· - ·) rfl (hmean t)) (congrArg₂ (· - ·) rfl (hmean t))

private theorem zero2 : (![0, 0] : Fin 2 → Nat) = fun _ => 0 := funext fun a => by fin_cases a <;> rfl

/-- The launch has one grid point, and at it every window's block index is zero on both axes: each block is its whole
    array. -/
theorem idx3_zero : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- The pooled array's block is the pooled array. -/
theorem blk3_0 (V : Contents) (c : Dev nD) (t : Fin cfg3.N) :
    (iblk3 V c 0 t : Vec Ideal S64x128 .f32) = V c main_v60 := by
  obtain ⟨e0, e1, -⟩ := idx3_zero t
  funext y
  show V c main_v60 (((cfg3.win 0).blk t).view.emb y) = V c main_v60 y
  refine congrArg (V c main_v60) (funext fun a => Fin.ext ?_)
  match a with
  | ⟨0, _⟩ => show win3_0.index t (0 : Fin 2) * 64 + 1 * (y 0).val = (y 0).val; omega
  | ⟨1, _⟩ => show win3_0.index t (1 : Fin 2) * 128 + 1 * (y 1).val = (y 1).val; omega

/-- The scale row's block is the scale row. -/
theorem blk3_1 (V : Contents) (c : Dev nD) (t : Fin cfg3.N) :
    (iblk3 V c 1 t : Vec Ideal S1x128 .f32) = V c main_v61 := by
  obtain ⟨-, -, e0, e1, -⟩ := idx3_zero t
  funext y
  show V c main_v61 (((cfg3.win 1).blk t).view.emb y) = V c main_v61 y
  refine congrArg (V c main_v61) (funext fun a => Fin.ext ?_)
  match a with
  | ⟨0, _⟩ => show win3_1.index t (0 : Fin 2) * 1 + 1 * (y 0).val = (y 0).val; omega
  | ⟨1, _⟩ => show win3_1.index t (1 : Fin 2) * 128 + 1 * (y 1).val = (y 1).val; omega

/-- The shift row's block is the shift row. -/
theorem blk3_2 (V : Contents) (c : Dev nD) (t : Fin cfg3.N) :
    (iblk3 V c 2 t : Vec Ideal S1x128 .f32) = V c main_v62 := by
  obtain ⟨-, -, -, -, e0, e1, -⟩ := idx3_zero t
  funext y
  show V c main_v62 (((cfg3.win 2).blk t).view.emb y) = V c main_v62 y
  refine congrArg (V c main_v62) (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- What the grid point writes back is the block of the normalised array. -/
theorem flushed3_eq (V : Contents) (c : Dev nD) (t : Fin cfg3.N) :
    (dat3 V c).flushed 3 t = ((cfg3.win 3).blk t).view.read (Elt Ideal)
      (arr2 (layerNorm (V c main_v60) (fun j => V c main_v61 (ix2 0 j)) (fun j => V c main_v62 (ix2 0 j)))) := by
  show (cfg3.win 3).cut (grid3.coords t) ((dat3 V c).after 3 t) = _
  rw [after3_3]
  unfold out3_3
  rw [View.canon_unit_zero zero2]
  simp only [View.ld_unit_zero (S := S64x128) zero2, View.ld_unit_zero (S := S1x128) zero2]
  rw [blk3_0, blk3_1, blk3_2]
  obtain ⟨-, -, -, -, -, -, e6, e7⟩ := idx3_zero t
  funext y
  obtain ⟨p, q, rfl⟩ : ∃ (p : Fin 64) (q : Fin 128), y = ix2 p q := ⟨y 0, y 1, eq_ix2 y⟩
  have hemb : ((cfg3.win 3).blk t).view.emb (ix2 p q) = ix2 p q := funext fun a => Fin.ext (by
    match a with
    | ⟨0, _⟩ => show win3_3.index t (0 : Fin 2) * 64 + 1 * p.val = p.val; omega
    | ⟨1, _⟩ => show win3_3.index t (1 : Fin 2) * 128 + 1 * q.val = q.val; omega)
  show k3_pay1 (V c main_v60) (V c main_v61) (V c main_v62) (ix2 p q)
    = arr2 (layerNorm (V c main_v60) (fun j => V c main_v61 (ix2 0 j)) (fun j => V c main_v62 (ix2 0 j))) (((cfg3.win 3).blk t).view.emb (ix2 p q))
  rw [hemb]
  exact pay3_apply (V c main_v60) (V c main_v61) (V c main_v62) p q

/-- An index of the array is in the grid point's block iff each coordinate is in the block's range on its axis. -/
theorem mem_blk3 (t : Fin cfg3.N) (i : S64x128.Idx) :
    i ∈ ((cfg3.win 3).blk t).view.set ↔ ∀ a : Fin 2, win3_3.index t a * S64x128.size a ≤ (i a).val ∧ (i a).val < win3_3.index t a * S64x128.size a + S64x128.size a := by
  show i ∈ ((View.whole main_v63).slice (win3_3.rect t)).set ↔ _
  rw [View.set_slice_whole, Rect.mem_set_unit]
  exact Iff.rfl

/-- Every index of the array is in the one grid point's block, which is written back. -/
theorem cover3 (i : S64x128.Idx) : ∃ t : Fin cfg3.N, (cfg3.win 3).flush t = true ∧ i ∈ ((cfg3.win 3).blk t).view.set := by
  refine ⟨t3_0, flush3_3 t3_0, ?_⟩
  rw [mem_blk3]
  obtain ⟨-, -, -, -, -, -, e6, e7⟩ := idx3_zero t3_0
  have h0 : (i 0).val < 64 := (i 0).isLt
  have h1 : (i 1).val < 128 := (i 1).isLt
  intro a
  match a with
  | ⟨0, _⟩ => show win3_3.index t3_0 (0 : Fin 2) * 64 ≤ (i 0).val ∧ (i 0).val < win3_3.index t3_0 (0 : Fin 2) * 64 + 64; omega
  | ⟨1, _⟩ => show win3_3.index t3_0 (1 : Fin 2) * 128 ≤ (i 1).val ∧ (i 1).val < win3_3.index t3_0 (1 : Fin 2) * 128 + 128; omega

end R3

/-- The fourth launch leaves the row normalisation of the pooled array in its output. -/
theorem region3 : Region3 := fun V c =>
  (dat3 V c).arrAt_eq_of_cover 3 _ (fun t _ => R3.flushed3_eq V c t) R3.cover3

end Cert.KernelIdeal.Reg

end
-- ==== Proof.RefOps.lean ====
/-
  The reference network's program as one straight line of array operations.

  The program computes, in order: the source and destination row numbers of the edges (two slices of the edge list, a
  wrap of negative source numbers), the reciprocal degree of every node, three rounds of "gather the source rows, add
  them up at the destination rows, scale by the reciprocal degree, apply two weight matrices and a bias" (the first two
  followed by a clamp at zero, which the program calls as a function of three operations), the per-graph mean of the
  node rows, and a row normalisation whose variance is again a called function (twenty operations and a three-operation
  selection inside it).  Written out with each called function's operations listed at its call, over the buffers that
  call names, the program is the line `ops` below: 145 operations, each writing one buffer of its own (`outs`).
-/
import proofs.«103097_j17102559773409_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 145 operations in order, each called function's operations at its call: the clamp at zero is
    three (a zero, its broadcast, the maximum), the variance is twenty followed by the three of the selection it calls. -/
abbrev ops : List (HloOp τ sig (Elt F)) :=
  [
    unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (maximumf : (⟨S50000, .f32⟩ : BufTy).Contents (Elt F) → (⟨S50000, .f32⟩ : BufTy).Contents (Elt F) → (⟨S50000, .f32⟩ : BufTy).Contents (Elt F)),
    nullary main_cst_2 (constant S_ .f32 0x3F800000#32),
    unary main_cst_2 main_v10 (broadcastInDim S50000 ![] bcast_S_S50000 : (⟨S_, .f32⟩ : BufTy).Contents (Elt F) → (⟨S50000, .f32⟩ : BufTy).Contents (Elt F)),
    binary main_v10 main_v9 main_v11 (Host.divf : (⟨S50000, .f32⟩ : BufTy).Contents (Elt F) → (⟨S50000, .f32⟩ : BufTy).Contents (Elt F) → (⟨S50000, .f32⟩ : BufTy).Contents (Elt F)),
    unary main_v11 main_v12 (broadcastInDim S50000x1 ![0] bcast_S50000_S50000x1_0 : (⟨S50000, .f32⟩ : BufTy).Contents (Elt F) → (⟨S50000x1, .f32⟩ : BufTy).Contents (Elt F)),
    nullary main_c (constantI S_ 32 0#32),
    unary main_c main_v13 (broadcastInDim S800000 ![] bcast_S_S800000 : (⟨S_, .i32⟩ : BufTy).Contents (Elt F) → (⟨S800000, .i32⟩ : BufTy).Contents (Elt F)),
    binary main_v1 main_v13 main_v14 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v15 (broadcastInDim S800000 ![] bcast_S_S800000 : (⟨S_, .i32⟩ : BufTy).Contents (Elt F) → (⟨S800000, .i32⟩ : BufTy).Contents (Elt F)),
    binary main_v1 main_v15 main_v16 (addi : (⟨S800000, .i32⟩ : BufTy).Contents (Elt F) → (⟨S800000, .i32⟩ : BufTy).Contents (Elt F) → (⟨S800000, .i32⟩ : BufTy).Contents (Elt F)),
    ternary main_v14 main_v16 main_v1 main_v17 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v17 main_v18 (broadcastInDim S800000x1 ![0] bcast_S800000_S800000x1_0 : (⟨S800000, .i32⟩ : BufTy).Contents (Elt F) → (⟨S800000x1, .i32⟩ : BufTy).Contents (Elt F)),
    binary main_arg0 main_v18 main_v19 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    nullary main_cst_4 (constant S_ .f32 0x00000000#32),
    unary main_cst_4 main_v20 (broadcastInDim S50000x1 ![] bcast_S_S50000x1 : (⟨S_, .f32⟩ : BufTy).Contents (Elt F) → (⟨S50000x1, .f32⟩ : BufTy).Contents (Elt F)),
    unary main_v3 main_v21 (broadcastInDim S800000x1 ![0] bcast_S800000_S800000x1_0 : (⟨S800000, .i32⟩ : BufTy).Contents (Elt F) → (⟨S800000x1, .i32⟩ : BufTy).Contents (Elt F)),
    ternary main_v20 main_v21 main_v19 main_v22 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    binary main_v22 main_v12 main_v23 (mulf : (⟨S50000x1, .f32⟩ : BufTy).Contents (Elt F) → (⟨S50000x1, .f32⟩ : BufTy).Contents (Elt F) → (⟨S50000x1, .f32⟩ : BufTy).Contents (Elt F)),
    binary main_v23 main_arg3 main_v24 ((fun l r => Host.dotGeneral dot_S50000x1_S1x256_S50000x256_1_0_0_1_n_n none l r) : (⟨S50000x1, .f32⟩ : BufTy).Contents (Elt F) → (⟨S1x256, .f32⟩ : BufTy).Contents (Elt F) → (⟨S50000x256, .f32⟩ : BufTy).Contents (Elt F)),
    unary main_arg4 main_v25 (broadcastInDim S1x256 ![1] bcast_S256_S1x256_1 : (⟨S256, .f32⟩ : BufTy).Contents (Elt F) → (⟨S1x256, .f32⟩ : BufTy).Contents (Elt F)),
    unary main_v25 main_v26 (broadcastInDim S50000x256 ![0, 1] bcast_S1x256_S50000x256_0_1 : (⟨S1x256, .f32⟩ : BufTy).Contents (Elt F) → (⟨S50000x256, .f32⟩ : BufTy).Contents (Elt F)),
    binary main_v24 main_v26 main_v27 (addf : (⟨S50000x256, .f32⟩ : BufTy).Contents (Elt F) → (⟨S50000x256, .f32⟩ : BufTy).Contents (Elt F) → (⟨S50000x256, .f32⟩ : BufTy).Contents (Elt F)),
    binary main_arg0 main_arg5 main_v28 ((fun l r => Host.dotGeneral dot_S50000x1_S1x256_S50000x256_1_0_0_1_n_n none l r) : (⟨S50000x1, .f32⟩ : BufTy).Contents (Elt F) → (⟨S1x256, .f32⟩ : BufTy).Contents (Elt F) → (⟨S50000x256, .f32⟩ : BufTy).Contents (Elt F)),
    binary main_v27 main_v28 main_v29 (addf : (⟨S50000x256, .f32⟩ : BufTy).Contents (Elt F) → (⟨S50000x256, .f32⟩ : BufTy).Contents (Elt F) → (⟨S50000x256, .f32⟩ : BufTy).Contents (Elt F)),
    TRef.nullary main_call0.cst (constant S_ .f32 0x00000000#32),
    TRef.unary main_call0.cst main_call0.v0 (broadcastInDim S50000x256 ![] bcast_S_S50000x256),
    TRef.binary (.of main_v29 : TRef sig ⟨S50000x256, .f32⟩) main_call0.v0 main_call0.v1 maximumf,
    nullary main_c_5 (constantI S_ 32 0#32),
    unary main_c_5 main_v31 (broadcastInDim S800000 ![] bcast_S_S800000 : (⟨S_, .i32⟩ : BufTy).Contents (Elt F) → (⟨S800000, .i32⟩ : BufTy).Contents (Elt F)),
    binary main_v1 main_v31 main_v32 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v33 (broadcastInDim S800000 ![] bcast_S_S800000 : (⟨S_, .i32⟩ : BufTy).Contents (Elt F) → (⟨S800000, .i32⟩ : BufTy).Contents (Elt F)),
    binary main_v1 main_v33 main_v34 (addi : (⟨S800000, .i32⟩ : BufTy).Contents (Elt F) → (⟨S800000, .i32⟩ : BufTy).Contents (Elt F) → (⟨S800000, .i32⟩ : BufTy).Contents (Elt F)),
    ternary main_v32 main_v34 main_v1 main_v35 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v35 main_v36 (broadcastInDim S800000x1 ![0] bcast_S800000_S800000x1_0 : (⟨S800000, .i32⟩ : BufTy).Contents (Elt F) → (⟨S800000x1, .i32⟩ : BufTy).Contents (Elt F)),
    binary main_v30 main_v36 main_v37 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_7 (constant S_ .f32 0x00000000#32),
    unary main_cst_7 main_v38 (broadcastInDim S50000x256 ![] bcast_S_S50000x256 : (⟨S_, .f32⟩ : BufTy).Contents (Elt F) → (⟨S50000x256, .f32⟩ : BufTy).Contents (Elt F)),
    unary main_v3 main_v39 (broadcastInDim S800000x1 ![0] bcast_S800000_S800000x1_0 : (⟨S800000, .i32⟩ : BufTy).Contents (Elt F) → (⟨S800000x1, .i32⟩ : BufTy).Contents (Elt F)),
    ternary main_v38 main_v39 main_v37 main_v40 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v12 main_v41 (broadcastInDim S50000x256 ![0, 1] bcast_S50000x1_S50000x256_0_1 : (⟨S50000x1, .f32⟩ : BufTy).Contents (Elt F) → (⟨S50000x256, .f32⟩ : BufTy).Contents (Elt F)),
    binary main_v40 main_v41 main_v42 (mulf : (⟨S50000x256, .f32⟩ : BufTy).Contents (Elt F) → (⟨S50000x256, .f32⟩ : BufTy).Contents (Elt F) → (⟨S50000x256, .f32⟩ : BufTy).Contents (Elt F)),
    binary main_v42 main_arg6 main_v43 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg7 main_v44 (broadcastInDim S1x256 ![1] bcast_S256_S1x256_1 : (⟨S256, .f32⟩ : BufTy).Contents (Elt F) → (⟨S1x256, .f32⟩ : BufTy).Contents (Elt F)),
    unary main_v44 main_v45 (broadcastInDim S50000x256 ![0, 1] bcast_S1x256_S50000x256_0_1 : (⟨S1x256, .f32⟩ : BufTy).Contents (Elt F) → (⟨S50000x256, .f32⟩ : BufTy).Contents (Elt F)),
    binary main_v43 main_v45 main_v46 (addf : (⟨S50000x256, .f32⟩ : BufTy).Contents (Elt F) → (⟨S50000x256, .f32⟩ : BufTy).Contents (Elt F) → (⟨S50000x256, .f32⟩ : BufTy).Contents (Elt F)),
    binary main_v30 main_arg8 main_v47 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    binary main_v46 main_v47 main_v48 (addf : (⟨S50000x256, .f32⟩ : BufTy).Contents (Elt F) → (⟨S50000x256, .f32⟩ : BufTy).Contents (Elt F) → (⟨S50000x256, .f32⟩ : BufTy).Contents (Elt F)),
    TRef.nullary main_call1.cst (constant S_ .f32 0x00000000#32),
    TRef.unary main_call1.cst main_call1.v0 (broadcastInDim S50000x256 ![] bcast_S_S50000x256),
    TRef.binary (.of main_v48 : TRef sig ⟨S50000x256, .f32⟩) main_call1.v0 main_call1.v1 maximumf,
    nullary main_c_8 (constantI S_ 32 0#32),
    unary main_c_8 main_v50 (broadcastInDim S800000 ![] bcast_S_S800000 : (⟨S_, .i32⟩ : BufTy).Contents (Elt F) → (⟨S800000, .i32⟩ : BufTy).Contents (Elt F)),
    binary main_v1 main_v50 main_v51 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v52 (broadcastInDim S800000 ![] bcast_S_S800000 : (⟨S_, .i32⟩ : BufTy).Contents (Elt F) → (⟨S800000, .i32⟩ : BufTy).Contents (Elt F)),
    binary main_v1 main_v52 main_v53 (addi : (⟨S800000, .i32⟩ : BufTy).Contents (Elt F) → (⟨S800000, .i32⟩ : BufTy).Contents (Elt F) → (⟨S800000, .i32⟩ : BufTy).Contents (Elt F)),
    ternary main_v51 main_v53 main_v1 main_v54 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v54 main_v55 (broadcastInDim S800000x1 ![0] bcast_S800000_S800000x1_0 : (⟨S800000, .i32⟩ : BufTy).Contents (Elt F) → (⟨S800000x1, .i32⟩ : BufTy).Contents (Elt F)),
    binary main_v49 main_v55 main_v56 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_10 (constant S_ .f32 0x00000000#32),
    unary main_cst_10 main_v57 (broadcastInDim S50000x256 ![] bcast_S_S50000x256 : (⟨S_, .f32⟩ : BufTy).Contents (Elt F) → (⟨S50000x256, .f32⟩ : BufTy).Contents (Elt F)),
    unary main_v3 main_v58 (broadcastInDim S800000x1 ![0] bcast_S800000_S800000x1_0 : (⟨S800000, .i32⟩ : BufTy).Contents (Elt F) → (⟨S800000x1, .i32⟩ : BufTy).Contents (Elt F)),
    ternary main_v57 main_v58 main_v56 main_v59 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v12 main_v60 (broadcastInDim S50000x256 ![0, 1] bcast_S50000x1_S50000x256_0_1 : (⟨S50000x1, .f32⟩ : BufTy).Contents (Elt F) → (⟨S50000x256, .f32⟩ : BufTy).Contents (Elt F)),
    binary main_v59 main_v60 main_v61 (mulf : (⟨S50000x256, .f32⟩ : BufTy).Contents (Elt F) → (⟨S50000x256, .f32⟩ : BufTy).Contents (Elt F) → (⟨S50000x256, .f32⟩ : BufTy).Contents (Elt F)),
    binary main_v61 main_arg9 main_v62 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg10 main_v63 (broadcastInDim S1x128 ![1] bcast_S128_S1x128_1 : (⟨S128, .f32⟩ : BufTy).Contents (Elt F) → (⟨S1x128, .f32⟩ : BufTy).Contents (Elt F)),
    unary main_v63 main_v64 (broadcastInDim S50000x128 ![0, 1] bcast_S1x128_S50000x128_0_1 : (⟨S1x128, .f32⟩ : BufTy).Contents (Elt F) → (⟨S50000x128, .f32⟩ : BufTy).Contents (Elt F)),
    binary main_v62 main_v64 main_v65 (addf : (⟨S50000x128, .f32⟩ : BufTy).Contents (Elt F) → (⟨S50000x128, .f32⟩ : BufTy).Contents (Elt F) → (⟨S50000x128, .f32⟩ : BufTy).Contents (Elt F)),
    binary main_v49 main_arg11 main_v66 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    binary main_v65 main_v66 main_v67 (addf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x00000000#32),
    unary main_cst_11 main_v68 (broadcastInDim S64x128 ![] bcast_S_S64x128 : (⟨S_, .f32⟩ : BufTy).Contents (Elt F) → (⟨S64x128, .f32⟩ : BufTy).Contents (Elt F)),
    unary main_arg2 main_v69 (broadcastInDim S50000x1 ![0] bcast_S50000_S50000x1_0 : (⟨S50000, .i32⟩ : BufTy).Contents (Elt F) → (⟨S50000x1, .i32⟩ : BufTy).Contents (Elt F)),
    ternary main_v68 main_v69 main_v67 main_v70 ((fun x i u => Host.scatterAdd scatter_S64x128_S50000x1_S50000x128_1_0_0_1 x i u) : (⟨S64x128, .f32⟩ : BufTy).Contents (Elt F) → (⟨S50000x1, .i32⟩ : BufTy).Contents (Elt F) → (⟨S50000x128, .f32⟩ : BufTy).Contents (Elt F) → (⟨S64x128, .f32⟩ : BufTy).Contents (Elt F)),
    nullary main_cst_12 (constant S_ .f32 0x3F800000#32),
    unary main_cst_12 main_v71 (broadcastInDim S50000 ![] bcast_S_S50000 : (⟨S_, .f32⟩ : BufTy).Contents (Elt F) → (⟨S50000, .f32⟩ : BufTy).Contents (Elt F)),
    nullary main_cst_13 (constant S_ .f32 0x00000000#32),
    unary main_cst_13 main_v72 (broadcastInDim S64 ![] bcast_S_S64 : (⟨S_, .f32⟩ : BufTy).Contents (Elt F) → (⟨S64, .f32⟩ : BufTy).Contents (Elt F)),
    unary main_arg2 main_v73 (broadcastInDim S50000x1 ![0] bcast_S50000_S50000x1_0 : (⟨S50000, .i32⟩ : BufTy).Contents (Elt F) → (⟨S50000x1, .i32⟩ : BufTy).Contents (Elt F)),
    ternary main_v72 main_v73 main_v71 main_v74 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    nullary main_cst_14 (constant S_ .f32 0x3F800000#32),
    unary main_cst_14 main_v75 (broadcastInDim S64 ![] bcast_S_S64 : (⟨S_, .f32⟩ : BufTy).Contents (Elt F) → (⟨S64, .f32⟩ : BufTy).Contents (Elt F)),
    binary main_v74 main_v75 main_v76 (maximumf : (⟨S64, .f32⟩ : BufTy).Contents (Elt F) → (⟨S64, .f32⟩ : BufTy).Contents (Elt F) → (⟨S64, .f32⟩ : BufTy).Contents (Elt F)),
    unary main_v76 main_v77 (broadcastInDim S64x1 ![0] bcast_S64_S64x1_0 : (⟨S64, .f32⟩ : BufTy).Contents (Elt F) → (⟨S64x1, .f32⟩ : BufTy).Contents (Elt F)),
    unary main_v77 main_v78 (broadcastInDim S64x128 ![0, 1] bcast_S64x1_S64x128_0_1 : (⟨S64x1, .f32⟩ : BufTy).Contents (Elt F) → (⟨S64x128, .f32⟩ : BufTy).Contents (Elt F)),
    binary main_v70 main_v78 main_v79 (Host.divf : (⟨S64x128, .f32⟩ : BufTy).Contents (Elt F) → (⟨S64x128, .f32⟩ : BufTy).Contents (Elt F) → (⟨S64x128, .f32⟩ : BufTy).Contents (Elt F)),
    nullary main_cst_15 (constant S_ .f32 0x00000000#32),
    binary main_v79 main_cst_15 main_v80 ((fun x v => Host.reduceAdd x v reducesTo_S64x128_S64_d1 h_S_) : (⟨S64x128, .f32⟩ : BufTy).Contents (Elt F) → (⟨S_, .f32⟩ : BufTy).Contents (Elt F) → (⟨S64, .f32⟩ : BufTy).Contents (Elt F)),
    unary main_v80 main_v81 (broadcastInDim S64x1 ![0] bcast_S64_S64x1_0 : (⟨S64, .f32⟩ : BufTy).Contents (Elt F) → (⟨S64x1, .f32⟩ : BufTy).Contents (Elt F)),
    nullary main_cst_16 (constant S_ .f32 0x43000000#32),
    unary main_cst_16 main_v82 (broadcastInDim S64x1 ![] bcast_S_S64x1 : (⟨S_, .f32⟩ : BufTy).Contents (Elt F) → (⟨S64x1, .f32⟩ : BufTy).Contents (Elt F)),
    binary main_v81 main_v82 main_v83 (Host.divf : (⟨S64x1, .f32⟩ : BufTy).Contents (Elt F) → (⟨S64x1, .f32⟩ : BufTy).Contents (Elt F) → (⟨S64x1, .f32⟩ : BufTy).Contents (Elt F)),
    nullary main_c_17 (constantI S_ 32 0#32),
    TRef.nullary main_call2.cst (constant S_ .f32 0x00000000#32),
    TRef.binary (.of main_v79 : TRef sig ⟨S64x128, .f32⟩) main_call2.cst main_call2.v0 (fun x v => Host.reduceAdd x v reducesTo_S64x128_S64_d1 h_S_),
    TRef.unary main_call2.v0 main_call2.v1 (broadcastInDim S64x1 ![0] bcast_S64_S64x1_0),
    TRef.nullary main_call2.cst_0 (constant S_ .f32 0x43000000#32),
    TRef.unary main_call2.cst_0 main_call2.v2 (broadcastInDim S64x1 ![] bcast_S_S64x1),
    TRef.binary main_call2.v1 main_call2.v2 main_call2.v3 Host.divf,
    TRef.unary main_call2.v3 main_call2.v4 (broadcastInDim S64x128 ![0, 1] bcast_S64x1_S64x128_0_1),
    TRef.binary (.of main_v79 : TRef sig ⟨S64x128, .f32⟩) main_call2.v4 main_call2.v5 subf,
    TRef.binary main_call2.v5 main_call2.v5 main_call2.v6 mulf,
    TRef.unary (.of main_c_17 : TRef sig ⟨S_, .i32⟩) main_call2.v7 (sitofp .f32),
    TRef.nullary main_call2.cst_1 (constant S_ .f32 0x43000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S64x128_S64_d1 h_S_),
    TRef.unary main_call2.v9 main_call2.v10 (broadcastInDim S64x1 ![0] bcast_S64_S64x1_0),
    TRef.unary main_call2.v8 main_call2.v11 (broadcastInDim S64x1 ![] bcast_S_S64x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S64x1 ![] bcast_S_S64x1),
    TRef.ternary main_call2.v13 main_call2.v12 main_call2.call0.v1 main_call2.call0.v2 (fun p a b => select (broadcastInDim S64x1 ![] bcast_S_S64x1 p) a b),
    unary main_v83 main_v85 (broadcastInDim S64x128 ![0, 1] bcast_S64x1_S64x128_0_1 : (⟨S64x1, .f32⟩ : BufTy).Contents (Elt F) → (⟨S64x128, .f32⟩ : BufTy).Contents (Elt F)),
    binary main_v79 main_v85 main_v86 (subf : (⟨S64x128, .f32⟩ : BufTy).Contents (Elt F) → (⟨S64x128, .f32⟩ : BufTy).Contents (Elt F) → (⟨S64x128, .f32⟩ : BufTy).Contents (Elt F)),
    nullary main_cst_18 (constant S_ .f32 0x3727C5AC#32),
    unary main_cst_18 main_v87 (broadcastInDim S64x1 ![] bcast_S_S64x1 : (⟨S_, .f32⟩ : BufTy).Contents (Elt F) → (⟨S64x1, .f32⟩ : BufTy).Contents (Elt F)),
    binary main_v84 main_v87 main_v88 (addf : (⟨S64x1, .f32⟩ : BufTy).Contents (Elt F) → (⟨S64x1, .f32⟩ : BufTy).Contents (Elt F) → (⟨S64x1, .f32⟩ : BufTy).Contents (Elt F)),
    unary main_v88 main_v89 (Host.rsqrt : (⟨S64x1, .f32⟩ : BufTy).Contents (Elt F) → (⟨S64x1, .f32⟩ : BufTy).Contents (Elt F)),
    unary main_v89 main_v90 (broadcastInDim S64x128 ![0, 1] bcast_S64x1_S64x128_0_1 : (⟨S64x1, .f32⟩ : BufTy).Contents (Elt F) → (⟨S64x128, .f32⟩ : BufTy).Contents (Elt F)),
    binary main_v86 main_v90 main_v91 (mulf : (⟨S64x128, .f32⟩ : BufTy).Contents (Elt F) → (⟨S64x128, .f32⟩ : BufTy).Contents (Elt F) → (⟨S64x128, .f32⟩ : BufTy).Contents (Elt F)),
    unary main_arg12 main_v92 (broadcastInDim S1x128 ![1] bcast_S128_S1x128_1 : (⟨S128, .f32⟩ : BufTy).Contents (Elt F) → (⟨S1x128, .f32⟩ : BufTy).Contents (Elt F)),
    unary main_v92 main_v93 (broadcastInDim S64x128 ![0, 1] bcast_S1x128_S64x128_0_1 : (⟨S1x128, .f32⟩ : BufTy).Contents (Elt F) → (⟨S64x128, .f32⟩ : BufTy).Contents (Elt F)),
    binary main_v91 main_v93 main_v94 (mulf : (⟨S64x128, .f32⟩ : BufTy).Contents (Elt F) → (⟨S64x128, .f32⟩ : BufTy).Contents (Elt F) → (⟨S64x128, .f32⟩ : BufTy).Contents (Elt F)),
    unary main_arg13 main_v95 (broadcastInDim S1x128 ![1] bcast_S128_S1x128_1 : (⟨S128, .f32⟩ : BufTy).Contents (Elt F) → (⟨S1x128, .f32⟩ : BufTy).Contents (Elt F)),
    unary main_v95 main_v96 (broadcastInDim S64x128 ![0, 1] bcast_S1x128_S64x128_0_1 : (⟨S1x128, .f32⟩ : BufTy).Contents (Elt F) → (⟨S64x128, .f32⟩ : BufTy).Contents (Elt F)),
    binary main_v94 main_v96 main_v97 (addf : (⟨S64x128, .f32⟩ : BufTy).Contents (Elt F) → (⟨S64x128, .f32⟩ : BufTy).Contents (Elt F) → (⟨S64x128, .f32⟩ : BufTy).Contents (Elt F)) ]

/-- The buffer each operation writes, in the same order. -/
abbrev outs : List (Ref sig .tc) :=
  [
    main_v0, main_v1, main_v2, main_v3, main_cst, main_v4, main_cst_0, main_v5,
    main_v6, main_v7, main_cst_1, main_v8, main_v9, main_cst_2, main_v10, main_v11,
    main_v12, main_c, main_v13, main_v14, main_c_3, main_v15, main_v16, main_v17,
    main_v18, main_v19, main_cst_4, main_v20, main_v21, main_v22, main_v23, main_v24,
    main_v25, main_v26, main_v27, main_v28, main_v29, main_call0.cst.ref, main_call0.v0.ref, main_call0.v1.ref,
    main_c_5, main_v31, main_v32, main_c_6, main_v33, main_v34, main_v35, main_v36,
    main_v37, main_cst_7, main_v38, main_v39, main_v40, main_v41, main_v42, main_v43,
    main_v44, main_v45, main_v46, main_v47, main_v48, main_call1.cst.ref, main_call1.v0.ref, main_call1.v1.ref,
    main_c_8, main_v50, main_v51, main_c_9, main_v52, main_v53, main_v54, main_v55,
    main_v56, main_cst_10, main_v57, main_v58, main_v59, main_v60, main_v61, main_v62,
    main_v63, main_v64, main_v65, main_v66, main_v67, main_cst_11, main_v68, main_v69,
    main_v70, main_cst_12, main_v71, main_cst_13, main_v72, main_v73, main_v74, main_cst_14,
    main_v75, main_v76, main_v77, main_v78, main_v79, main_cst_15, main_v80, main_v81,
    main_cst_16, main_v82, main_v83, main_c_17, main_call2.cst.ref, main_call2.v0.ref, main_call2.v1.ref, main_call2.cst_0.ref,
    main_call2.v2.ref, main_call2.v3.ref, main_call2.v4.ref, main_call2.v5.ref, main_call2.v6.ref, main_call2.v7.ref, main_call2.cst_1.ref, main_call2.v8.ref,
    main_call2.cst_2.ref, main_call2.v9.ref, main_call2.v10.ref, main_call2.v11.ref, main_call2.v12.ref, main_call2.cst_3.ref, main_call2.v13.ref, main_call2.cst_4.ref,
    main_call2.call0.v0.ref, main_call2.call0.v1.ref, main_call2.call0.v2.ref, main_v85, main_v86, main_cst_18, main_v87, main_v88,
    main_v89, main_v90, main_v91, main_v92, main_v93, main_v94, main_v95, main_v96,
    main_v97 ]

/-- Every operation touches buffers of the program only. -/
theorem ops_sub : (ops : List (HloOp τ sig (Elt F))).Forall fun op => op.bufs ⊆ tcRefs τ sig :=
  ⟨
    unary_bufs_sub .., reshape_bufs_sub .., unary_bufs_sub .., reshape_bufs_sub .., nullary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    binary_bufs_sub .., binary_bufs_sub .., unary_bufs_sub .., unary_bufs_sub .., binary_bufs_sub .., binary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub ..,
    binary_bufs_sub .., binary_bufs_sub .., unary_bufs_sub .., unary_bufs_sub .., binary_bufs_sub .., binary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub ..,
    binary_bufs_sub .., binary_bufs_sub .., unary_bufs_sub .., unary_bufs_sub .., binary_bufs_sub .., binary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., nullary_bufs_sub ..,
    binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub ..⟩

end Cert.ReferenceIdeal.RefRun

end
-- ==== Proof.LibHostRead.lean ====
/-
  Reading a line of host operations one operation at a time.

  A line is a list of operations, each writing one buffer. After the whole line, the buffer the k-th operation writes
  holds that operation's function of what the first k operations left, provided no later operation writes it again; and
  a buffer that no operation from the k-th on writes holds after the whole line what it held after the first k. So the
  contents of every buffer after the line can be read off stage by stage, in program order, each stage from the stages
  of its operands.

  An operation of a module-local function names its buffers through typed references, and moves contents between a
  buffer's own type and the value's type along the equation of the two. Those transports are identities; stated with
  heterogeneous equality they vanish once the typed reference is opened and its equation substituted.
-/
import Idealize.ShloMosaic.Lib.StableHlo.Run

namespace HostRead

open Idealize.ShloMosaic Idealize.ShloMosaic.StableHlo Idealize.ShloMosaic.TcCoe

variable {sig : RefSig} {τ : Topo} {Val : EltTy → Type}

/-- Each operation of `l` writes exactly the buffer listed at its place in `ys`. -/
abbrev Outs (l : List (HloOp τ sig Val)) (ys : List (Ref sig .tc)) : Prop :=
  List.Forall₂ (fun op y => op.writes = {Proc.devRef (τ := τ) .tc y}) l ys

/-- A line run after another is the two run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A reference not among a line's results is written by none of its operations. -/
theorem not_written {l : List (HloOp τ sig Val)} {ys : List (Ref sig .tc)} (h : Outs l ys) (r : Ref sig .tc) (hr : r ∉ ys) :
    ∀ op ∈ l, Proc.devRef (τ := τ) .tc r ∉ op.writes := by
  induction h with
  | nil => intro op hop; cases hop
  | @cons op₀ y l' ys' hw _ ih =>
    intro op hop
    rcases List.mem_cons.mp hop with rfl | hop
    · rw [hw, Finset.mem_singleton]
      exact devRef_ne_of_ne (fun e => hr (e ▸ List.mem_cons_self))
    · exact ih (fun h' => hr (List.mem_cons_of_mem _ h')) op hop

/-- A buffer none of the operations from the `k`-th on writes: after the line, what the first `k` left. -/
theorem after_take {l : List (HloOp τ sig Val)} {ys : List (Ref sig .tc)} (h : Outs l ys) (k : Nat) (r : Ref sig .tc)
    (hr : r ∉ ys.drop k) (V : Valuation τ sig Val) :
    after l V (Proc.devRef .tc r) = after (l.take k) V (Proc.devRef .tc r) := by
  have e := after_append (l.take k) (l.drop k) V
  rw [List.take_append_drop] at e
  rw [e]
  exact after_of_forall_not_mem _ _ (not_written (List.forall₂_drop k h) r hr)

/-- The buffer the `k`-th operation writes, if none after it writes it again: after the line, that operation's result
    from what the first `k` left. -/
theorem after_at {l : List (HloOp τ sig Val)} {ys : List (Ref sig .tc)} (h : Outs l ys) (k : Nat) (op : HloOp τ sig Val)
    (y : Ref sig .tc) (hk : l[k]? = some op) (hy : y ∉ ys.drop (k + 1)) (V : Valuation τ sig Val) :
    after l V (Proc.devRef .tc y) = op.result (after (l.take k) V) (Proc.devRef .tc y) := by
  rw [after_take h (k + 1) y hy V]
  have e : l.take (k + 1) = l.take k ++ [op] := by rw [List.take_succ, hk]; rfl
  rw [e, after_append]
  rfl

/-! ## Operations over typed references -/

section Typed

variable {Tx Ta Tb Tc Ty : BufTy}

/-- A constant into a typed reference's buffer: the buffer holds the constant. -/
theorem tnullary_heq (y : TRef sig Ty) (v : Ty.Contents Val) (F : Valuation τ sig Val) :
    HEq ((TRef.nullary (τ := τ) y v).result F (Proc.devRef .tc y.ref)) v := by
  obtain ⟨ry, rfl, _, _⟩ := y
  rw [nullary_result]
  exact cast_heq _ _

/-- A one-operand operation over typed references: the result buffer holds the function of the operand's contents. -/
theorem tunary_heq (x : TRef sig Tx) (y : TRef sig Ty) (f : Tx.Contents Val → Ty.Contents Val) (F : Valuation τ sig Val)
    (vx : Tx.Contents Val) (hx : HEq (F (Proc.devRef .tc x.ref)) vx) :
    HEq ((TRef.unary (τ := τ) x y f).result F (Proc.devRef .tc y.ref)) (f vx) := by
  obtain ⟨rx, rfl, _, _⟩ := x
  obtain ⟨ry, rfl, _, _⟩ := y
  obtain rfl := eq_of_heq hx
  rw [unary_result]
  exact cast_heq _ _

/-- A two-operand operation over typed references. -/
theorem tbinary_heq (a : TRef sig Ta) (b : TRef sig Tb) (y : TRef sig Ty) (f : Ta.Contents Val → Tb.Contents Val → Ty.Contents Val)
    (F : Valuation τ sig Val) (va : Ta.Contents Val) (vb : Tb.Contents Val)
    (ha : HEq (F (Proc.devRef .tc a.ref)) va) (hb : HEq (F (Proc.devRef .tc b.ref)) vb) :
    HEq ((TRef.binary (τ := τ) a b y f).result F (Proc.devRef .tc y.ref)) (f va vb) := by
  obtain ⟨ra, rfl, _, _⟩ := a
  obtain ⟨rb, rfl, _, _⟩ := b
  obtain ⟨ry, rfl, _, _⟩ := y
  obtain rfl := eq_of_heq ha
  obtain rfl := eq_of_heq hb
  rw [binary_result]
  exact cast_heq _ _

/-- A three-operand operation over typed references. -/
theorem tternary_heq (c : TRef sig Tc) (a : TRef sig Ta) (b : TRef sig Tb) (y : TRef sig Ty)
    (f : Tc.Contents Val → Ta.Contents Val → Tb.Contents Val → Ty.Contents Val)
    (F : Valuation τ sig Val) (vc : Tc.Contents Val) (va : Ta.Contents Val) (vb : Tb.Contents Val)
    (hc : HEq (F (Proc.devRef .tc c.ref)) vc) (ha : HEq (F (Proc.devRef .tc a.ref)) va) (hb : HEq (F (Proc.devRef .tc b.ref)) vb) :
    HEq ((TRef.ternary (τ := τ) c a b y f).result F (Proc.devRef .tc y.ref)) (f vc va vb) := by
  obtain ⟨rc, rfl, _, _⟩ := c
  obtain ⟨ra, rfl, _, _⟩ := a
  obtain ⟨rb, rfl, _, _⟩ := b
  obtain ⟨ry, rfl, _, _⟩ := y
  obtain rfl := eq_of_heq hc
  obtain rfl := eq_of_heq ha
  obtain rfl := eq_of_heq hb
  rw [ternary_result]
  exact cast_heq _ _

end Typed

end HostRead
-- ==== Proof.RefRun.lean ====
/-
  The run of the reference network's program.

  The program is the straight line `ops` of Proof/RefOps.lean (`main_eq`): with the called functions' definitions
  unfolded at their calls, the program's two halves run one after the other are one chain of steps, and so is the line.
  The line only ever writes the buffers `outs` (`ops_writes`), so every run of the program ends with each buffer holding
  what the line's fold leaves there (`run_all`), the fourteen argument buffers among them unchanged (`kept_arg0` …
  `kept_arg13`: no argument is among `outs`); `run` states this for the result buffer and the arguments.
-/
import proofs.«103097_j17102559773409_2_alg».proof.Proof.RefOps
import proofs.«103097_j17102559773409_2_alg».proof.Proof.LibHostRead

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The program is that line: with the called functions' definitions unfolded at their calls, both sides are one chain
    of steps once sequencing is reassociated. -/
theorem main_eq (c : Dev nD) : main (F := F) c = seq ops := by
  simp only [main, main_part0, main_part1, fn_relu.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- An operation that writes the one buffer `y`, a member of a list, writes inside that list. -/
theorem writes_sub_of_mem {op : HloOp τ sig (Elt F)} {y : Ref sig .tc} {W : List (Ref sig .tc)}
    (h : op.writes = {Proc.devRef (τ := τ) .tc y}) (hy : y ∈ W) :
    op.writes ⊆ (W.map (Proc.devRef (τ := τ) .tc)).toFinset := by
  rw [h, Finset.singleton_subset_iff, List.mem_toFinset]
  exact List.mem_map_of_mem hy

set_option maxRecDepth 8192 in
/-- Every operation writes one buffer, and it is a member of `outs`. -/
theorem ops_writes : (ops : List (HloOp τ sig (Elt F))).Forall fun op =>
    op.writes ⊆ (outs.map (Proc.devRef (τ := τ) .tc)).toFinset := by
  rw [List.forall_iff_forall_mem]
  intro op h
  repeat (cases h with
    | head => exact writes_sub_of_mem rfl (by decide)
    | tail _ h => ?_)
  exact nomatch h

/-- Each operation writes exactly the buffer listed at its place in `outs`. -/
theorem outs_ok : HostRead.Outs (ops : List (HloOp τ sig (Elt F))) outs := by
  repeat (first | exact List.Forall₂.nil | refine List.Forall₂.cons rfl ?_)

/-! The argument buffers are not among `outs`: the line leaves them as it found them. -/
theorem kept_arg0 (V : Valuation τ sig (Elt F)) :
    after ops V (Proc.devRef .tc main_arg0) = V (Proc.devRef .tc main_arg0) :=
  after_of_writes_sub ops V ops_writes (by decide)
theorem kept_arg1 (V : Valuation τ sig (Elt F)) :
    after ops V (Proc.devRef .tc main_arg1) = V (Proc.devRef .tc main_arg1) :=
  after_of_writes_sub ops V ops_writes (by decide)
theorem kept_arg2 (V : Valuation τ sig (Elt F)) :
    after ops V (Proc.devRef .tc main_arg2) = V (Proc.devRef .tc main_arg2) :=
  after_of_writes_sub ops V ops_writes (by decide)
theorem kept_arg3 (V : Valuation τ sig (Elt F)) :
    after ops V (Proc.devRef .tc main_arg3) = V (Proc.devRef .tc main_arg3) :=
  after_of_writes_sub ops V ops_writes (by decide)
theorem kept_arg4 (V : Valuation τ sig (Elt F)) :
    after ops V (Proc.devRef .tc main_arg4) = V (Proc.devRef .tc main_arg4) :=
  after_of_writes_sub ops V ops_writes (by decide)
theorem kept_arg5 (V : Valuation τ sig (Elt F)) :
    after ops V (Proc.devRef .tc main_arg5) = V (Proc.devRef .tc main_arg5) :=
  after_of_writes_sub ops V ops_writes (by decide)
theorem kept_arg6 (V : Valuation τ sig (Elt F)) :
    after ops V (Proc.devRef .tc main_arg6) = V (Proc.devRef .tc main_arg6) :=
  after_of_writes_sub ops V ops_writes (by decide)
theorem kept_arg7 (V : Valuation τ sig (Elt F)) :
    after ops V (Proc.devRef .tc main_arg7) = V (Proc.devRef .tc main_arg7) :=
  after_of_writes_sub ops V ops_writes (by decide)
theorem kept_arg8 (V : Valuation τ sig (Elt F)) :
    after ops V (Proc.devRef .tc main_arg8) = V (Proc.devRef .tc main_arg8) :=
  after_of_writes_sub ops V ops_writes (by decide)
theorem kept_arg9 (V : Valuation τ sig (Elt F)) :
    after ops V (Proc.devRef .tc main_arg9) = V (Proc.devRef .tc main_arg9) :=
  after_of_writes_sub ops V ops_writes (by decide)
theorem kept_arg10 (V : Valuation τ sig (Elt F)) :
    after ops V (Proc.devRef .tc main_arg10) = V (Proc.devRef .tc main_arg10) :=
  after_of_writes_sub ops V ops_writes (by decide)
theorem kept_arg11 (V : Valuation τ sig (Elt F)) :
    after ops V (Proc.devRef .tc main_arg11) = V (Proc.devRef .tc main_arg11) :=
  after_of_writes_sub ops V ops_writes (by decide)
theorem kept_arg12 (V : Valuation τ sig (Elt F)) :
    after ops V (Proc.devRef .tc main_arg12) = V (Proc.devRef .tc main_arg12) :=
  after_of_writes_sub ops V ops_writes (by decide)
theorem kept_arg13 (V : Valuation τ sig (Elt F)) :
    after ops V (Proc.devRef .tc main_arg13) = V (Proc.devRef .tc main_arg13) :=
  after_of_writes_sub ops V ops_writes (by decide)

/-- On every device, for any float values, from any memory with zero counters: every weakly fair execution of the
    program terminates, and every buffer ends at the line's fold over the launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (fun b => m (c, b)) (Proc.devRef .tc b) :=
  run_seq scopedRefs_eq scopedSems_eq defs main (fun _ => ops) main_eq (fun _ => ops_sub) m ρ

/-- The same for the result buffer and the fourteen arguments: the result at the fold, the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v97) = after ops (fun b => m (c, b)) (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨h c main_v97,
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _),
      (h c main_arg11).trans (kept_arg11 _),
      (h c main_arg12).trans (kept_arg12 _),
      (h c main_arg13).trans (kept_arg13 _)⟩)
    (run_all m ρ)

end Cert.ReferenceIdeal.RefRun

end
-- ==== Proof.LibHostSsa.lean ====
/-
  A line of host operations in which every buffer is written once, read as a system of equations.

  When each operation of a line writes one buffer of its own and no later operation writes that buffer again, what the
  buffer holds after the WHOLE line is the operation's function of what its operand buffers hold after the WHOLE line:
  an operand is written, if at all, before the operation, so the line's later operations leave it alone.  Each lemma
  below states this for one kind of operation, the k-th of the line; the side conditions are that the result buffer is
  not among the buffers written after place k, and that no operand is among the buffers written from place k on.
-/
import proofs.«103097_j17102559773409_2_alg».proof.Proof.LibHostRead

namespace HostRead

open Idealize.ShloMosaic Idealize.ShloMosaic.StableHlo Idealize.ShloMosaic.TcCoe

variable {sig : RefSig} {τ : Topo} {Val : EltTy → Type}
variable {l : List (HloOp τ sig Val)} {ys : List (Ref sig .tc)}

/-- A constant: after the line the buffer holds it. -/
theorem nullary_at (h : Outs l ys) (V : Valuation τ sig Val) (k : Nat) (y : Ref sig .tc) (v : y.ty.Contents Val) (hy)
    (hk : l[k]? = some (nullary y v hy)) (hy' : y ∉ ys.drop (k + 1)) :
    after l V (Proc.devRef .tc y) = v := by
  rw [after_at h k _ y hk hy' V, nullary_result]

/-- A one-operand operation. -/
theorem unary_at (h : Outs l ys) (V : Valuation τ sig Val) (k : Nat) (x y : Ref sig .tc)
    (f : x.ty.Contents Val → y.ty.Contents Val) (hx hy)
    (hk : l[k]? = some (unary x y f hx hy)) (hy' : y ∉ ys.drop (k + 1)) (hx' : x ∉ ys.drop k) :
    after l V (Proc.devRef .tc y) = f (after l V (Proc.devRef .tc x)) := by
  rw [after_at h k _ y hk hy' V, unary_result, after_take h k x hx' V]

/-- A reshape. -/
theorem reshape_at (h : Outs l ys) (V : Valuation τ sig Val) (k : Nat) (x y : Ref sig .tc) (he hn hx hy)
    (hk : l[k]? = some (reshape (Val := Val) x y he hn hx hy)) (hy' : y ∉ ys.drop (k + 1)) (hx' : x ∉ ys.drop k) :
    after l V (Proc.devRef .tc y) = fun i => he ▸ shapeCast y.ty.shape (after l V (Proc.devRef .tc x)) hn i := by
  rw [after_at h k _ y hk hy' V, reshape_result, after_take h k x hx' V]

/-- A two-operand operation. -/
theorem binary_at (h : Outs l ys) (V : Valuation τ sig Val) (k : Nat) (a b y : Ref sig .tc)
    (f : a.ty.Contents Val → b.ty.Contents Val → y.ty.Contents Val) (ha hb hy)
    (hk : l[k]? = some (binary a b y f ha hb hy)) (hy' : y ∉ ys.drop (k + 1)) (ha' : a ∉ ys.drop k) (hb' : b ∉ ys.drop k) :
    after l V (Proc.devRef .tc y) = f (after l V (Proc.devRef .tc a)) (after l V (Proc.devRef .tc b)) := by
  rw [after_at h k _ y hk hy' V, binary_result, after_take h k a ha' V, after_take h k b hb' V]

/-- A three-operand operation. -/
theorem ternary_at (h : Outs l ys) (V : Valuation τ sig Val) (k : Nat) (c a b y : Ref sig .tc)
    (f : c.ty.Contents Val → a.ty.Contents Val → b.ty.Contents Val → y.ty.Contents Val) (hc ha hb hy)
    (hk : l[k]? = some (ternary c a b y f hc ha hb hy)) (hy' : y ∉ ys.drop (k + 1))
    (hc' : c ∉ ys.drop k) (ha' : a ∉ ys.drop k) (hb' : b ∉ ys.drop k) :
    after l V (Proc.devRef .tc y)
      = f (after l V (Proc.devRef .tc c)) (after l V (Proc.devRef .tc a)) (after l V (Proc.devRef .tc b)) := by
  rw [after_at h k _ y hk hy' V, ternary_result, after_take h k c hc' V, after_take h k a ha' V, after_take h k b hb' V]

end HostRead
-- ==== Proof.RefSsa.lean ====
/-
  The reference network's line of operations read as a system of equations, one per operation.

  Every operation of the line writes a buffer no other operation writes, and reads buffers written before it or never.
  So after the whole line each buffer holds its operation's function of what the operand buffers hold after the whole
  line.  The equations below say this for the 145 operations in order; an operation of a called function moves its
  operands and its result between a buffer's own type and the value's type, which are the same type at these buffers:
  its equation is stated at the value's type, and proved through the heterogeneous form in which the transports vanish.
-/
import proofs.«103097_j17102559773409_2_alg».proof.Proof.RefRun
import proofs.«103097_j17102559773409_2_alg».proof.Proof.LibHostSsa

noncomputable section

namespace Cert.ReferenceIdeal.RefSsa

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

theorem at_main_v0 (V : Valuation τ sig (Elt F)) :
    after ops V (Proc.devRef .tc main_v0) = extractStridedSlice S1x800000 ![0, 0] (after ops V (Proc.devRef .tc main_arg1)) slices_S2x800000_S1x800000_0_0 := by
  rw [HostRead.after_at outs_ok 0 _ main_v0 rfl (by decide) V,
    HostRead.after_take outs_ok 0 main_arg1 (by decide) V]
  exact unary_result ..

theorem at_main_v1 (V : Valuation τ sig (Elt F)) :
    after ops V (Proc.devRef .tc main_v1) = shapeCast S800000 (after ops V (Proc.devRef .tc main_v0)) shapeCasts_S1x800000_S800000 := by
  rw [HostRead.after_at outs_ok 1 _ main_v1 rfl (by decide) V,
    HostRead.after_take outs_ok 1 main_v0 (by decide) V]
  exact reshape_result ..

theorem at_main_v2 (V : Valuation τ sig (Elt F)) :
    after ops V (Proc.devRef .tc main_v2) = extractStridedSlice S1x800000 ![1, 0] (after ops V (Proc.devRef .tc main_arg1)) slices_S2x800000_S1x800000_1_0 := by
  rw [HostRead.after_at outs_ok 2 _ main_v2 rfl (by decide) V,
    HostRead.after_take outs_ok 2 main_arg1 (by decide) V]
  exact unary_result ..

theorem at_main_v3 (V : Valuation τ sig (Elt F)) :
    after ops V (Proc.devRef .tc main_v3) = shapeCast S800000 (after ops V (Proc.devRef .tc main_v2)) shapeCasts_S1x800000_S800000 := by
  rw [HostRead.after_at outs_ok 3 _ main_v3 rfl (by decide) V,
    HostRead.after_take outs_ok 3 main_v2 (by decide) V]
  exact reshape_result ..

theorem at_main_cst (V : Valuation τ sig (Elt F)) :
    after ops V (Proc.devRef .tc main_cst) = constant S_ .f32 0x3F800000#32 := by
  rw [HostRead.after_at outs_ok 4 _ main_cst rfl (by decide) V]
  exact nullary_result ..

theorem at_main_v4 (V : Valuation τ sig (Elt F)) :
    after ops V (Proc.devRef .tc main_v4) = (broadcastInDim S800000 ![] bcast_S_S800000 : (⟨S_, .f32⟩ : BufTy).Contents (Elt F) → (⟨S800000, .f32⟩ : BufTy).Contents (Elt F)) (after ops V (Proc.devRef .tc main_cst)) := by
  rw [HostRead.after_at outs_ok 5 _ main_v4 rfl (by decide) V,
    HostRead.after_take outs_ok 5 main_cst (by decide) V]
  exact unary_result ..

theorem at_main_cst_0 (V : Valuation τ sig (Elt F)) :
    after ops V (Proc.devRef .tc main_cst_0) = constant S_ .f32 0x00000000#32 := by
  rw [HostRead.after_at outs_ok 6 _ main_cst_0 rfl (by decide) V]
  exact nullary_result ..

theorem at_main_v5 (V : Valuation τ sig (Elt F)) :
    after ops V (Proc.devRef .tc main_v5) = (broadcastInDim S50000 ![] bcast_S_S50000 : (⟨S_, .f32⟩ : BufTy).Contents (Elt F) → (⟨S50000, .f32⟩ : BufTy).Contents (Elt F)) (after ops V (Proc.devRef .tc main_cst_0)) := by
  rw [HostRead.after_at outs_ok 7 _ main_v5 rfl (by decide) V,
    HostRead.after_take outs_ok 7 main_cst_0 (by decide) V]
  exact unary_result ..

theorem at_main_v6 (V : Valuation τ sig (Elt F)) :
    after ops V (Proc.devRef .tc main_v6) = (broadcastInDim S800000x1 ![0] bcast_S800000_S800000x1_0 : (⟨S800000, .i32⟩ : BufTy).Contents (Elt F) → (⟨S800000x1, .i32⟩ : BufTy).Contents (Elt F)) (after ops V (Proc.devRef .tc main_v3)) := by
  rw [HostRead.after_at outs_ok 8 _ main_v6 rfl (by decide) V,
    HostRead.after_take outs_ok 8 main_v3 (by decide) V]
  exact unary_result ..

theorem at_main_v7 (V : Valuation τ sig (Elt F)) :
    after ops V (Proc.devRef .tc main_v7) = Host.scatterAdd scatter_S50000_S800000x1_S800000_n_0_0_1 (after ops V (Proc.devRef .tc main_v5)) (after ops V (Proc.devRef .tc main_v6)) (after ops V (Proc.devRef .tc main_v4)) := by
  rw [HostRead.after_at outs_ok 9 _ main_v7 rfl (by decide) V,
    HostRead.after_take outs_ok 9 main_v5 (by decide) V,
    HostRead.after_take outs_ok 9 main_v6 (by decide) V,
    HostRead.after_take outs_ok 9 main_v4 (by decide) V]
  exact ternary_result ..

theorem at_main_cst_1 (V : Valuation τ sig (Elt F)) :
    after ops V (Proc.devRef .tc main_cst_1) = constant S_ .f32 0x3F800000#32 := by
  rw [HostRead.after_at outs_ok 10 _ main_cst_1 rfl (by decide) V]
  exact nullary_result ..

theorem at_main_v8 (V : Valuation τ sig (Elt F)) :
    after ops V (Proc.devRef .tc main_v8) = (broadcastInDim S50000 ![] bcast_S_S50000 : (⟨S_, .f32⟩ : BufTy).Contents (Elt F) → (⟨S50000, .f32⟩ : BufTy).Contents (Elt F)) (after ops V (Proc.devRef .tc main_cst_1)) := by
  rw [HostRead.after_at outs_ok 11 _ main_v8 rfl (by decide) V,
    HostRead.after_take outs_ok 11 main_cst_1 (by decide) V]
  exact unary_result ..

theorem at_main_v9 (V : Valuation τ sig (Elt F)) :
    after ops V (Proc.devRef .tc main_v9) = (maximumf : (⟨S50000, .f32⟩ : BufTy).Contents (Elt F) → (⟨S50000, .f32⟩ : BufTy).Contents (Elt F) → (⟨S50000, .f32⟩ : BufTy).Contents (Elt F)) (after ops V (Proc.devRef .tc main_v7)) (after ops V (Proc.devRef .tc main_v8)) := by
  rw [HostRead.after_at outs_ok 12 _ main_v9 rfl (by decide) V,
    HostRead.after_take outs_ok 12 main_v7 (by decide) V,
    HostRead.after_take outs_ok 12 main_v8 (by decide) V]
  exact binary_result ..

theorem at_main_cst_2 (V : Valuation τ sig (Elt F)) :
    after ops V (Proc.devRef .tc main_cst_2) = constant S_ .f32 0x3F800000#32 := by
  rw [HostRead.after_at outs_ok 13 _ main_cst_2 rfl (by decide) V]
  exact nullary_result ..

theorem at_main_v10 (V : Valuation τ sig (Elt F)) :
    after ops V (Proc.devRef .tc main_v10) = (broadcastInDim S50000 ![] bcast_S_S50000 : (⟨S_, .f32⟩ : BufTy).Contents (Elt F) → (⟨S50000, .f32⟩ : BufTy).Contents (Elt F)) (after ops V (Proc.devRef .tc main_cst_2)) := by
  rw [HostRead.after_at outs_ok 14 _ main_v10 rfl (by decide) V,
    HostRead.after_take outs_ok 14 main_cst_2 (by decide) V]
  exact unary_result ..

theorem at_main_v11 (V : Valuation τ sig (Elt F)) :
    after ops V (Proc.devRef .tc main_v11) = (Host.divf : (⟨S50000, .f32⟩ : BufTy).Contents (Elt F) → (⟨S50000, .f32⟩ : BufTy).Contents (Elt F) → (⟨S50000, .f32⟩ : BufTy).Contents (Elt F)) (after ops V (Proc.devRef .tc main_v10)) (after ops V (Proc.devRef .tc main_v9)) := by
  rw [HostRead.after_at outs_ok 15 _ main_v11 rfl (by decide) V,
    HostRead.after_take outs_ok 15 main_v10 (by decide) V,
    HostRead.after_take outs_ok 15 main_v9 (by decide) V]
  exact binary_result ..

theorem at_main_v12 (V : Valuation τ sig (Elt F)) :
    after ops V (Proc.devRef .tc main_v12) = (broadcastInDim S50000x1 ![0] bcast_S50000_S50000x1_0 : (⟨S50000, .f32⟩ : BufTy).Contents (Elt F) → (⟨S50000x1, .f32⟩ : BufTy).Contents (Elt F)) (after ops V (Proc.devRef .tc main_v11)) := by
  rw [HostRead.after_at outs_ok 16 _ main_v12 rfl (by decide) V,
    HostRead.after_take outs_ok 16 main_v11 (by decide) V]
  exact unary_result ..

theorem at_main_c (V : Valuation τ sig (Elt F)) :
    after ops V (Proc.devRef .tc main_c) = constantI S_ 32 0#32 := by
  rw [HostRead.after_at outs_ok 17 _ main_c rfl (by decide) V]
  exact nullary_result ..

theorem at_main_v13 (V : Valuation τ sig (Elt F)) :
    after ops V (Proc.devRef .tc main_v13) = (broadcastInDim S800000 ![] bcast_S_S800000 : (⟨S_, .i32⟩ : BufTy).Contents (Elt F) → (⟨S800000, .i32⟩ : BufTy).Contents (Elt F)) (after ops V (Proc.devRef .tc main_c)) := by
  rw [HostRead.after_at outs_ok 18 _ main_v13 rfl (by decide) V,
    HostRead.after_take outs_ok 18 main_c (by decide) V]
  exact unary_result ..

theorem at_main_v14 (V : Valuation τ sig (Elt F)) :
    after ops V (Proc.devRef .tc main_v14) = (cmpi .slt : (⟨S800000, .i32⟩ : BufTy).Contents (Elt F) → (⟨S800000, .i32⟩ : BufTy).Contents (Elt F) → (⟨S800000, .i1⟩ : BufTy).Contents (Elt F)) (after ops V (Proc.devRef .tc main_v1)) (after ops V (Proc.devRef .tc main_v13)) := by
  rw [HostRead.after_at outs_ok 19 _ main_v14 rfl (by decide) V,
    HostRead.after_take outs_ok 19 main_v1 (by decide) V,
    HostRead.after_take outs_ok 19 main_v13 (by decide) V]
  exact binary_result ..

theorem at_main_c_3 (V : Valuation τ sig (Elt F)) :
    after ops V (Proc.devRef .tc main_c_3) = constantI S_ 32 50000#32 := by
  rw [HostRead.after_at outs_ok 20 _ main_c_3 rfl (by decide) V]
  exact nullary_result ..

theorem at_main_v15 (V : Valuation τ sig (Elt F)) :
    after ops V (Proc.devRef .tc main_v15) = (broadcastInDim S800000 ![] bcast_S_S800000 : (⟨S_, .i32⟩ : BufTy).Contents (Elt F) → (⟨S800000, .i32⟩ : BufTy).Contents (Elt F)) (after ops V (Proc.devRef .tc main_c_3)) := by
  rw [HostRead.after_at outs_ok 21 _ main_v15 rfl (by decide) V,
    HostRead.after_take outs_ok 21 main_c_3 (by decide) V]
  exact unary_result ..

theorem at_main_v16 (V : Valuation τ sig (Elt F)) :
    after ops V (Proc.devRef .tc main_v16) = (addi : (⟨S800000, .i32⟩ : BufTy).Contents (Elt F) → (⟨S800000, .i32⟩ : BufTy).Contents (Elt F) → (⟨S800000, .i32⟩ : BufTy).Contents (Elt F)) (after ops V (Proc.devRef .tc main_v1)) (after ops V (Proc.devRef .tc main_v15)) := by
  rw [HostRead.after_at outs_ok 22 _ main_v16 rfl (by decide) V,
    HostRead.after_take outs_ok 22 main_v1 (by decide) V,
    HostRead.after_take outs_ok 22 main_v15 (by decide) V]
  exact binary_result ..

theorem at_main_v17 (V : Valuation τ sig (Elt F)) :
    after ops V (Proc.devRef .tc main_v17) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (after ops V (Proc.devRef .tc main_v14)) (after ops V (Proc.devRef .tc main_v16)) (after ops V (Proc.devRef .tc main_v1)) := by
  rw [HostRead.after_at outs_ok 23 _ main_v17 rfl (by decide) V,
    HostRead.after_take outs_ok 23 main_v14 (by decide) V,
    HostRead.after_take outs_ok 23 main_v16 (by decide) V,
    HostRead.after_take outs_ok 23 main_v1 (by decide) V]
  exact ternary_result ..

theorem at_main_v18 (V : Valuation τ sig (Elt F)) :
    after ops V (Proc.devRef .tc main_v18) = (broadcastInDim S800000x1 ![0] bcast_S800000_S800000x1_0 : (⟨S800000, .i32⟩ : BufTy).Contents (Elt F) → (⟨S800000x1, .i32⟩ : BufTy).Contents (Elt F)) (after ops V (Proc.devRef .tc main_v17)) := by
  rw [HostRead.after_at outs_ok 24 _ main_v18 rfl (by decide) V,
    HostRead.after_take outs_ok 24 main_v17 (by decide) V]
  exact unary_result ..

theorem at_main_v19 (V : Valuation τ sig (Elt F)) :
    after ops V (Proc.devRef .tc main_v19) = Host.gather gather_S50000x1_S800000x1_S800000x1_1_0_n_n_0_1_11 (after ops V (Proc.devRef .tc main_arg0)) (after ops V (Proc.devRef .tc main_v18)) := by
  rw [HostRead.after_at outs_ok 25 _ main_v19 rfl (by decide) V,
    HostRead.after_take outs_ok 25 main_arg0 (by decide) V,
    HostRead.after_take outs_ok 25 main_v18 (by decide) V]
  exact binary_result ..

theorem at_main_cst_4 (V : Valuation τ sig (Elt F)) :
    after ops V (Proc.devRef .tc main_cst_4) = constant S_ .f32 0x00000000#32 := by
  rw [HostRead.after_at outs_ok 26 _ main_cst_4 rfl (by decide) V]
  exact nullary_result ..

theorem at_main_v20 (V : Valuation τ sig (Elt F)) :
    after ops V (Proc.devRef .tc main_v20) = (broadcastInDim S50000x1 ![] bcast_S_S50000x1 : (⟨S_, .f32⟩ : BufTy).Contents (Elt F) → (⟨S50000x1, .f32⟩ : BufTy).Contents (Elt F)) (after ops V (Proc.devRef .tc main_cst_4)) := by
  rw [HostRead.after_at outs_ok 27 _ main_v20 rfl (by decide) V,
    HostRead.after_take outs_ok 27 main_cst_4 (by decide) V]
  exact unary_result ..

theorem at_main_v21 (V : Valuation τ sig (Elt F)) :
    after ops V (Proc.devRef .tc main_v21) = (broadcastInDim S800000x1 ![0] bcast_S800000_S800000x1_0 : (⟨S800000, .i32⟩ : BufTy).Contents (Elt F) → (⟨S800000x1, .i32⟩ : BufTy).Contents (Elt F)) (after ops V (Proc.devRef .tc main_v3)) := by
  rw [HostRead.after_at outs_ok 28 _ main_v21 rfl (by decide) V,
    HostRead.after_take outs_ok 28 main_v3 (by decide) V]
  exact unary_result ..

theorem at_main_v22 (V : Valuation τ sig (Elt F)) :
    after ops V (Proc.devRef .tc main_v22) = Host.scatterAdd scatter_S50000x1_S800000x1_S800000x1_1_0_0_1 (after ops V (Proc.devRef .tc main_v20)) (after ops V (Proc.devRef .tc main_v21)) (after ops V (Proc.devRef .tc main_v19)) := by
  rw [HostRead.after_at outs_ok 29 _ main_v22 rfl (by decide) V,
    HostRead.after_take outs_ok 29 main_v20 (by decide) V,
    HostRead.after_take outs_ok 29 main_v21 (by decide) V,
    HostRead.after_take outs_ok 29 main_v19 (by decide) V]
  exact ternary_result ..

theorem at_main_v23 (V : Valuation τ sig (Elt F)) :
    after ops V (Proc.devRef .tc main_v23) = (mulf : (⟨S50000x1, .f32⟩ : BufTy).Contents (Elt F) → (⟨S50000x1, .f32⟩ : BufTy).Contents (Elt F) → (⟨S50000x1, .f32⟩ : BufTy).Contents (Elt F)) (after ops V (Proc.devRef .tc main_v22)) (after ops V (Proc.devRef .tc main_v12)) := by
  rw [HostRead.after_at outs_ok 30 _ main_v23 rfl (by decide) V,
    HostRead.after_take outs_ok 30 main_v22 (by decide) V,
    HostRead.after_take outs_ok 30 main_v12 (by decide) V]
  exact binary_result ..

theorem at_main_v24 (V : Valuation τ sig (Elt F)) :
    after ops V (Proc.devRef .tc main_v24) = Host.dotGeneral dot_S50000x1_S1x256_S50000x256_1_0_0_1_n_n none (after ops V (Proc.devRef .tc main_v23)) (after ops V (Proc.devRef .tc main_arg3)) := by
  rw [HostRead.after_at outs_ok 31 _ main_v24 rfl (by decide) V,
    HostRead.after_take outs_ok 31 main_v23 (by decide) V,
    HostRead.after_take outs_ok 31 main_arg3 (by decide) V]
  exact binary_result ..

theorem at_main_v25 (V : Valuation τ sig (Elt F)) :
    after ops V (Proc.devRef .tc main_v25) = (broadcastInDim S1x256 ![1] bcast_S256_S1x256_1 : (⟨S256, .f32⟩ : BufTy).Contents (Elt F) → (⟨S1x256, .f32⟩ : BufTy).Contents (Elt F)) (after ops V (Proc.devRef .tc main_arg4)) := by
  rw [HostRead.after_at outs_ok 32 _ main_v25 rfl (by decide) V,
    HostRead.after_take outs_ok 32 main_arg4 (by decide) V]
  exact unary_result ..

theorem at_main_v26 (V : Valuation τ sig (Elt F)) :
    after ops V (Proc.devRef .tc main_v26) = (broadcastInDim S50000x256 ![0, 1] bcast_S1x256_S50000x256_0_1 : (⟨S1x256, .f32⟩ : BufTy).Contents (Elt F) → (⟨S50000x256, .f32⟩ : BufTy).Contents (Elt F)) (after ops V (Proc.devRef .tc main_v25)) := by
  rw [HostRead.after_at outs_ok 33 _ main_v26 rfl (by decide) V,
    HostRead.after_take outs_ok 33 main_v25 (by decide) V]
  exact unary_result ..

theorem at_main_v27 (V : Valuation τ sig (Elt F)) :
    after ops V (Proc.devRef .tc main_v27) = (addf : (⟨S50000x256, .f32⟩ : BufTy).Contents (Elt F) → (⟨S50000x256, .f32⟩ : BufTy).Contents (Elt F) → (⟨S50000x256, .f32⟩ : BufTy).Contents (Elt F)) (after ops V (Proc.devRef .tc main_v24)) (after ops V (Proc.devRef .tc main_v26)) := by
  rw [HostRead.after_at outs_ok 34 _ main_v27 rfl (by decide) V,
    HostRead.after_take outs_ok 34 main_v24 (by decide) V,
    HostRead.after_take outs_ok 34 main_v26 (by decide) V]
  exact binary_result ..

theorem at_main_v28 (V : Valuation τ sig (Elt F)) :
    after ops V (Proc.devRef .tc main_v28) = Host.dotGeneral dot_S50000x1_S1x256_S50000x256_1_0_0_1_n_n none (after ops V (Proc.devRef .tc main_arg0)) (after ops V (Proc.devRef .tc main_arg5)) := by
  rw [HostRead.after_at outs_ok 35 _ main_v28 rfl (by decide) V,
    HostRead.after_take outs_ok 35 main_arg0 (by decide) V,
    HostRead.after_take outs_ok 35 main_arg5 (by decide) V]
  exact binary_result ..

theorem at_main_v29 (V : Valuation τ sig (Elt F)) :
    after ops V (Proc.devRef .tc main_v29) = (addf : (⟨S50000x256, .f32⟩ : BufTy).Contents (Elt F) → (⟨S50000x256, .f32⟩ : BufTy).Contents (Elt F) → (⟨S50000x256, .f32⟩ : BufTy).Contents (Elt F)) (after ops V (Proc.devRef .tc main_v27)) (after ops V (Proc.devRef .tc main_v28)) := by
  rw [HostRead.after_at outs_ok 36 _ main_v29 rfl (by decide) V,
    HostRead.after_take outs_ok 36 main_v27 (by decide) V,
    HostRead.after_take outs_ok 36 main_v28 (by decide) V]
  exact binary_result ..

theorem at_main_call0_cst (V : Valuation τ sig (Elt F)) :
    after ops V (Proc.devRef .tc main_call0_cst) = (constant S_ .f32 0x00000000#32 : (⟨S_, .f32⟩ : BufTy).Contents (Elt F)) := by
  rw [HostRead.after_at outs_ok 37 _ main_call0_cst rfl (by decide) V]
  exact eq_of_heq (HostRead.tnullary_heq _ _ _)

theorem at_main_call0_v0 (V : Valuation τ sig (Elt F)) :
    after ops V (Proc.devRef .tc main_call0_v0) = (broadcastInDim S50000x256 ![] bcast_S_S50000x256 (after ops V (Proc.devRef .tc main_call0_cst) : (⟨S_, .f32⟩ : BufTy).Contents (Elt F)) : (⟨S50000x256, .f32⟩ : BufTy).Contents (Elt F)) := by
  rw [HostRead.after_at outs_ok 38 _ main_call0_v0 rfl (by decide) V,
    HostRead.after_take outs_ok 38 main_call0_cst (by decide) V]
  exact eq_of_heq (HostRead.tunary_heq _ _ _ _ _ HEq.rfl)

theorem at_main_v30 (V : Valuation τ sig (Elt F)) :
    after ops V (Proc.devRef .tc main_v30) = (maximumf (after ops V (Proc.devRef .tc main_v29) : (⟨S50000x256, .f32⟩ : BufTy).Contents (Elt F)) (after ops V (Proc.devRef .tc main_call0_v0) : (⟨S50000x256, .f32⟩ : BufTy).Contents (Elt F)) : (⟨S50000x256, .f32⟩ : BufTy).Contents (Elt F)) := by
  rw [HostRead.after_at outs_ok 39 _ main_v30 rfl (by decide) V,
    HostRead.after_take outs_ok 39 main_v29 (by decide) V,
    HostRead.after_take outs_ok 39 main_call0_v0 (by decide) V]
  exact eq_of_heq (HostRead.tbinary_heq _ _ _ _ _ _ _ HEq.rfl HEq.rfl)

theorem at_main_c_5 (V : Valuation τ sig (Elt F)) :
    after ops V (Proc.devRef .tc main_c_5) = constantI S_ 32 0#32 := by
  rw [HostRead.after_at outs_ok 40 _ main_c_5 rfl (by decide) V]
  exact nullary_result ..

theorem at_main_v31 (V : Valuation τ sig (Elt F)) :
    after ops V (Proc.devRef .tc main_v31) = (broadcastInDim S800000 ![] bcast_S_S800000 : (⟨S_, .i32⟩ : BufTy).Contents (Elt F) → (⟨S800000, .i32⟩ : BufTy).Contents (Elt F)) (after ops V (Proc.devRef .tc main_c_5)) := by
  rw [HostRead.after_at outs_ok 41 _ main_v31 rfl (by decide) V,
    HostRead.after_take outs_ok 41 main_c_5 (by decide) V]
  exact unary_result ..

theorem at_main_v32 (V : Valuation τ sig (Elt F)) :
    after ops V (Proc.devRef .tc main_v32) = (cmpi .slt : (⟨S800000, .i32⟩ : BufTy).Contents (Elt F) → (⟨S800000, .i32⟩ : BufTy).Contents (Elt F) → (⟨S800000, .i1⟩ : BufTy).Contents (Elt F)) (after ops V (Proc.devRef .tc main_v1)) (after ops V (Proc.devRef .tc main_v31)) := by
  rw [HostRead.after_at outs_ok 42 _ main_v32 rfl (by decide) V,
    HostRead.after_take outs_ok 42 main_v1 (by decide) V,
    HostRead.after_take outs_ok 42 main_v31 (by decide) V]
  exact binary_result ..

theorem at_main_c_6 (V : Valuation τ sig (Elt F)) :
    after ops V (Proc.devRef .tc main_c_6) = constantI S_ 32 50000#32 := by
  rw [HostRead.after_at outs_ok 43 _ main_c_6 rfl (by decide) V]
  exact nullary_result ..

theorem at_main_v33 (V : Valuation τ sig (Elt F)) :
    after ops V (Proc.devRef .tc main_v33) = (broadcastInDim S800000 ![] bcast_S_S800000 : (⟨S_, .i32⟩ : BufTy).Contents (Elt F) → (⟨S800000, .i32⟩ : BufTy).Contents (Elt F)) (after ops V (Proc.devRef .tc main_c_6)) := by
  rw [HostRead.after_at outs_ok 44 _ main_v33 rfl (by decide) V,
    HostRead.after_take outs_ok 44 main_c_6 (by decide) V]
  exact unary_result ..

theorem at_main_v34 (V : Valuation τ sig (Elt F)) :
    after ops V (Proc.devRef .tc main_v34) = (addi : (⟨S800000, .i32⟩ : BufTy).Contents (Elt F) → (⟨S800000, .i32⟩ : BufTy).Contents (Elt F) → (⟨S800000, .i32⟩ : BufTy).Contents (Elt F)) (after ops V (Proc.devRef .tc main_v1)) (after ops V (Proc.devRef .tc main_v33)) := by
  rw [HostRead.after_at outs_ok 45 _ main_v34 rfl (by decide) V,
    HostRead.after_take outs_ok 45 main_v1 (by decide) V,
    HostRead.after_take outs_ok 45 main_v33 (by decide) V]
  exact binary_result ..

theorem at_main_v35 (V : Valuation τ sig (Elt F)) :
    after ops V (Proc.devRef .tc main_v35) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (after ops V (Proc.devRef .tc main_v32)) (after ops V (Proc.devRef .tc main_v34)) (after ops V (Proc.devRef .tc main_v1)) := by
  rw [HostRead.after_at outs_ok 46 _ main_v35 rfl (by decide) V,
    HostRead.after_take outs_ok 46 main_v32 (by decide) V,
    HostRead.after_take outs_ok 46 main_v34 (by decide) V,
    HostRead.after_take outs_ok 46 main_v1 (by decide) V]
  exact ternary_result ..

theorem at_main_v36 (V : Valuation τ sig (Elt F)) :
    after ops V (Proc.devRef .tc main_v36) = (broadcastInDim S800000x1 ![0] bcast_S800000_S800000x1_0 : (⟨S800000, .i32⟩ : BufTy).Contents (Elt F) → (⟨S800000x1, .i32⟩ : BufTy).Contents (Elt F)) (after ops V (Proc.devRef .tc main_v35)) := by
  rw [HostRead.after_at outs_ok 47 _ main_v36 rfl (by decide) V,
    HostRead.after_take outs_ok 47 main_v35 (by decide) V]
  exact unary_result ..

theorem at_main_v37 (V : Valuation τ sig (Elt F)) :
    after ops V (Proc.devRef .tc main_v37) = Host.gather gather_S50000x256_S800000x1_S800000x256_1_0_n_n_0_1_1256 (after ops V (Proc.devRef .tc main_v30)) (after ops V (Proc.devRef .tc main_v36)) := by
  rw [HostRead.after_at outs_ok 48 _ main_v37 rfl (by decide) V,
    HostRead.after_take outs_ok 48 main_v30 (by decide) V,
    HostRead.after_take outs_ok 48 main_v36 (by decide) V]
  exact binary_result ..

theorem at_main_cst_7 (V : Valuation τ sig (Elt F)) :
    after ops V (Proc.devRef .tc main_cst_7) = constant S_ .f32 0x00000000#32 := by
  rw [HostRead.after_at outs_ok 49 _ main_cst_7 rfl (by decide) V]
  exact nullary_result ..

theorem at_main_v38 (V : Valuation τ sig (Elt F)) :
    after ops V (Proc.devRef .tc main_v38) = (broadcastInDim S50000x256 ![] bcast_S_S50000x256 : (⟨S_, .f32⟩ : BufTy).Contents (Elt F) → (⟨S50000x256, .f32⟩ : BufTy).Contents (Elt F)) (after ops V (Proc.devRef .tc main_cst_7)) := by
  rw [HostRead.after_at outs_ok 50 _ main_v38 rfl (by decide) V,
    HostRead.after_take outs_ok 50 main_cst_7 (by decide) V]
  exact unary_result ..

theorem at_main_v39 (V : Valuation τ sig (Elt F)) :
    after ops V (Proc.devRef .tc main_v39) = (broadcastInDim S800000x1 ![0] bcast_S800000_S800000x1_0 : (⟨S800000, .i32⟩ : BufTy).Contents (Elt F) → (⟨S800000x1, .i32⟩ : BufTy).Contents (Elt F)) (after ops V (Proc.devRef .tc main_v3)) := by
  rw [HostRead.after_at outs_ok 51 _ main_v39 rfl (by decide) V,
    HostRead.after_take outs_ok 51 main_v3 (by decide) V]
  exact unary_result ..

theorem at_main_v40 (V : Valuation τ sig (Elt F)) :
    after ops V (Proc.devRef .tc main_v40) = Host.scatterAdd scatter_S50000x256_S800000x1_S800000x256_1_0_0_1 (after ops V (Proc.devRef .tc main_v38)) (after ops V (Proc.devRef .tc main_v39)) (after ops V (Proc.devRef .tc main_v37)) := by
  rw [HostRead.after_at outs_ok 52 _ main_v40 rfl (by decide) V,
    HostRead.after_take outs_ok 52 main_v38 (by decide) V,
    HostRead.after_take outs_ok 52 main_v39 (by decide) V,
    HostRead.after_take outs_ok 52 main_v37 (by decide) V]
  exact ternary_result ..

theorem at_main_v41 (V : Valuation τ sig (Elt F)) :
    after ops V (Proc.devRef .tc main_v41) = (broadcastInDim S50000x256 ![0, 1] bcast_S50000x1_S50000x256_0_1 : (⟨S50000x1, .f32⟩ : BufTy).Contents (Elt F) → (⟨S50000x256, .f32⟩ : BufTy).Contents (Elt F)) (after ops V (Proc.devRef .tc main_v12)) := by
  rw [HostRead.after_at outs_ok 53 _ main_v41 rfl (by decide) V,
    HostRead.after_take outs_ok 53 main_v12 (by decide) V]
  exact unary_result ..

theorem at_main_v42 (V : Valuation τ sig (Elt F)) :
    after ops V (Proc.devRef .tc main_v42) = (mulf : (⟨S50000x256, .f32⟩ : BufTy).Contents (Elt F) → (⟨S50000x256, .f32⟩ : BufTy).Contents (Elt F) → (⟨S50000x256, .f32⟩ : BufTy).Contents (Elt F)) (after ops V (Proc.devRef .tc main_v40)) (after ops V (Proc.devRef .tc main_v41)) := by
  rw [HostRead.after_at outs_ok 54 _ main_v42 rfl (by decide) V,
    HostRead.after_take outs_ok 54 main_v40 (by decide) V,
    HostRead.after_take outs_ok 54 main_v41 (by decide) V]
  exact binary_result ..

theorem at_main_v43 (V : Valuation τ sig (Elt F)) :
    after ops V (Proc.devRef .tc main_v43) = Host.dotGeneral dot_S50000x256_S256x256_S50000x256_1_0_0_1_n_n none (after ops V (Proc.devRef .tc main_v42)) (after ops V (Proc.devRef .tc main_arg6)) := by
  rw [HostRead.after_at outs_ok 55 _ main_v43 rfl (by decide) V,
    HostRead.after_take outs_ok 55 main_v42 (by decide) V,
    HostRead.after_take outs_ok 55 main_arg6 (by decide) V]
  exact binary_result ..

theorem at_main_v44 (V : Valuation τ sig (Elt F)) :
    after ops V (Proc.devRef .tc main_v44) = (broadcastInDim S1x256 ![1] bcast_S256_S1x256_1 : (⟨S256, .f32⟩ : BufTy).Contents (Elt F) → (⟨S1x256, .f32⟩ : BufTy).Contents (Elt F)) (after ops V (Proc.devRef .tc main_arg7)) := by
  rw [HostRead.after_at outs_ok 56 _ main_v44 rfl (by decide) V,
    HostRead.after_take outs_ok 56 main_arg7 (by decide) V]
  exact unary_result ..

theorem at_main_v45 (V : Valuation τ sig (Elt F)) :
    after ops V (Proc.devRef .tc main_v45) = (broadcastInDim S50000x256 ![0, 1] bcast_S1x256_S50000x256_0_1 : (⟨S1x256, .f32⟩ : BufTy).Contents (Elt F) → (⟨S50000x256, .f32⟩ : BufTy).Contents (Elt F)) (after ops V (Proc.devRef .tc main_v44)) := by
  rw [HostRead.after_at outs_ok 57 _ main_v45 rfl (by decide) V,
    HostRead.after_take outs_ok 57 main_v44 (by decide) V]
  exact unary_result ..

theorem at_main_v46 (V : Valuation τ sig (Elt F)) :
    after ops V (Proc.devRef .tc main_v46) = (addf : (⟨S50000x256, .f32⟩ : BufTy).Contents (Elt F) → (⟨S50000x256, .f32⟩ : BufTy).Contents (Elt F) → (⟨S50000x256, .f32⟩ : BufTy).Contents (Elt F)) (after ops V (Proc.devRef .tc main_v43)) (after ops V (Proc.devRef .tc main_v45)) := by
  rw [HostRead.after_at outs_ok 58 _ main_v46 rfl (by decide) V,
    HostRead.after_take outs_ok 58 main_v43 (by decide) V,
    HostRead.after_take outs_ok 58 main_v45 (by decide) V]
  exact binary_result ..

theorem at_main_v47 (V : Valuation τ sig (Elt F)) :
    after ops V (Proc.devRef .tc main_v47) = Host.dotGeneral dot_S50000x256_S256x256_S50000x256_1_0_0_1_n_n none (after ops V (Proc.devRef .tc main_v30)) (after ops V (Proc.devRef .tc main_arg8)) := by
  rw [HostRead.after_at outs_ok 59 _ main_v47 rfl (by decide) V,
    HostRead.after_take outs_ok 59 main_v30 (by decide) V,
    HostRead.after_take outs_ok 59 main_arg8 (by decide) V]
  exact binary_result ..

theorem at_main_v48 (V : Valuation τ sig (Elt F)) :
    after ops V (Proc.devRef .tc main_v48) = (addf : (⟨S50000x256, .f32⟩ : BufTy).Contents (Elt F) → (⟨S50000x256, .f32⟩ : BufTy).Contents (Elt F) → (⟨S50000x256, .f32⟩ : BufTy).Contents (Elt F)) (after ops V (Proc.devRef .tc main_v46)) (after ops V (Proc.devRef .tc main_v47)) := by
  rw [HostRead.after_at outs_ok 60 _ main_v48 rfl (by decide) V,
    HostRead.after_take outs_ok 60 main_v46 (by decide) V,
    HostRead.after_take outs_ok 60 main_v47 (by decide) V]
  exact binary_result ..

theorem at_main_call1_cst (V : Valuation τ sig (Elt F)) :
    after ops V (Proc.devRef .tc main_call1_cst) = (constant S_ .f32 0x00000000#32 : (⟨S_, .f32⟩ : BufTy).Contents (Elt F)) := by
  rw [HostRead.after_at outs_ok 61 _ main_call1_cst rfl (by decide) V]
  exact eq_of_heq (HostRead.tnullary_heq _ _ _)

theorem at_main_call1_v0 (V : Valuation τ sig (Elt F)) :
    after ops V (Proc.devRef .tc main_call1_v0) = (broadcastInDim S50000x256 ![] bcast_S_S50000x256 (after ops V (Proc.devRef .tc main_call1_cst) : (⟨S_, .f32⟩ : BufTy).Contents (Elt F)) : (⟨S50000x256, .f32⟩ : BufTy).Contents (Elt F)) := by
  rw [HostRead.after_at outs_ok 62 _ main_call1_v0 rfl (by decide) V,
    HostRead.after_take outs_ok 62 main_call1_cst (by decide) V]
  exact eq_of_heq (HostRead.tunary_heq _ _ _ _ _ HEq.rfl)

theorem at_main_v49 (V : Valuation τ sig (Elt F)) :
    after ops V (Proc.devRef .tc main_v49) = (maximumf (after ops V (Proc.devRef .tc main_v48) : (⟨S50000x256, .f32⟩ : BufTy).Contents (Elt F)) (after ops V (Proc.devRef .tc main_call1_v0) : (⟨S50000x256, .f32⟩ : BufTy).Contents (Elt F)) : (⟨S50000x256, .f32⟩ : BufTy).Contents (Elt F)) := by
  rw [HostRead.after_at outs_ok 63 _ main_v49 rfl (by decide) V,
    HostRead.after_take outs_ok 63 main_v48 (by decide) V,
    HostRead.after_take outs_ok 63 main_call1_v0 (by decide) V]
  exact eq_of_heq (HostRead.tbinary_heq _ _ _ _ _ _ _ HEq.rfl HEq.rfl)

theorem at_main_c_8 (V : Valuation τ sig (Elt F)) :
    after ops V (Proc.devRef .tc main_c_8) = constantI S_ 32 0#32 := by
  rw [HostRead.after_at outs_ok 64 _ main_c_8 rfl (by decide) V]
  exact nullary_result ..

theorem at_main_v50 (V : Valuation τ sig (Elt F)) :
    after ops V (Proc.devRef .tc main_v50) = (broadcastInDim S800000 ![] bcast_S_S800000 : (⟨S_, .i32⟩ : BufTy).Contents (Elt F) → (⟨S800000, .i32⟩ : BufTy).Contents (Elt F)) (after ops V (Proc.devRef .tc main_c_8)) := by
  rw [HostRead.after_at outs_ok 65 _ main_v50 rfl (by decide) V,
    HostRead.after_take outs_ok 65 main_c_8 (by decide) V]
  exact unary_result ..

theorem at_main_v51 (V : Valuation τ sig (Elt F)) :
    after ops V (Proc.devRef .tc main_v51) = (cmpi .slt : (⟨S800000, .i32⟩ : BufTy).Contents (Elt F) → (⟨S800000, .i32⟩ : BufTy).Contents (Elt F) → (⟨S800000, .i1⟩ : BufTy).Contents (Elt F)) (after ops V (Proc.devRef .tc main_v1)) (after ops V (Proc.devRef .tc main_v50)) := by
  rw [HostRead.after_at outs_ok 66 _ main_v51 rfl (by decide) V,
    HostRead.after_take outs_ok 66 main_v1 (by decide) V,
    HostRead.after_take outs_ok 66 main_v50 (by decide) V]
  exact binary_result ..

theorem at_main_c_9 (V : Valuation τ sig (Elt F)) :
    after ops V (Proc.devRef .tc main_c_9) = constantI S_ 32 50000#32 := by
  rw [HostRead.after_at outs_ok 67 _ main_c_9 rfl (by decide) V]
  exact nullary_result ..

theorem at_main_v52 (V : Valuation τ sig (Elt F)) :
    after ops V (Proc.devRef .tc main_v52) = (broadcastInDim S800000 ![] bcast_S_S800000 : (⟨S_, .i32⟩ : BufTy).Contents (Elt F) → (⟨S800000, .i32⟩ : BufTy).Contents (Elt F)) (after ops V (Proc.devRef .tc main_c_9)) := by
  rw [HostRead.after_at outs_ok 68 _ main_v52 rfl (by decide) V,
    HostRead.after_take outs_ok 68 main_c_9 (by decide) V]
  exact unary_result ..

theorem at_main_v53 (V : Valuation τ sig (Elt F)) :
    after ops V (Proc.devRef .tc main_v53) = (addi : (⟨S800000, .i32⟩ : BufTy).Contents (Elt F) → (⟨S800000, .i32⟩ : BufTy).Contents (Elt F) → (⟨S800000, .i32⟩ : BufTy).Contents (Elt F)) (after ops V (Proc.devRef .tc main_v1)) (after ops V (Proc.devRef .tc main_v52)) := by
  rw [HostRead.after_at outs_ok 69 _ main_v53 rfl (by decide) V,
    HostRead.after_take outs_ok 69 main_v1 (by decide) V,
    HostRead.after_take outs_ok 69 main_v52 (by decide) V]
  exact binary_result ..

theorem at_main_v54 (V : Valuation τ sig (Elt F)) :
    after ops V (Proc.devRef .tc main_v54) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (after ops V (Proc.devRef .tc main_v51)) (after ops V (Proc.devRef .tc main_v53)) (after ops V (Proc.devRef .tc main_v1)) := by
  rw [HostRead.after_at outs_ok 70 _ main_v54 rfl (by decide) V,
    HostRead.after_take outs_ok 70 main_v51 (by decide) V,
    HostRead.after_take outs_ok 70 main_v53 (by decide) V,
    HostRead.after_take outs_ok 70 main_v1 (by decide) V]
  exact ternary_result ..

theorem at_main_v55 (V : Valuation τ sig (Elt F)) :
    after ops V (Proc.devRef .tc main_v55) = (broadcastInDim S800000x1 ![0] bcast_S800000_S800000x1_0 : (⟨S800000, .i32⟩ : BufTy).Contents (Elt F) → (⟨S800000x1, .i32⟩ : BufTy).Contents (Elt F)) (after ops V (Proc.devRef .tc main_v54)) := by
  rw [HostRead.after_at outs_ok 71 _ main_v55 rfl (by decide) V,
    HostRead.after_take outs_ok 71 main_v54 (by decide) V]
  exact unary_result ..

theorem at_main_v56 (V : Valuation τ sig (Elt F)) :
    after ops V (Proc.devRef .tc main_v56) = Host.gather gather_S50000x256_S800000x1_S800000x256_1_0_n_n_0_1_1256 (after ops V (Proc.devRef .tc main_v49)) (after ops V (Proc.devRef .tc main_v55)) := by
  rw [HostRead.after_at outs_ok 72 _ main_v56 rfl (by decide) V,
    HostRead.after_take outs_ok 72 main_v49 (by decide) V,
    HostRead.after_take outs_ok 72 main_v55 (by decide) V]
  exact binary_result ..

theorem at_main_cst_10 (V : Valuation τ sig (Elt F)) :
    after ops V (Proc.devRef .tc main_cst_10) = constant S_ .f32 0x00000000#32 := by
  rw [HostRead.after_at outs_ok 73 _ main_cst_10 rfl (by decide) V]
  exact nullary_result ..

theorem at_main_v57 (V : Valuation τ sig (Elt F)) :
    after ops V (Proc.devRef .tc main_v57) = (broadcastInDim S50000x256 ![] bcast_S_S50000x256 : (⟨S_, .f32⟩ : BufTy).Contents (Elt F) → (⟨S50000x256, .f32⟩ : BufTy).Contents (Elt F)) (after ops V (Proc.devRef .tc main_cst_10)) := by
  rw [HostRead.after_at outs_ok 74 _ main_v57 rfl (by decide) V,
    HostRead.after_take outs_ok 74 main_cst_10 (by decide) V]
  exact unary_result ..

theorem at_main_v58 (V : Valuation τ sig (Elt F)) :
    after ops V (Proc.devRef .tc main_v58) = (broadcastInDim S800000x1 ![0] bcast_S800000_S800000x1_0 : (⟨S800000, .i32⟩ : BufTy).Contents (Elt F) → (⟨S800000x1, .i32⟩ : BufTy).Contents (Elt F)) (after ops V (Proc.devRef .tc main_v3)) := by
  rw [HostRead.after_at outs_ok 75 _ main_v58 rfl (by decide) V,
    HostRead.after_take outs_ok 75 main_v3 (by decide) V]
  exact unary_result ..

theorem at_main_v59 (V : Valuation τ sig (Elt F)) :
    after ops V (Proc.devRef .tc main_v59) = Host.scatterAdd scatter_S50000x256_S800000x1_S800000x256_1_0_0_1 (after ops V (Proc.devRef .tc main_v57)) (after ops V (Proc.devRef .tc main_v58)) (after ops V (Proc.devRef .tc main_v56)) := by
  rw [HostRead.after_at outs_ok 76 _ main_v59 rfl (by decide) V,
    HostRead.after_take outs_ok 76 main_v57 (by decide) V,
    HostRead.after_take outs_ok 76 main_v58 (by decide) V,
    HostRead.after_take outs_ok 76 main_v56 (by decide) V]
  exact ternary_result ..

theorem at_main_v60 (V : Valuation τ sig (Elt F)) :
    after ops V (Proc.devRef .tc main_v60) = (broadcastInDim S50000x256 ![0, 1] bcast_S50000x1_S50000x256_0_1 : (⟨S50000x1, .f32⟩ : BufTy).Contents (Elt F) → (⟨S50000x256, .f32⟩ : BufTy).Contents (Elt F)) (after ops V (Proc.devRef .tc main_v12)) := by
  rw [HostRead.after_at outs_ok 77 _ main_v60 rfl (by decide) V,
    HostRead.after_take outs_ok 77 main_v12 (by decide) V]
  exact unary_result ..

theorem at_main_v61 (V : Valuation τ sig (Elt F)) :
    after ops V (Proc.devRef .tc main_v61) = (mulf : (⟨S50000x256, .f32⟩ : BufTy).Contents (Elt F) → (⟨S50000x256, .f32⟩ : BufTy).Contents (Elt F) → (⟨S50000x256, .f32⟩ : BufTy).Contents (Elt F)) (after ops V (Proc.devRef .tc main_v59)) (after ops V (Proc.devRef .tc main_v60)) := by
  rw [HostRead.after_at outs_ok 78 _ main_v61 rfl (by decide) V,
    HostRead.after_take outs_ok 78 main_v59 (by decide) V,
    HostRead.after_take outs_ok 78 main_v60 (by decide) V]
  exact binary_result ..

theorem at_main_v62 (V : Valuation τ sig (Elt F)) :
    after ops V (Proc.devRef .tc main_v62) = Host.dotGeneral dot_S50000x256_S256x128_S50000x128_1_0_0_1_n_n none (after ops V (Proc.devRef .tc main_v61)) (after ops V (Proc.devRef .tc main_arg9)) := by
  rw [HostRead.after_at outs_ok 79 _ main_v62 rfl (by decide) V,
    HostRead.after_take outs_ok 79 main_v61 (by decide) V,
    HostRead.after_take outs_ok 79 main_arg9 (by decide) V]
  exact binary_result ..

theorem at_main_v63 (V : Valuation τ sig (Elt F)) :
    after ops V (Proc.devRef .tc main_v63) = (broadcastInDim S1x128 ![1] bcast_S128_S1x128_1 : (⟨S128, .f32⟩ : BufTy).Contents (Elt F) → (⟨S1x128, .f32⟩ : BufTy).Contents (Elt F)) (after ops V (Proc.devRef .tc main_arg10)) := by
  rw [HostRead.after_at outs_ok 80 _ main_v63 rfl (by decide) V,
    HostRead.after_take outs_ok 80 main_arg10 (by decide) V]
  exact unary_result ..

theorem at_main_v64 (V : Valuation τ sig (Elt F)) :
    after ops V (Proc.devRef .tc main_v64) = (broadcastInDim S50000x128 ![0, 1] bcast_S1x128_S50000x128_0_1 : (⟨S1x128, .f32⟩ : BufTy).Contents (Elt F) → (⟨S50000x128, .f32⟩ : BufTy).Contents (Elt F)) (after ops V (Proc.devRef .tc main_v63)) := by
  rw [HostRead.after_at outs_ok 81 _ main_v64 rfl (by decide) V,
    HostRead.after_take outs_ok 81 main_v63 (by decide) V]
  exact unary_result ..

theorem at_main_v65 (V : Valuation τ sig (Elt F)) :
    after ops V (Proc.devRef .tc main_v65) = (addf : (⟨S50000x128, .f32⟩ : BufTy).Contents (Elt F) → (⟨S50000x128, .f32⟩ : BufTy).Contents (Elt F) → (⟨S50000x128, .f32⟩ : BufTy).Contents (Elt F)) (after ops V (Proc.devRef .tc main_v62)) (after ops V (Proc.devRef .tc main_v64)) := by
  rw [HostRead.after_at outs_ok 82 _ main_v65 rfl (by decide) V,
    HostRead.after_take outs_ok 82 main_v62 (by decide) V,
    HostRead.after_take outs_ok 82 main_v64 (by decide) V]
  exact binary_result ..

theorem at_main_v66 (V : Valuation τ sig (Elt F)) :
    after ops V (Proc.devRef .tc main_v66) = Host.dotGeneral dot_S50000x256_S256x128_S50000x128_1_0_0_1_n_n none (after ops V (Proc.devRef .tc main_v49)) (after ops V (Proc.devRef .tc main_arg11)) := by
  rw [HostRead.after_at outs_ok 83 _ main_v66 rfl (by decide) V,
    HostRead.after_take outs_ok 83 main_v49 (by decide) V,
    HostRead.after_take outs_ok 83 main_arg11 (by decide) V]
  exact binary_result ..

theorem at_main_v67 (V : Valuation τ sig (Elt F)) :
    after ops V (Proc.devRef .tc main_v67) = (addf : (⟨S50000x128, .f32⟩ : BufTy).Contents (Elt F) → (⟨S50000x128, .f32⟩ : BufTy).Contents (Elt F) → (⟨S50000x128, .f32⟩ : BufTy).Contents (Elt F)) (after ops V (Proc.devRef .tc main_v65)) (after ops V (Proc.devRef .tc main_v66)) := by
  rw [HostRead.after_at outs_ok 84 _ main_v67 rfl (by decide) V,
    HostRead.after_take outs_ok 84 main_v65 (by decide) V,
    HostRead.after_take outs_ok 84 main_v66 (by decide) V]
  exact binary_result ..

theorem at_main_cst_11 (V : Valuation τ sig (Elt F)) :
    after ops V (Proc.devRef .tc main_cst_11) = constant S_ .f32 0x00000000#32 := by
  rw [HostRead.after_at outs_ok 85 _ main_cst_11 rfl (by decide) V]
  exact nullary_result ..

theorem at_main_v68 (V : Valuation τ sig (Elt F)) :
    after ops V (Proc.devRef .tc main_v68) = (broadcastInDim S64x128 ![] bcast_S_S64x128 : (⟨S_, .f32⟩ : BufTy).Contents (Elt F) → (⟨S64x128, .f32⟩ : BufTy).Contents (Elt F)) (after ops V (Proc.devRef .tc main_cst_11)) := by
  rw [HostRead.after_at outs_ok 86 _ main_v68 rfl (by decide) V,
    HostRead.after_take outs_ok 86 main_cst_11 (by decide) V]
  exact unary_result ..

theorem at_main_v69 (V : Valuation τ sig (Elt F)) :
    after ops V (Proc.devRef .tc main_v69) = (broadcastInDim S50000x1 ![0] bcast_S50000_S50000x1_0 : (⟨S50000, .i32⟩ : BufTy).Contents (Elt F) → (⟨S50000x1, .i32⟩ : BufTy).Contents (Elt F)) (after ops V (Proc.devRef .tc main_arg2)) := by
  rw [HostRead.after_at outs_ok 87 _ main_v69 rfl (by decide) V,
    HostRead.after_take outs_ok 87 main_arg2 (by decide) V]
  exact unary_result ..

theorem at_main_v70 (V : Valuation τ sig (Elt F)) :
    after ops V (Proc.devRef .tc main_v70) = Host.scatterAdd scatter_S64x128_S50000x1_S50000x128_1_0_0_1 (after ops V (Proc.devRef .tc main_v68)) (after ops V (Proc.devRef .tc main_v69)) (after ops V (Proc.devRef .tc main_v67)) := by
  rw [HostRead.after_at outs_ok 88 _ main_v70 rfl (by decide) V,
    HostRead.after_take outs_ok 88 main_v68 (by decide) V,
    HostRead.after_take outs_ok 88 main_v69 (by decide) V,
    HostRead.after_take outs_ok 88 main_v67 (by decide) V]
  exact ternary_result ..

theorem at_main_cst_12 (V : Valuation τ sig (Elt F)) :
    after ops V (Proc.devRef .tc main_cst_12) = constant S_ .f32 0x3F800000#32 := by
  rw [HostRead.after_at outs_ok 89 _ main_cst_12 rfl (by decide) V]
  exact nullary_result ..

theorem at_main_v71 (V : Valuation τ sig (Elt F)) :
    after ops V (Proc.devRef .tc main_v71) = (broadcastInDim S50000 ![] bcast_S_S50000 : (⟨S_, .f32⟩ : BufTy).Contents (Elt F) → (⟨S50000, .f32⟩ : BufTy).Contents (Elt F)) (after ops V (Proc.devRef .tc main_cst_12)) := by
  rw [HostRead.after_at outs_ok 90 _ main_v71 rfl (by decide) V,
    HostRead.after_take outs_ok 90 main_cst_12 (by decide) V]
  exact unary_result ..

theorem at_main_cst_13 (V : Valuation τ sig (Elt F)) :
    after ops V (Proc.devRef .tc main_cst_13) = constant S_ .f32 0x00000000#32 := by
  rw [HostRead.after_at outs_ok 91 _ main_cst_13 rfl (by decide) V]
  exact nullary_result ..

theorem at_main_v72 (V : Valuation τ sig (Elt F)) :
    after ops V (Proc.devRef .tc main_v72) = (broadcastInDim S64 ![] bcast_S_S64 : (⟨S_, .f32⟩ : BufTy).Contents (Elt F) → (⟨S64, .f32⟩ : BufTy).Contents (Elt F)) (after ops V (Proc.devRef .tc main_cst_13)) := by
  rw [HostRead.after_at outs_ok 92 _ main_v72 rfl (by decide) V,
    HostRead.after_take outs_ok 92 main_cst_13 (by decide) V]
  exact unary_result ..

theorem at_main_v73 (V : Valuation τ sig (Elt F)) :
    after ops V (Proc.devRef .tc main_v73) = (broadcastInDim S50000x1 ![0] bcast_S50000_S50000x1_0 : (⟨S50000, .i32⟩ : BufTy).Contents (Elt F) → (⟨S50000x1, .i32⟩ : BufTy).Contents (Elt F)) (after ops V (Proc.devRef .tc main_arg2)) := by
  rw [HostRead.after_at outs_ok 93 _ main_v73 rfl (by decide) V,
    HostRead.after_take outs_ok 93 main_arg2 (by decide) V]
  exact unary_result ..

theorem at_main_v74 (V : Valuation τ sig (Elt F)) :
    after ops V (Proc.devRef .tc main_v74) = Host.scatterAdd scatter_S64_S50000x1_S50000_n_0_0_1 (after ops V (Proc.devRef .tc main_v72)) (after ops V (Proc.devRef .tc main_v73)) (after ops V (Proc.devRef .tc main_v71)) := by
  rw [HostRead.after_at outs_ok 94 _ main_v74 rfl (by decide) V,
    HostRead.after_take outs_ok 94 main_v72 (by decide) V,
    HostRead.after_take outs_ok 94 main_v73 (by decide) V,
    HostRead.after_take outs_ok 94 main_v71 (by decide) V]
  exact ternary_result ..

theorem at_main_cst_14 (V : Valuation τ sig (Elt F)) :
    after ops V (Proc.devRef .tc main_cst_14) = constant S_ .f32 0x3F800000#32 := by
  rw [HostRead.after_at outs_ok 95 _ main_cst_14 rfl (by decide) V]
  exact nullary_result ..

theorem at_main_v75 (V : Valuation τ sig (Elt F)) :
    after ops V (Proc.devRef .tc main_v75) = (broadcastInDim S64 ![] bcast_S_S64 : (⟨S_, .f32⟩ : BufTy).Contents (Elt F) → (⟨S64, .f32⟩ : BufTy).Contents (Elt F)) (after ops V (Proc.devRef .tc main_cst_14)) := by
  rw [HostRead.after_at outs_ok 96 _ main_v75 rfl (by decide) V,
    HostRead.after_take outs_ok 96 main_cst_14 (by decide) V]
  exact unary_result ..

theorem at_main_v76 (V : Valuation τ sig (Elt F)) :
    after ops V (Proc.devRef .tc main_v76) = (maximumf : (⟨S64, .f32⟩ : BufTy).Contents (Elt F) → (⟨S64, .f32⟩ : BufTy).Contents (Elt F) → (⟨S64, .f32⟩ : BufTy).Contents (Elt F)) (after ops V (Proc.devRef .tc main_v74)) (after ops V (Proc.devRef .tc main_v75)) := by
  rw [HostRead.after_at outs_ok 97 _ main_v76 rfl (by decide) V,
    HostRead.after_take outs_ok 97 main_v74 (by decide) V,
    HostRead.after_take outs_ok 97 main_v75 (by decide) V]
  exact binary_result ..

theorem at_main_v77 (V : Valuation τ sig (Elt F)) :
    after ops V (Proc.devRef .tc main_v77) = (broadcastInDim S64x1 ![0] bcast_S64_S64x1_0 : (⟨S64, .f32⟩ : BufTy).Contents (Elt F) → (⟨S64x1, .f32⟩ : BufTy).Contents (Elt F)) (after ops V (Proc.devRef .tc main_v76)) := by
  rw [HostRead.after_at outs_ok 98 _ main_v77 rfl (by decide) V,
    HostRead.after_take outs_ok 98 main_v76 (by decide) V]
  exact unary_result ..

theorem at_main_v78 (V : Valuation τ sig (Elt F)) :
    after ops V (Proc.devRef .tc main_v78) = (broadcastInDim S64x128 ![0, 1] bcast_S64x1_S64x128_0_1 : (⟨S64x1, .f32⟩ : BufTy).Contents (Elt F) → (⟨S64x128, .f32⟩ : BufTy).Contents (Elt F)) (after ops V (Proc.devRef .tc main_v77)) := by
  rw [HostRead.after_at outs_ok 99 _ main_v78 rfl (by decide) V,
    HostRead.after_take outs_ok 99 main_v77 (by decide) V]
  exact unary_result ..

theorem at_main_v79 (V : Valuation τ sig (Elt F)) :
    after ops V (Proc.devRef .tc main_v79) = (Host.divf : (⟨S64x128, .f32⟩ : BufTy).Contents (Elt F) → (⟨S64x128, .f32⟩ : BufTy).Contents (Elt F) → (⟨S64x128, .f32⟩ : BufTy).Contents (Elt F)) (after ops V (Proc.devRef .tc main_v70)) (after ops V (Proc.devRef .tc main_v78)) := by
  rw [HostRead.after_at outs_ok 100 _ main_v79 rfl (by decide) V,
    HostRead.after_take outs_ok 100 main_v70 (by decide) V,
    HostRead.after_take outs_ok 100 main_v78 (by decide) V]
  exact binary_result ..

theorem at_main_cst_15 (V : Valuation τ sig (Elt F)) :
    after ops V (Proc.devRef .tc main_cst_15) = constant S_ .f32 0x00000000#32 := by
  rw [HostRead.after_at outs_ok 101 _ main_cst_15 rfl (by decide) V]
  exact nullary_result ..

theorem at_main_v80 (V : Valuation τ sig (Elt F)) :
    after ops V (Proc.devRef .tc main_v80) = Host.reduceAdd (after ops V (Proc.devRef .tc main_v79)) (after ops V (Proc.devRef .tc main_cst_15)) reducesTo_S64x128_S64_d1 h_S_ := by
  rw [HostRead.after_at outs_ok 102 _ main_v80 rfl (by decide) V,
    HostRead.after_take outs_ok 102 main_v79 (by decide) V,
    HostRead.after_take outs_ok 102 main_cst_15 (by decide) V]
  exact binary_result ..

theorem at_main_v81 (V : Valuation τ sig (Elt F)) :
    after ops V (Proc.devRef .tc main_v81) = (broadcastInDim S64x1 ![0] bcast_S64_S64x1_0 : (⟨S64, .f32⟩ : BufTy).Contents (Elt F) → (⟨S64x1, .f32⟩ : BufTy).Contents (Elt F)) (after ops V (Proc.devRef .tc main_v80)) := by
  rw [HostRead.after_at outs_ok 103 _ main_v81 rfl (by decide) V,
    HostRead.after_take outs_ok 103 main_v80 (by decide) V]
  exact unary_result ..

theorem at_main_cst_16 (V : Valuation τ sig (Elt F)) :
    after ops V (Proc.devRef .tc main_cst_16) = constant S_ .f32 0x43000000#32 := by
  rw [HostRead.after_at outs_ok 104 _ main_cst_16 rfl (by decide) V]
  exact nullary_result ..

theorem at_main_v82 (V : Valuation τ sig (Elt F)) :
    after ops V (Proc.devRef .tc main_v82) = (broadcastInDim S64x1 ![] bcast_S_S64x1 : (⟨S_, .f32⟩ : BufTy).Contents (Elt F) → (⟨S64x1, .f32⟩ : BufTy).Contents (Elt F)) (after ops V (Proc.devRef .tc main_cst_16)) := by
  rw [HostRead.after_at outs_ok 105 _ main_v82 rfl (by decide) V,
    HostRead.after_take outs_ok 105 main_cst_16 (by decide) V]
  exact unary_result ..

theorem at_main_v83 (V : Valuation τ sig (Elt F)) :
    after ops V (Proc.devRef .tc main_v83) = (Host.divf : (⟨S64x1, .f32⟩ : BufTy).Contents (Elt F) → (⟨S64x1, .f32⟩ : BufTy).Contents (Elt F) → (⟨S64x1, .f32⟩ : BufTy).Contents (Elt F)) (after ops V (Proc.devRef .tc main_v81)) (after ops V (Proc.devRef .tc main_v82)) := by
  rw [HostRead.after_at outs_ok 106 _ main_v83 rfl (by decide) V,
    HostRead.after_take outs_ok 106 main_v81 (by decide) V,
    HostRead.after_take outs_ok 106 main_v82 (by decide) V]
  exact binary_result ..

theorem at_main_c_17 (V : Valuation τ sig (Elt F)) :
    after ops V (Proc.devRef .tc main_c_17) = constantI S_ 32 0#32 := by
  rw [HostRead.after_at outs_ok 107 _ main_c_17 rfl (by decide) V]
  exact nullary_result ..

theorem at_main_call2_cst (V : Valuation τ sig (Elt F)) :
    after ops V (Proc.devRef .tc main_call2_cst) = (constant S_ .f32 0x00000000#32 : (⟨S_, .f32⟩ : BufTy).Contents (Elt F)) := by
  rw [HostRead.after_at outs_ok 108 _ main_call2_cst rfl (by decide) V]
  exact eq_of_heq (HostRead.tnullary_heq _ _ _)

theorem at_main_call2_v0 (V : Valuation τ sig (Elt F)) :
    after ops V (Proc.devRef .tc main_call2_v0) = (Host.reduceAdd (after ops V (Proc.devRef .tc main_v79) : (⟨S64x128, .f32⟩ : BufTy).Contents (Elt F)) (after ops V (Proc.devRef .tc main_call2_cst) : (⟨S_, .f32⟩ : BufTy).Contents (Elt F)) reducesTo_S64x128_S64_d1 h_S_ : (⟨S64, .f32⟩ : BufTy).Contents (Elt F)) := by
  rw [HostRead.after_at outs_ok 109 _ main_call2_v0 rfl (by decide) V,
    HostRead.after_take outs_ok 109 main_v79 (by decide) V,
    HostRead.after_take outs_ok 109 main_call2_cst (by decide) V]
  exact eq_of_heq (HostRead.tbinary_heq _ _ _ _ _ _ _ HEq.rfl HEq.rfl)

theorem at_main_call2_v1 (V : Valuation τ sig (Elt F)) :
    after ops V (Proc.devRef .tc main_call2_v1) = (broadcastInDim S64x1 ![0] bcast_S64_S64x1_0 (after ops V (Proc.devRef .tc main_call2_v0) : (⟨S64, .f32⟩ : BufTy).Contents (Elt F)) : (⟨S64x1, .f32⟩ : BufTy).Contents (Elt F)) := by
  rw [HostRead.after_at outs_ok 110 _ main_call2_v1 rfl (by decide) V,
    HostRead.after_take outs_ok 110 main_call2_v0 (by decide) V]
  exact eq_of_heq (HostRead.tunary_heq _ _ _ _ _ HEq.rfl)

theorem at_main_call2_cst_0 (V : Valuation τ sig (Elt F)) :
    after ops V (Proc.devRef .tc main_call2_cst_0) = (constant S_ .f32 0x43000000#32 : (⟨S_, .f32⟩ : BufTy).Contents (Elt F)) := by
  rw [HostRead.after_at outs_ok 111 _ main_call2_cst_0 rfl (by decide) V]
  exact eq_of_heq (HostRead.tnullary_heq _ _ _)

theorem at_main_call2_v2 (V : Valuation τ sig (Elt F)) :
    after ops V (Proc.devRef .tc main_call2_v2) = (broadcastInDim S64x1 ![] bcast_S_S64x1 (after ops V (Proc.devRef .tc main_call2_cst_0) : (⟨S_, .f32⟩ : BufTy).Contents (Elt F)) : (⟨S64x1, .f32⟩ : BufTy).Contents (Elt F)) := by
  rw [HostRead.after_at outs_ok 112 _ main_call2_v2 rfl (by decide) V,
    HostRead.after_take outs_ok 112 main_call2_cst_0 (by decide) V]
  exact eq_of_heq (HostRead.tunary_heq _ _ _ _ _ HEq.rfl)

theorem at_main_call2_v3 (V : Valuation τ sig (Elt F)) :
    after ops V (Proc.devRef .tc main_call2_v3) = (Host.divf (after ops V (Proc.devRef .tc main_call2_v1) : (⟨S64x1, .f32⟩ : BufTy).Contents (Elt F)) (after ops V (Proc.devRef .tc main_call2_v2) : (⟨S64x1, .f32⟩ : BufTy).Contents (Elt F)) : (⟨S64x1, .f32⟩ : BufTy).Contents (Elt F)) := by
  rw [HostRead.after_at outs_ok 113 _ main_call2_v3 rfl (by decide) V,
    HostRead.after_take outs_ok 113 main_call2_v1 (by decide) V,
    HostRead.after_take outs_ok 113 main_call2_v2 (by decide) V]
  exact eq_of_heq (HostRead.tbinary_heq _ _ _ _ _ _ _ HEq.rfl HEq.rfl)

theorem at_main_call2_v4 (V : Valuation τ sig (Elt F)) :
    after ops V (Proc.devRef .tc main_call2_v4) = (broadcastInDim S64x128 ![0, 1] bcast_S64x1_S64x128_0_1 (after ops V (Proc.devRef .tc main_call2_v3) : (⟨S64x1, .f32⟩ : BufTy).Contents (Elt F)) : (⟨S64x128, .f32⟩ : BufTy).Contents (Elt F)) := by
  rw [HostRead.after_at outs_ok 114 _ main_call2_v4 rfl (by decide) V,
    HostRead.after_take outs_ok 114 main_call2_v3 (by decide) V]
  exact eq_of_heq (HostRead.tunary_heq _ _ _ _ _ HEq.rfl)

theorem at_main_call2_v5 (V : Valuation τ sig (Elt F)) :
    after ops V (Proc.devRef .tc main_call2_v5) = (subf (after ops V (Proc.devRef .tc main_v79) : (⟨S64x128, .f32⟩ : BufTy).Contents (Elt F)) (after ops V (Proc.devRef .tc main_call2_v4) : (⟨S64x128, .f32⟩ : BufTy).Contents (Elt F)) : (⟨S64x128, .f32⟩ : BufTy).Contents (Elt F)) := by
  rw [HostRead.after_at outs_ok 115 _ main_call2_v5 rfl (by decide) V,
    HostRead.after_take outs_ok 115 main_v79 (by decide) V,
    HostRead.after_take outs_ok 115 main_call2_v4 (by decide) V]
  exact eq_of_heq (HostRead.tbinary_heq _ _ _ _ _ _ _ HEq.rfl HEq.rfl)

theorem at_main_call2_v6 (V : Valuation τ sig (Elt F)) :
    after ops V (Proc.devRef .tc main_call2_v6) = (mulf (after ops V (Proc.devRef .tc main_call2_v5) : (⟨S64x128, .f32⟩ : BufTy).Contents (Elt F)) (after ops V (Proc.devRef .tc main_call2_v5) : (⟨S64x128, .f32⟩ : BufTy).Contents (Elt F)) : (⟨S64x128, .f32⟩ : BufTy).Contents (Elt F)) := by
  rw [HostRead.after_at outs_ok 116 _ main_call2_v6 rfl (by decide) V,
    HostRead.after_take outs_ok 116 main_call2_v5 (by decide) V]
  exact eq_of_heq (HostRead.tbinary_heq _ _ _ _ _ _ _ HEq.rfl HEq.rfl)

theorem at_main_call2_v7 (V : Valuation τ sig (Elt F)) :
    after ops V (Proc.devRef .tc main_call2_v7) = (sitofp .f32 (after ops V (Proc.devRef .tc main_c_17) : (⟨S_, .i32⟩ : BufTy).Contents (Elt F)) : (⟨S_, .f32⟩ : BufTy).Contents (Elt F)) := by
  rw [HostRead.after_at outs_ok 117 _ main_call2_v7 rfl (by decide) V,
    HostRead.after_take outs_ok 117 main_c_17 (by decide) V]
  exact eq_of_heq (HostRead.tunary_heq _ _ _ _ _ HEq.rfl)

theorem at_main_call2_cst_1 (V : Valuation τ sig (Elt F)) :
    after ops V (Proc.devRef .tc main_call2_cst_1) = (constant S_ .f32 0x43000000#32 : (⟨S_, .f32⟩ : BufTy).Contents (Elt F)) := by
  rw [HostRead.after_at outs_ok 118 _ main_call2_cst_1 rfl (by decide) V]
  exact eq_of_heq (HostRead.tnullary_heq _ _ _)

theorem at_main_call2_v8 (V : Valuation τ sig (Elt F)) :
    after ops V (Proc.devRef .tc main_call2_v8) = (subf (after ops V (Proc.devRef .tc main_call2_cst_1) : (⟨S_, .f32⟩ : BufTy).Contents (Elt F)) (after ops V (Proc.devRef .tc main_call2_v7) : (⟨S_, .f32⟩ : BufTy).Contents (Elt F)) : (⟨S_, .f32⟩ : BufTy).Contents (Elt F)) := by
  rw [HostRead.after_at outs_ok 119 _ main_call2_v8 rfl (by decide) V,
    HostRead.after_take outs_ok 119 main_call2_cst_1 (by decide) V,
    HostRead.after_take outs_ok 119 main_call2_v7 (by decide) V]
  exact eq_of_heq (HostRead.tbinary_heq _ _ _ _ _ _ _ HEq.rfl HEq.rfl)

theorem at_main_call2_cst_2 (V : Valuation τ sig (Elt F)) :
    after ops V (Proc.devRef .tc main_call2_cst_2) = (constant S_ .f32 0x00000000#32 : (⟨S_, .f32⟩ : BufTy).Contents (Elt F)) := by
  rw [HostRead.after_at outs_ok 120 _ main_call2_cst_2 rfl (by decide) V]
  exact eq_of_heq (HostRead.tnullary_heq _ _ _)

theorem at_main_call2_v9 (V : Valuation τ sig (Elt F)) :
    after ops V (Proc.devRef .tc main_call2_v9) = (Host.reduceAdd (after ops V (Proc.devRef .tc main_call2_v6) : (⟨S64x128, .f32⟩ : BufTy).Contents (Elt F)) (after ops V (Proc.devRef .tc main_call2_cst_2) : (⟨S_, .f32⟩ : BufTy).Contents (Elt F)) reducesTo_S64x128_S64_d1 h_S_ : (⟨S64, .f32⟩ : BufTy).Contents (Elt F)) := by
  rw [HostRead.after_at outs_ok 121 _ main_call2_v9 rfl (by decide) V,
    HostRead.after_take outs_ok 121 main_call2_v6 (by decide) V,
    HostRead.after_take outs_ok 121 main_call2_cst_2 (by decide) V]
  exact eq_of_heq (HostRead.tbinary_heq _ _ _ _ _ _ _ HEq.rfl HEq.rfl)

theorem at_main_call2_v10 (V : Valuation τ sig (Elt F)) :
    after ops V (Proc.devRef .tc main_call2_v10) = (broadcastInDim S64x1 ![0] bcast_S64_S64x1_0 (after ops V (Proc.devRef .tc main_call2_v9) : (⟨S64, .f32⟩ : BufTy).Contents (Elt F)) : (⟨S64x1, .f32⟩ : BufTy).Contents (Elt F)) := by
  rw [HostRead.after_at outs_ok 122 _ main_call2_v10 rfl (by decide) V,
    HostRead.after_take outs_ok 122 main_call2_v9 (by decide) V]
  exact eq_of_heq (HostRead.tunary_heq _ _ _ _ _ HEq.rfl)

theorem at_main_call2_v11 (V : Valuation τ sig (Elt F)) :
    after ops V (Proc.devRef .tc main_call2_v11) = (broadcastInDim S64x1 ![] bcast_S_S64x1 (after ops V (Proc.devRef .tc main_call2_v8) : (⟨S_, .f32⟩ : BufTy).Contents (Elt F)) : (⟨S64x1, .f32⟩ : BufTy).Contents (Elt F)) := by
  rw [HostRead.after_at outs_ok 123 _ main_call2_v11 rfl (by decide) V,
    HostRead.after_take outs_ok 123 main_call2_v8 (by decide) V]
  exact eq_of_heq (HostRead.tunary_heq _ _ _ _ _ HEq.rfl)

theorem at_main_call2_v12 (V : Valuation τ sig (Elt F)) :
    after ops V (Proc.devRef .tc main_call2_v12) = (Host.divf (after ops V (Proc.devRef .tc main_call2_v10) : (⟨S64x1, .f32⟩ : BufTy).Contents (Elt F)) (after ops V (Proc.devRef .tc main_call2_v11) : (⟨S64x1, .f32⟩ : BufTy).Contents (Elt F)) : (⟨S64x1, .f32⟩ : BufTy).Contents (Elt F)) := by
  rw [HostRead.after_at outs_ok 124 _ main_call2_v12 rfl (by decide) V,
    HostRead.after_take outs_ok 124 main_call2_v10 (by decide) V,
    HostRead.after_take outs_ok 124 main_call2_v11 (by decide) V]
  exact eq_of_heq (HostRead.tbinary_heq _ _ _ _ _ _ _ HEq.rfl HEq.rfl)

theorem at_main_call2_cst_3 (V : Valuation τ sig (Elt F)) :
    after ops V (Proc.devRef .tc main_call2_cst_3) = (constant S_ .f32 0x00000000#32 : (⟨S_, .f32⟩ : BufTy).Contents (Elt F)) := by
  rw [HostRead.after_at outs_ok 125 _ main_call2_cst_3 rfl (by decide) V]
  exact eq_of_heq (HostRead.tnullary_heq _ _ _)

theorem at_main_call2_v13 (V : Valuation τ sig (Elt F)) :
    after ops V (Proc.devRef .tc main_call2_v13) = (cmpf .ogt (after ops V (Proc.devRef .tc main_call2_v8) : (⟨S_, .f32⟩ : BufTy).Contents (Elt F)) (after ops V (Proc.devRef .tc main_call2_cst_3) : (⟨S_, .f32⟩ : BufTy).Contents (Elt F)) : (⟨S_, .i1⟩ : BufTy).Contents (Elt F)) := by
  rw [HostRead.after_at outs_ok 126 _ main_call2_v13 rfl (by decide) V,
    HostRead.after_take outs_ok 126 main_call2_v8 (by decide) V,
    HostRead.after_take outs_ok 126 main_call2_cst_3 (by decide) V]
  exact eq_of_heq (HostRead.tbinary_heq _ _ _ _ _ _ _ HEq.rfl HEq.rfl)

theorem at_main_call2_cst_4 (V : Valuation τ sig (Elt F)) :
    after ops V (Proc.devRef .tc main_call2_cst_4) = (constant S_ .f32 0x7FC00000#32 : (⟨S_, .f32⟩ : BufTy).Contents (Elt F)) := by
  rw [HostRead.after_at outs_ok 127 _ main_call2_cst_4 rfl (by decide) V]
  exact eq_of_heq (HostRead.tnullary_heq _ _ _)

theorem at_main_call2_call0_v0 (V : Valuation τ sig (Elt F)) :
    after ops V (Proc.devRef .tc main_call2_call0_v0) = (id (after ops V (Proc.devRef .tc main_call2_cst_4) : (⟨S_, .f32⟩ : BufTy).Contents (Elt F)) : (⟨S_, .f32⟩ : BufTy).Contents (Elt F)) := by
  rw [HostRead.after_at outs_ok 128 _ main_call2_call0_v0 rfl (by decide) V,
    HostRead.after_take outs_ok 128 main_call2_cst_4 (by decide) V]
  exact eq_of_heq (HostRead.tunary_heq _ _ _ _ _ HEq.rfl)

theorem at_main_call2_call0_v1 (V : Valuation τ sig (Elt F)) :
    after ops V (Proc.devRef .tc main_call2_call0_v1) = (broadcastInDim S64x1 ![] bcast_S_S64x1 (after ops V (Proc.devRef .tc main_call2_call0_v0) : (⟨S_, .f32⟩ : BufTy).Contents (Elt F)) : (⟨S64x1, .f32⟩ : BufTy).Contents (Elt F)) := by
  rw [HostRead.after_at outs_ok 129 _ main_call2_call0_v1 rfl (by decide) V,
    HostRead.after_take outs_ok 129 main_call2_call0_v0 (by decide) V]
  exact eq_of_heq (HostRead.tunary_heq _ _ _ _ _ HEq.rfl)

theorem at_main_v84 (V : Valuation τ sig (Elt F)) :
    after ops V (Proc.devRef .tc main_v84) = (select (broadcastInDim S64x1 ![] bcast_S_S64x1 (after ops V (Proc.devRef .tc main_call2_v13) : (⟨S_, .i1⟩ : BufTy).Contents (Elt F))) (after ops V (Proc.devRef .tc main_call2_v12) : (⟨S64x1, .f32⟩ : BufTy).Contents (Elt F)) (after ops V (Proc.devRef .tc main_call2_call0_v1) : (⟨S64x1, .f32⟩ : BufTy).Contents (Elt F)) : (⟨S64x1, .f32⟩ : BufTy).Contents (Elt F)) := by
  rw [HostRead.after_at outs_ok 130 _ main_v84 rfl (by decide) V,
    HostRead.after_take outs_ok 130 main_call2_v13 (by decide) V,
    HostRead.after_take outs_ok 130 main_call2_v12 (by decide) V,
    HostRead.after_take outs_ok 130 main_call2_call0_v1 (by decide) V]
  exact eq_of_heq (HostRead.tternary_heq _ _ _ _ _ _ _ _ _ HEq.rfl HEq.rfl HEq.rfl)

theorem at_main_v85 (V : Valuation τ sig (Elt F)) :
    after ops V (Proc.devRef .tc main_v85) = (broadcastInDim S64x128 ![0, 1] bcast_S64x1_S64x128_0_1 : (⟨S64x1, .f32⟩ : BufTy).Contents (Elt F) → (⟨S64x128, .f32⟩ : BufTy).Contents (Elt F)) (after ops V (Proc.devRef .tc main_v83)) := by
  rw [HostRead.after_at outs_ok 131 _ main_v85 rfl (by decide) V,
    HostRead.after_take outs_ok 131 main_v83 (by decide) V]
  exact unary_result ..

theorem at_main_v86 (V : Valuation τ sig (Elt F)) :
    after ops V (Proc.devRef .tc main_v86) = (subf : (⟨S64x128, .f32⟩ : BufTy).Contents (Elt F) → (⟨S64x128, .f32⟩ : BufTy).Contents (Elt F) → (⟨S64x128, .f32⟩ : BufTy).Contents (Elt F)) (after ops V (Proc.devRef .tc main_v79)) (after ops V (Proc.devRef .tc main_v85)) := by
  rw [HostRead.after_at outs_ok 132 _ main_v86 rfl (by decide) V,
    HostRead.after_take outs_ok 132 main_v79 (by decide) V,
    HostRead.after_take outs_ok 132 main_v85 (by decide) V]
  exact binary_result ..

theorem at_main_cst_18 (V : Valuation τ sig (Elt F)) :
    after ops V (Proc.devRef .tc main_cst_18) = constant S_ .f32 0x3727C5AC#32 := by
  rw [HostRead.after_at outs_ok 133 _ main_cst_18 rfl (by decide) V]
  exact nullary_result ..

theorem at_main_v87 (V : Valuation τ sig (Elt F)) :
    after ops V (Proc.devRef .tc main_v87) = (broadcastInDim S64x1 ![] bcast_S_S64x1 : (⟨S_, .f32⟩ : BufTy).Contents (Elt F) → (⟨S64x1, .f32⟩ : BufTy).Contents (Elt F)) (after ops V (Proc.devRef .tc main_cst_18)) := by
  rw [HostRead.after_at outs_ok 134 _ main_v87 rfl (by decide) V,
    HostRead.after_take outs_ok 134 main_cst_18 (by decide) V]
  exact unary_result ..

theorem at_main_v88 (V : Valuation τ sig (Elt F)) :
    after ops V (Proc.devRef .tc main_v88) = (addf : (⟨S64x1, .f32⟩ : BufTy).Contents (Elt F) → (⟨S64x1, .f32⟩ : BufTy).Contents (Elt F) → (⟨S64x1, .f32⟩ : BufTy).Contents (Elt F)) (after ops V (Proc.devRef .tc main_v84)) (after ops V (Proc.devRef .tc main_v87)) := by
  rw [HostRead.after_at outs_ok 135 _ main_v88 rfl (by decide) V,
    HostRead.after_take outs_ok 135 main_v84 (by decide) V,
    HostRead.after_take outs_ok 135 main_v87 (by decide) V]
  exact binary_result ..

theorem at_main_v89 (V : Valuation τ sig (Elt F)) :
    after ops V (Proc.devRef .tc main_v89) = (Host.rsqrt : (⟨S64x1, .f32⟩ : BufTy).Contents (Elt F) → (⟨S64x1, .f32⟩ : BufTy).Contents (Elt F)) (after ops V (Proc.devRef .tc main_v88)) := by
  rw [HostRead.after_at outs_ok 136 _ main_v89 rfl (by decide) V,
    HostRead.after_take outs_ok 136 main_v88 (by decide) V]
  exact unary_result ..

theorem at_main_v90 (V : Valuation τ sig (Elt F)) :
    after ops V (Proc.devRef .tc main_v90) = (broadcastInDim S64x128 ![0, 1] bcast_S64x1_S64x128_0_1 : (⟨S64x1, .f32⟩ : BufTy).Contents (Elt F) → (⟨S64x128, .f32⟩ : BufTy).Contents (Elt F)) (after ops V (Proc.devRef .tc main_v89)) := by
  rw [HostRead.after_at outs_ok 137 _ main_v90 rfl (by decide) V,
    HostRead.after_take outs_ok 137 main_v89 (by decide) V]
  exact unary_result ..

theorem at_main_v91 (V : Valuation τ sig (Elt F)) :
    after ops V (Proc.devRef .tc main_v91) = (mulf : (⟨S64x128, .f32⟩ : BufTy).Contents (Elt F) → (⟨S64x128, .f32⟩ : BufTy).Contents (Elt F) → (⟨S64x128, .f32⟩ : BufTy).Contents (Elt F)) (after ops V (Proc.devRef .tc main_v86)) (after ops V (Proc.devRef .tc main_v90)) := by
  rw [HostRead.after_at outs_ok 138 _ main_v91 rfl (by decide) V,
    HostRead.after_take outs_ok 138 main_v86 (by decide) V,
    HostRead.after_take outs_ok 138 main_v90 (by decide) V]
  exact binary_result ..

theorem at_main_v92 (V : Valuation τ sig (Elt F)) :
    after ops V (Proc.devRef .tc main_v92) = (broadcastInDim S1x128 ![1] bcast_S128_S1x128_1 : (⟨S128, .f32⟩ : BufTy).Contents (Elt F) → (⟨S1x128, .f32⟩ : BufTy).Contents (Elt F)) (after ops V (Proc.devRef .tc main_arg12)) := by
  rw [HostRead.after_at outs_ok 139 _ main_v92 rfl (by decide) V,
    HostRead.after_take outs_ok 139 main_arg12 (by decide) V]
  exact unary_result ..

theorem at_main_v93 (V : Valuation τ sig (Elt F)) :
    after ops V (Proc.devRef .tc main_v93) = (broadcastInDim S64x128 ![0, 1] bcast_S1x128_S64x128_0_1 : (⟨S1x128, .f32⟩ : BufTy).Contents (Elt F) → (⟨S64x128, .f32⟩ : BufTy).Contents (Elt F)) (after ops V (Proc.devRef .tc main_v92)) := by
  rw [HostRead.after_at outs_ok 140 _ main_v93 rfl (by decide) V,
    HostRead.after_take outs_ok 140 main_v92 (by decide) V]
  exact unary_result ..

theorem at_main_v94 (V : Valuation τ sig (Elt F)) :
    after ops V (Proc.devRef .tc main_v94) = (mulf : (⟨S64x128, .f32⟩ : BufTy).Contents (Elt F) → (⟨S64x128, .f32⟩ : BufTy).Contents (Elt F) → (⟨S64x128, .f32⟩ : BufTy).Contents (Elt F)) (after ops V (Proc.devRef .tc main_v91)) (after ops V (Proc.devRef .tc main_v93)) := by
  rw [HostRead.after_at outs_ok 141 _ main_v94 rfl (by decide) V,
    HostRead.after_take outs_ok 141 main_v91 (by decide) V,
    HostRead.after_take outs_ok 141 main_v93 (by decide) V]
  exact binary_result ..

theorem at_main_v95 (V : Valuation τ sig (Elt F)) :
    after ops V (Proc.devRef .tc main_v95) = (broadcastInDim S1x128 ![1] bcast_S128_S1x128_1 : (⟨S128, .f32⟩ : BufTy).Contents (Elt F) → (⟨S1x128, .f32⟩ : BufTy).Contents (Elt F)) (after ops V (Proc.devRef .tc main_arg13)) := by
  rw [HostRead.after_at outs_ok 142 _ main_v95 rfl (by decide) V,
    HostRead.after_take outs_ok 142 main_arg13 (by decide) V]
  exact unary_result ..

theorem at_main_v96 (V : Valuation τ sig (Elt F)) :
    after ops V (Proc.devRef .tc main_v96) = (broadcastInDim S64x128 ![0, 1] bcast_S1x128_S64x128_0_1 : (⟨S1x128, .f32⟩ : BufTy).Contents (Elt F) → (⟨S64x128, .f32⟩ : BufTy).Contents (Elt F)) (after ops V (Proc.devRef .tc main_v95)) := by
  rw [HostRead.after_at outs_ok 143 _ main_v96 rfl (by decide) V,
    HostRead.after_take outs_ok 143 main_v95 (by decide) V]
  exact unary_result ..

theorem at_main_v97 (V : Valuation τ sig (Elt F)) :
    after ops V (Proc.devRef .tc main_v97) = (addf : (⟨S64x128, .f32⟩ : BufTy).Contents (Elt F) → (⟨S64x128, .f32⟩ : BufTy).Contents (Elt F) → (⟨S64x128, .f32⟩ : BufTy).Contents (Elt F)) (after ops V (Proc.devRef .tc main_v94)) (after ops V (Proc.devRef .tc main_v96)) := by
  rw [HostRead.after_at outs_ok 144 _ main_v97 rfl (by decide) V,
    HostRead.after_take outs_ok 144 main_v94 (by decide) V,
    HostRead.after_take outs_ok 144 main_v96 (by decide) V]
  exact binary_result ..

end Cert.ReferenceIdeal.RefSsa

end
-- ==== Proof.RefDefs.lean ====
/-
  The reference network's stages as functions of the arguments, in the program's own spelling.

  The source and destination row numbers of the edges, the reciprocal degrees, the neighbour sums, the three layers, the
  clamp at zero, the per-graph mean and the row normalisation, each written with the operations, dimension records and
  shape facts the program itself uses, at the exact values.
-/
import proofs.«103097_j17102559773409_2_alg».proof.Proof.Gen.ReferenceIdeal
import Idealize.ShloMosaic.PureOps.Ideal
import Idealize.ShloMosaic.PureOps.Ideal.Laws

noncomputable section

namespace Cert.ReferenceIdeal.RefVal

open Cert.ReferenceIdeal Cert.ReferenceIdeal.Gen Idealize.ShloMosaic

/-- The edges' source row numbers: row 0 of the edge list. -/
def src (ei : IVec S2x800000 32) : IVec S800000 32 :=
  shapeCast S800000 (extractStridedSlice S1x800000 ![0, 0] ei slices_S2x800000_S1x800000_0_0) shapeCasts_S1x800000_S800000

/-- The edges' destination row numbers: row 1 of the edge list. -/
def dst (ei : IVec S2x800000 32) : IVec S800000 32 :=
  shapeCast S800000 (extractStridedSlice S1x800000 ![1, 0] ei slices_S2x800000_S1x800000_1_0) shapeCasts_S1x800000_S800000

/-- The source row numbers as a column, a negative one first moved up by the number of nodes. -/
def sidx (ei : IVec S2x800000 32) : IVec S800000x1 32 :=
  broadcastInDim S800000x1 ![0] bcast_S800000_S800000x1_0
    (select (cmpi .slt (src ei) (broadcastInDim S800000 ![] bcast_S_S800000 (constantI S_ 32 0#32)))
      (addi (src ei) (broadcastInDim S800000 ![] bcast_S_S800000 (constantI S_ 32 50000#32))) (src ei))

/-- The destination row numbers as a column. -/
def didx (ei : IVec S2x800000 32) : IVec S800000x1 32 :=
  broadcastInDim S800000x1 ![0] bcast_S800000_S800000x1_0 (dst ei)

/-- The reciprocal degrees: one over the larger of the number of edges arriving at a node and one. -/
def dvec (ei : IVec S2x800000 32) : FVec Ideal S50000 .f32 :=
  Host.divf (broadcastInDim S50000 ![] bcast_S_S50000 (constant (F := Ideal) S_ .f32 0x3F800000#32))
    (maximumf
      (Host.scatterAdd scatter_S50000_S800000x1_S800000_n_0_0_1
        (broadcastInDim S50000 ![] bcast_S_S50000 (constant (F := Ideal) S_ .f32 0x00000000#32)) (didx ei)
        (broadcastInDim S800000 ![] bcast_S_S800000 (constant (F := Ideal) S_ .f32 0x3F800000#32)))
      (broadcastInDim S50000 ![] bcast_S_S50000 (constant (F := Ideal) S_ .f32 0x3F800000#32)))

/-- The reciprocal degrees as a column. -/
def dcol (ei : IVec S2x800000 32) : FVec Ideal S50000x1 .f32 :=
  broadcastInDim S50000x1 ![0] bcast_S50000_S50000x1_0 (dvec ei)

/-- The reciprocal degrees repeated along 256 columns. -/
def dmat (ei : IVec S2x800000 32) : FVec Ideal S50000x256 .f32 :=
  broadcastInDim S50000x256 ![0, 1] bcast_S50000x1_S50000x256_0_1 (dcol ei)

/-- The neighbour sum of a one-column array: the source rows gathered, then added up at the destination rows. -/
def nsum1 (ei : IVec S2x800000 32) (x : FVec Ideal S50000x1 .f32) : FVec Ideal S50000x1 .f32 :=
  Host.scatterAdd scatter_S50000x1_S800000x1_S800000x1_1_0_0_1
    (broadcastInDim S50000x1 ![] bcast_S_S50000x1 (constant (F := Ideal) S_ .f32 0x00000000#32)) (didx ei)
    (Host.gather gather_S50000x1_S800000x1_S800000x1_1_0_n_n_0_1_11 x (sidx ei))

/-- The neighbour sum of a 256-column array. -/
def nsum256 (ei : IVec S2x800000 32) (h : FVec Ideal S50000x256 .f32) : FVec Ideal S50000x256 .f32 :=
  Host.scatterAdd scatter_S50000x256_S800000x1_S800000x256_1_0_0_1
    (broadcastInDim S50000x256 ![] bcast_S_S50000x256 (constant (F := Ideal) S_ .f32 0x00000000#32)) (didx ei)
    (Host.gather gather_S50000x256_S800000x1_S800000x256_1_0_n_n_0_1_1256 h (sidx ei))

/-- The clamp at zero. -/
def relu (y : FVec Ideal S50000x256 .f32) : FVec Ideal S50000x256 .f32 :=
  maximumf y (broadcastInDim S50000x256 ![] bcast_S_S50000x256 (constant (F := Ideal) S_ .f32 0x00000000#32))

/-- The first layer before its clamp: the scaled neighbour sum times the neighbour matrix, plus the bias, plus the
    node's own row times the root matrix. -/
def lay0 (ei : IVec S2x800000 32) (x : FVec Ideal S50000x1 .f32) (Wl : FVec Ideal S1x256 .f32) (b : FVec Ideal S256 .f32)
    (Wr : FVec Ideal S1x256 .f32) : FVec Ideal S50000x256 .f32 :=
  addf
    (addf (Host.dotGeneral dot_S50000x1_S1x256_S50000x256_1_0_0_1_n_n none (mulf (nsum1 ei x) (dcol ei)) Wl)
      (broadcastInDim S50000x256 ![0, 1] bcast_S1x256_S50000x256_0_1 (broadcastInDim S1x256 ![1] bcast_S256_S1x256_1 b)))
    (Host.dotGeneral dot_S50000x1_S1x256_S50000x256_1_0_0_1_n_n none x Wr)

/-- The second layer before its clamp. -/
def lay1 (ei : IVec S2x800000 32) (h : FVec Ideal S50000x256 .f32) (Wl : FVec Ideal S256x256 .f32) (b : FVec Ideal S256 .f32)
    (Wr : FVec Ideal S256x256 .f32) : FVec Ideal S50000x256 .f32 :=
  addf
    (addf (Host.dotGeneral dot_S50000x256_S256x256_S50000x256_1_0_0_1_n_n none (mulf (nsum256 ei h) (dmat ei)) Wl)
      (broadcastInDim S50000x256 ![0, 1] bcast_S1x256_S50000x256_0_1 (broadcastInDim S1x256 ![1] bcast_S256_S1x256_1 b)))
    (Host.dotGeneral dot_S50000x256_S256x256_S50000x256_1_0_0_1_n_n none h Wr)

/-- The last layer. -/
def lay2 (ei : IVec S2x800000 32) (h : FVec Ideal S50000x256 .f32) (Wl : FVec Ideal S256x128 .f32) (b : FVec Ideal S128 .f32)
    (Wr : FVec Ideal S256x128 .f32) : FVec Ideal S50000x128 .f32 :=
  addf
    (addf (Host.dotGeneral dot_S50000x256_S256x128_S50000x128_1_0_0_1_n_n none (mulf (nsum256 ei h) (dmat ei)) Wl)
      (broadcastInDim S50000x128 ![0, 1] bcast_S1x128_S50000x128_0_1 (broadcastInDim S1x128 ![1] bcast_S128_S1x128_1 b)))
    (Host.dotGeneral dot_S50000x256_S256x128_S50000x128_1_0_0_1_n_n none h Wr)

/-- The per-graph mean of the node rows: the rows added up at their graph numbers, divided by the larger of the
    graph's node count and one. -/
def pool (bt : IVec S50000 32) (h : FVec Ideal S50000x128 .f32) : FVec Ideal S64x128 .f32 :=
  Host.divf
    (Host.scatterAdd scatter_S64x128_S50000x1_S50000x128_1_0_0_1
      (broadcastInDim S64x128 ![] bcast_S_S64x128 (constant (F := Ideal) S_ .f32 0x00000000#32))
      (broadcastInDim S50000x1 ![0] bcast_S50000_S50000x1_0 bt) h)
    (broadcastInDim S64x128 ![0, 1] bcast_S64x1_S64x128_0_1
      (broadcastInDim S64x1 ![0] bcast_S64_S64x1_0
        (maximumf
          (Host.scatterAdd scatter_S64_S50000x1_S50000_n_0_0_1
            (broadcastInDim S64 ![] bcast_S_S64 (constant (F := Ideal) S_ .f32 0x00000000#32))
            (broadcastInDim S50000x1 ![0] bcast_S50000_S50000x1_0 bt)
            (broadcastInDim S50000 ![] bcast_S_S50000 (constant (F := Ideal) S_ .f32 0x3F800000#32)))
          (broadcastInDim S64 ![] bcast_S_S64 (constant (F := Ideal) S_ .f32 0x3F800000#32)))))

/-- The row normalisation as the program spells it: the row mean subtracted, times the reciprocal square root of the
    row variance plus a constant, times the scale, plus the shift; the variance's divisor is 128 minus a zero that is
    converted from an integer, and the variance is selected against a fill value by the comparison of that divisor
    with zero. -/
def norm (g : FVec Ideal S64x128 .f32) (γ β : FVec Ideal S128 .f32) : FVec Ideal S64x128 .f32 :=
  addf
        (mulf
          (mulf
            (subf (g)
              (broadcastInDim S64x128 ![0, 1] bcast_S64x1_S64x128_0_1
                (Host.divf
                  (broadcastInDim S64x1 ![0] bcast_S64_S64x1_0
                    (Host.reduceAdd (g) (constant (F := Ideal) S_ .f32 0x00000000#32) reducesTo_S64x128_S64_d1
                      h_S_))
                  (broadcastInDim S64x1 ![] bcast_S_S64x1 (constant (F := Ideal) S_ .f32 0x43000000#32)))))
            (broadcastInDim S64x128 ![0, 1] bcast_S64x1_S64x128_0_1
              (Host.rsqrt
                (addf
                  (select
                    (broadcastInDim S64x1 ![] bcast_S_S64x1
                      (cmpf .ogt
                        (subf (constant (F := Ideal) S_ .f32 0x43000000#32) (sitofp (F := Ideal) .f32 (constantI S_ 32 0#32)))
                        (constant (F := Ideal) S_ .f32 0x00000000#32)))
                    (Host.divf
                      (broadcastInDim S64x1 ![0] bcast_S64_S64x1_0
                        (Host.reduceAdd
                          (mulf
                            (subf (g)
                              (broadcastInDim S64x128 ![0, 1] bcast_S64x1_S64x128_0_1
                                (Host.divf
                                  (broadcastInDim S64x1 ![0] bcast_S64_S64x1_0
                                    (Host.reduceAdd (g) (constant (F := Ideal) S_ .f32 0x00000000#32)
                                      reducesTo_S64x128_S64_d1 h_S_))
                                  (broadcastInDim S64x1 ![] bcast_S_S64x1 (constant (F := Ideal) S_ .f32 0x43000000#32)))))
                            (subf (g)
                              (broadcastInDim S64x128 ![0, 1] bcast_S64x1_S64x128_0_1
                                (Host.divf
                                  (broadcastInDim S64x1 ![0] bcast_S64_S64x1_0
                                    (Host.reduceAdd (g) (constant (F := Ideal) S_ .f32 0x00000000#32)
                                      reducesTo_S64x128_S64_d1 h_S_))
                                  (broadcastInDim S64x1 ![] bcast_S_S64x1 (constant (F := Ideal) S_ .f32 0x43000000#32))))))
                          (constant (F := Ideal) S_ .f32 0x00000000#32) reducesTo_S64x128_S64_d1 h_S_))
                      (broadcastInDim S64x1 ![] bcast_S_S64x1
                        (subf (constant (F := Ideal) S_ .f32 0x43000000#32) (sitofp (F := Ideal) .f32 (constantI S_ 32 0#32)))))
                    (broadcastInDim S64x1 ![] bcast_S_S64x1 (id (constant (F := Ideal) S_ .f32 0x7FC00000#32))))
                  (broadcastInDim S64x1 ![] bcast_S_S64x1 (constant (F := Ideal) S_ .f32 0x3727C5AC#32))))))
          (broadcastInDim S64x128 ![0, 1] bcast_S1x128_S64x128_0_1
            (broadcastInDim S1x128 ![1] bcast_S128_S1x128_1 (γ))))
        (broadcastInDim S64x128 ![0, 1] bcast_S1x128_S64x128_0_1
          (broadcastInDim S1x128 ![1] bcast_S128_S1x128_1 (β)))

end Cert.ReferenceIdeal.RefVal

end
-- ==== Proof.RefFold.lean ====
/-
  What the reference network's line of operations leaves in its buffers, stage by stage, as terms of the arguments.

  Each lemma rewrites one stage's buffer with the equations of the operations that make it up (Proof/RefSsa.lean), from
  the last operation back to the first so that every use of a buffer is in sight when its equation is applied, down
  to buffers of earlier stages, which the earlier lemmas give, and to the argument buffers, which the line leaves alone;
  what remains is the stage's definition (Proof/RefDefs.lean) unfolded.  No term is ever larger than one stage.
-/
import proofs.«103097_j17102559773409_2_alg».proof.Proof.RefSsa
import proofs.«103097_j17102559773409_2_alg».proof.Proof.RefDefs

noncomputable section

namespace Cert.ReferenceIdeal.RefVal

open Cert.ReferenceIdeal Cert.ReferenceIdeal.Gen Cert.ReferenceIdeal.RefRun Cert.ReferenceIdeal.RefSsa Idealize.ShloMosaic Idealize.ShloMosaic.TcCoe Idealize.SL.Sem Idealize.ShloMosaic.StableHlo

-- the fold stays folded: an equation's left side is found by its buffer, never by running the line
attribute [local irreducible] Idealize.ShloMosaic.StableHlo.after

/-- The source row numbers. -/
theorem f_v1 (V : Valuation τ sig (Elt Ideal)) :
    after (ops (F := Ideal)) V (Proc.devRef .tc main_v1) = src (V (Proc.devRef .tc main_arg1)) := by
  rw [at_main_v1, at_main_v0, kept_arg1]
  all_goals rfl

/-- The destination row numbers. -/
theorem f_v3 (V : Valuation τ sig (Elt Ideal)) :
    after (ops (F := Ideal)) V (Proc.devRef .tc main_v3) = dst (V (Proc.devRef .tc main_arg1)) := by
  rw [at_main_v3, at_main_v2, kept_arg1]
  all_goals rfl

/-- The source column, as the first layer reads it. -/
theorem f_v18 (V : Valuation τ sig (Elt Ideal)) :
    after (ops (F := Ideal)) V (Proc.devRef .tc main_v18) = sidx (V (Proc.devRef .tc main_arg1)) := by
  rw [at_main_v18, at_main_v17, at_main_v16, at_main_v15, at_main_c_3, at_main_v14, at_main_v13, at_main_c,
    f_v1]
  all_goals rfl

/-- The source column, as the second layer reads it. -/
theorem f_v36 (V : Valuation τ sig (Elt Ideal)) :
    after (ops (F := Ideal)) V (Proc.devRef .tc main_v36) = sidx (V (Proc.devRef .tc main_arg1)) := by
  rw [at_main_v36, at_main_v35, at_main_v34, at_main_v33, at_main_c_6, at_main_v32, at_main_v31, at_main_c_5,
    f_v1]
  all_goals rfl

/-- The source column, as the third layer reads it. -/
theorem f_v55 (V : Valuation τ sig (Elt Ideal)) :
    after (ops (F := Ideal)) V (Proc.devRef .tc main_v55) = sidx (V (Proc.devRef .tc main_arg1)) := by
  rw [at_main_v55, at_main_v54, at_main_v53, at_main_v52, at_main_c_9, at_main_v51, at_main_v50, at_main_c_8,
    f_v1]
  all_goals rfl

/-- The destination column (the program computes it four times). -/
theorem f_v6 (V : Valuation τ sig (Elt Ideal)) :
    after (ops (F := Ideal)) V (Proc.devRef .tc main_v6) = didx (V (Proc.devRef .tc main_arg1)) := by
  rw [at_main_v6, f_v3]
  all_goals rfl

/-- The destination column (the program computes it four times). -/
theorem f_v21 (V : Valuation τ sig (Elt Ideal)) :
    after (ops (F := Ideal)) V (Proc.devRef .tc main_v21) = didx (V (Proc.devRef .tc main_arg1)) := by
  rw [at_main_v21, f_v3]
  all_goals rfl

/-- The destination column (the program computes it four times). -/
theorem f_v39 (V : Valuation τ sig (Elt Ideal)) :
    after (ops (F := Ideal)) V (Proc.devRef .tc main_v39) = didx (V (Proc.devRef .tc main_arg1)) := by
  rw [at_main_v39, f_v3]
  all_goals rfl

/-- The destination column (the program computes it four times). -/
theorem f_v58 (V : Valuation τ sig (Elt Ideal)) :
    after (ops (F := Ideal)) V (Proc.devRef .tc main_v58) = didx (V (Proc.devRef .tc main_arg1)) := by
  rw [at_main_v58, f_v3]
  all_goals rfl

/-- The reciprocal degrees, as a column. -/
theorem f_v12 (V : Valuation τ sig (Elt Ideal)) :
    after (ops (F := Ideal)) V (Proc.devRef .tc main_v12) = dcol (V (Proc.devRef .tc main_arg1)) := by
  rw [at_main_v12, at_main_v11, at_main_v10, at_main_cst_2, at_main_v9, at_main_v8, at_main_cst_1, at_main_v7,
    at_main_v5, at_main_cst_0, at_main_v4, at_main_cst, f_v6]
  all_goals rfl

/-- The first neighbour sum. -/
theorem f_v22 (V : Valuation τ sig (Elt Ideal)) :
    after (ops (F := Ideal)) V (Proc.devRef .tc main_v22) = nsum1 (V (Proc.devRef .tc main_arg1)) (V (Proc.devRef .tc main_arg0)) := by
  rw [at_main_v22, at_main_v20, at_main_cst_4, at_main_v19, kept_arg0, f_v21, f_v18]
  all_goals rfl

/-- The first layer before its clamp. -/
theorem f_v29 (V : Valuation τ sig (Elt Ideal)) :
    after (ops (F := Ideal)) V (Proc.devRef .tc main_v29) = lay0 (V (Proc.devRef .tc main_arg1)) (V (Proc.devRef .tc main_arg0)) (V (Proc.devRef .tc main_arg3)) (V (Proc.devRef .tc main_arg4)) (V (Proc.devRef .tc main_arg5)) := by
  rw [at_main_v29, at_main_v28, at_main_v27, at_main_v26, at_main_v25, at_main_v24, at_main_v23, kept_arg0, kept_arg3, kept_arg4, kept_arg5, f_v22, f_v12]
  all_goals rfl

/-- The first hidden layer: the clamp is a called function of three operations. -/
theorem f_v30 (V : Valuation τ sig (Elt Ideal)) :
    after (ops (F := Ideal)) V (Proc.devRef .tc main_v30) = relu (lay0 (V (Proc.devRef .tc main_arg1)) (V (Proc.devRef .tc main_arg0)) (V (Proc.devRef .tc main_arg3)) (V (Proc.devRef .tc main_arg4)) (V (Proc.devRef .tc main_arg5))) := by
  rw [at_main_v30, at_main_call0_v0, at_main_call0_cst, f_v29]
  all_goals rfl

/-- The reciprocal degrees along 256 columns, as the second layer reads them. -/
theorem f_v41 (V : Valuation τ sig (Elt Ideal)) :
    after (ops (F := Ideal)) V (Proc.devRef .tc main_v41) = dmat (V (Proc.devRef .tc main_arg1)) := by
  rw [at_main_v41, f_v12]
  all_goals rfl

/-- The reciprocal degrees along 256 columns, as the third layer reads them. -/
theorem f_v60 (V : Valuation τ sig (Elt Ideal)) :
    after (ops (F := Ideal)) V (Proc.devRef .tc main_v60) = dmat (V (Proc.devRef .tc main_arg1)) := by
  rw [at_main_v60, f_v12]
  all_goals rfl

/-- The second neighbour sum. -/
theorem f_v40 (V : Valuation τ sig (Elt Ideal)) :
    after (ops (F := Ideal)) V (Proc.devRef .tc main_v40) = nsum256 (V (Proc.devRef .tc main_arg1)) (relu (lay0 (V (Proc.devRef .tc main_arg1)) (V (Proc.devRef .tc main_arg0)) (V (Proc.devRef .tc main_arg3)) (V (Proc.devRef .tc main_arg4)) (V (Proc.devRef .tc main_arg5)))) := by
  rw [at_main_v40, at_main_v38, at_main_cst_7, at_main_v37, f_v39, f_v36, f_v30]
  all_goals rfl

/-- The second layer before its clamp. -/
theorem f_v48 (V : Valuation τ sig (Elt Ideal)) :
    after (ops (F := Ideal)) V (Proc.devRef .tc main_v48) = lay1 (V (Proc.devRef .tc main_arg1)) (relu (lay0 (V (Proc.devRef .tc main_arg1)) (V (Proc.devRef .tc main_arg0)) (V (Proc.devRef .tc main_arg3)) (V (Proc.devRef .tc main_arg4)) (V (Proc.devRef .tc main_arg5)))) (V (Proc.devRef .tc main_arg6)) (V (Proc.devRef .tc main_arg7)) (V (Proc.devRef .tc main_arg8)) := by
  rw [at_main_v48, at_main_v47, at_main_v46, at_main_v45, at_main_v44, at_main_v43, at_main_v42, kept_arg6, kept_arg7, kept_arg8, f_v40, f_v41, f_v30]
  all_goals rfl

/-- The second hidden layer. -/
theorem f_v49 (V : Valuation τ sig (Elt Ideal)) :
    after (ops (F := Ideal)) V (Proc.devRef .tc main_v49) = relu (lay1 (V (Proc.devRef .tc main_arg1)) (relu (lay0 (V (Proc.devRef .tc main_arg1)) (V (Proc.devRef .tc main_arg0)) (V (Proc.devRef .tc main_arg3)) (V (Proc.devRef .tc main_arg4)) (V (Proc.devRef .tc main_arg5)))) (V (Proc.devRef .tc main_arg6)) (V (Proc.devRef .tc main_arg7)) (V (Proc.devRef .tc main_arg8))) := by
  rw [at_main_v49, at_main_call1_v0, at_main_call1_cst, f_v48]
  all_goals rfl

/-- The third neighbour sum. -/
theorem f_v59 (V : Valuation τ sig (Elt Ideal)) :
    after (ops (F := Ideal)) V (Proc.devRef .tc main_v59) = nsum256 (V (Proc.devRef .tc main_arg1)) (relu (lay1 (V (Proc.devRef .tc main_arg1)) (relu (lay0 (V (Proc.devRef .tc main_arg1)) (V (Proc.devRef .tc main_arg0)) (V (Proc.devRef .tc main_arg3)) (V (Proc.devRef .tc main_arg4)) (V (Proc.devRef .tc main_arg5)))) (V (Proc.devRef .tc main_arg6)) (V (Proc.devRef .tc main_arg7)) (V (Proc.devRef .tc main_arg8)))) := by
  rw [at_main_v59, at_main_v57, at_main_cst_10, at_main_v56, f_v58, f_v55, f_v49]
  all_goals rfl

/-- The output layer. -/
theorem f_v67 (V : Valuation τ sig (Elt Ideal)) :
    after (ops (F := Ideal)) V (Proc.devRef .tc main_v67) = lay2 (V (Proc.devRef .tc main_arg1)) (relu (lay1 (V (Proc.devRef .tc main_arg1)) (relu (lay0 (V (Proc.devRef .tc main_arg1)) (V (Proc.devRef .tc main_arg0)) (V (Proc.devRef .tc main_arg3)) (V (Proc.devRef .tc main_arg4)) (V (Proc.devRef .tc main_arg5)))) (V (Proc.devRef .tc main_arg6)) (V (Proc.devRef .tc main_arg7)) (V (Proc.devRef .tc main_arg8)))) (V (Proc.devRef .tc main_arg9)) (V (Proc.devRef .tc main_arg10)) (V (Proc.devRef .tc main_arg11)) := by
  rw [at_main_v67, at_main_v66, at_main_v65, at_main_v64, at_main_v63, at_main_v62, at_main_v61, kept_arg9,
    kept_arg10, kept_arg11, f_v59, f_v60, f_v49]
  all_goals rfl

/-- The per-graph mean of the output layer's rows. -/
theorem f_v79 (V : Valuation τ sig (Elt Ideal)) :
    after (ops (F := Ideal)) V (Proc.devRef .tc main_v79) = pool (V (Proc.devRef .tc main_arg2)) (lay2 (V (Proc.devRef .tc main_arg1)) (relu (lay1 (V (Proc.devRef .tc main_arg1)) (relu (lay0 (V (Proc.devRef .tc main_arg1)) (V (Proc.devRef .tc main_arg0)) (V (Proc.devRef .tc main_arg3)) (V (Proc.devRef .tc main_arg4)) (V (Proc.devRef .tc main_arg5)))) (V (Proc.devRef .tc main_arg6)) (V (Proc.devRef .tc main_arg7)) (V (Proc.devRef .tc main_arg8)))) (V (Proc.devRef .tc main_arg9)) (V (Proc.devRef .tc main_arg10)) (V (Proc.devRef .tc main_arg11))) := by
  rw [at_main_v79, at_main_v78, at_main_v77, at_main_v76, at_main_v75, at_main_cst_14, at_main_v74, at_main_v73,
    at_main_v72, at_main_cst_13, at_main_v71, at_main_cst_12, at_main_v70, at_main_v69, at_main_v68, at_main_cst_11,
    kept_arg2, f_v67]
  all_goals rfl

/-- The result: the pooled rows normalised. -/
theorem f_v97 (V : Valuation τ sig (Elt Ideal)) :
    after (ops (F := Ideal)) V (Proc.devRef .tc main_v97) = norm (pool (V (Proc.devRef .tc main_arg2)) (lay2 (V (Proc.devRef .tc main_arg1)) (relu (lay1 (V (Proc.devRef .tc main_arg1)) (relu (lay0 (V (Proc.devRef .tc main_arg1)) (V (Proc.devRef .tc main_arg0)) (V (Proc.devRef .tc main_arg3)) (V (Proc.devRef .tc main_arg4)) (V (Proc.devRef .tc main_arg5)))) (V (Proc.devRef .tc main_arg6)) (V (Proc.devRef .tc main_arg7)) (V (Proc.devRef .tc main_arg8)))) (V (Proc.devRef .tc main_arg9)) (V (Proc.devRef .tc main_arg10)) (V (Proc.devRef .tc main_arg11)))) (V (Proc.devRef .tc main_arg12)) (V (Proc.devRef .tc main_arg13)) := by
  rw [at_main_v97, at_main_v96, at_main_v95, at_main_v94, at_main_v93, at_main_v92, at_main_v91, at_main_v90,
    at_main_v89, at_main_v88, at_main_v87, at_main_cst_18, at_main_v86, at_main_v85, at_main_v84, at_main_call2_call0_v1,
    at_main_call2_call0_v0, at_main_call2_cst_4, at_main_call2_v13, at_main_call2_cst_3, at_main_call2_v12, at_main_call2_v11, at_main_call2_v10, at_main_call2_v9,
    at_main_call2_cst_2, at_main_call2_v8, at_main_call2_cst_1, at_main_call2_v7, at_main_call2_v6, at_main_call2_v5, at_main_call2_v4, at_main_call2_v3,
    at_main_call2_v2, at_main_call2_cst_0, at_main_call2_v1, at_main_call2_v0, at_main_call2_cst, at_main_c_17, at_main_v83, at_main_v82,
    at_main_cst_16, at_main_v81, at_main_v80, at_main_cst_15, kept_arg12, kept_arg13, f_v79]
  all_goals rfl

end Cert.ReferenceIdeal.RefVal

end
-- ==== Proof.RefStages.lean ====
/-
  The host program's stages read as the layer formulas.

  A layer of the host program is a matrix product of the scaled aggregate, plus the bias row spread over the nodes, plus
  a matrix product of the node's own row; the scaling multiplies the aggregate by the column of reciprocal degrees spread
  along the row.  Entry by entry that is `linB` of Proof/Spec.lean; a rectifier is the maximum with a zero array; the
  normalisation tail is `layerNorm`.  The shapes are literal and every side condition is a variable, so that a program's
  printed terms unify.
-/
import proofs.«103097_j17102559773409_2_alg».proof.Proof.Spec
import proofs.«103097_j17102559773409_2_alg».proof.Proof.LibPlainDot
import Idealize.ShloMosaic.Lib.Pipeline.Value

noncomputable section

namespace Cert.Sage

open Idealize.ShloMosaic Idealize.ShloMosaic.ValueIdx

/-! ## Spreading a column, a row, a scalar -/

/-- A vector `[n]` placed as a column `[n, 1]`. -/
theorem bcast_col_apply {n : Nat} (hn : n ≠ 1) (v : A1 n) (h : (⟨1, ![n]⟩ : Shape).BroadcastsInDim ⟨2, ![n, 1]⟩ ![0])
    (p : Fin n) (k : Fin 1) : broadcastInDim ⟨2, ![n, 1]⟩ ![0] h v (ix2 p k) = v (ix1 p) :=
  broadcastInDim_apply ![0] h v (ix2 p k) (ix1 p) fun a => by
    match a with
    | ⟨0, _⟩ => show p.val = if n = 1 then 0 else p.val; rw [if_neg hn]

/-- A column `[n, 1]` spread along the rows of `[n, K]`. -/
theorem bcast_row_apply {n K : Nat} (hn : n ≠ 1) (x : A2 n 1) (h : (⟨2, ![n, 1]⟩ : Shape).BroadcastsInDim ⟨2, ![n, K]⟩ ![0, 1])
    (p : Fin n) (k : Fin K) : broadcastInDim ⟨2, ![n, K]⟩ ![0, 1] h x (ix2 p k) = x (ix2 p 0) :=
  broadcastInDim_apply ![0, 1] h x (ix2 p k) (ix2 p 0) fun a => by
    match a with
    | ⟨0, _⟩ => show p.val = if n = 1 then 0 else p.val; rw [if_neg hn]
    | ⟨1, _⟩ => show (0 : Nat) = if (1 : Nat) = 1 then 0 else k.val; rw [if_pos rfl]

/-- A vector `[M]` placed as a row `[1, M]` and spread over the `n` rows of `[n, M]`. -/
theorem bias_apply {n M : Nat} (b : A1 M) (h1 : (⟨1, ![M]⟩ : Shape).BroadcastsInDim ⟨2, ![1, M]⟩ ![1])
    (h2 : (⟨2, ![1, M]⟩ : Shape).BroadcastsInDim ⟨2, ![n, M]⟩ ![0, 1]) (p : Fin n) (q : Fin M) :
    broadcastInDim ⟨2, ![n, M]⟩ ![0, 1] h2 (broadcastInDim ⟨2, ![1, M]⟩ ![1] h1 b) (ix2 p q) = b (ix1 q) := by
  have hq := q.isLt
  refine (broadcastInDim_apply ![0, 1] h2 _ (ix2 p q) (ix2 (0 : Fin 1) q) fun a => ?_).trans
    (broadcastInDim_apply ![1] h1 b (ix2 (0 : Fin 1) q) (ix1 q) fun a => ?_)
  · match a with
    | ⟨0, _⟩ => show (0 : Nat) = if (1 : Nat) = 1 then 0 else p.val; rw [if_pos rfl]
    | ⟨1, _⟩ => show q.val = if M = 1 then 0 else q.val; split <;> omega
  · match a with
    | ⟨0, _⟩ => show q.val = if M = 1 then 0 else q.val; split <;> omega

/-- A zero scalar spread over any shape is zero everywhere. -/
theorem bcast_zero_apply {t : Shape} (h : (⟨0, ![]⟩ : Shape).BroadcastsInDim t ![]) (j : t.Idx) :
    broadcastInDim t ![] h (constant (F := Ideal) ⟨0, ![]⟩ .f32 0x00000000#32) j = 0 :=
  Ideal.ofBits_zero_f32

/-! ## A layer -/

/-- The aggregate scaled by the column of reciprocal degrees `[n] → [n, 1]` (one feature). -/
theorem scaled_col_apply (a : A2 NN 1) (v : A1 NN) (h : (⟨1, ![NN]⟩ : Shape).BroadcastsInDim ⟨2, ![NN, 1]⟩ ![0])
    (p : Fin NN) (k : Fin 1) :
    mulf (F := Ideal) (φ := .f32) a (broadcastInDim ⟨2, ![NN, 1]⟩ ![0] h v) (ix2 p k) = a (ix2 p k) * v (ix1 p) := by
  show a (ix2 p k) * broadcastInDim ⟨2, ![NN, 1]⟩ ![0] h v (ix2 p k) = _
  rw [bcast_col_apply (by decide)]

/-- The aggregate scaled by the column of reciprocal degrees spread along the row, `[n] → [n, 1] → [n, K]`. -/
theorem scaled_row_apply {K : Nat} (a : A2 NN K) (v : A1 NN) (h : (⟨1, ![NN]⟩ : Shape).BroadcastsInDim ⟨2, ![NN, 1]⟩ ![0])
    (h2 : (⟨2, ![NN, 1]⟩ : Shape).BroadcastsInDim ⟨2, ![NN, K]⟩ ![0, 1]) (p : Fin NN) (k : Fin K) :
    mulf (F := Ideal) (φ := .f32) a (broadcastInDim ⟨2, ![NN, K]⟩ ![0, 1] h2 (broadcastInDim ⟨2, ![NN, 1]⟩ ![0] h v)) (ix2 p k)
      = a (ix2 p k) * v (ix1 p) := by
  show a (ix2 p k) * broadcastInDim ⟨2, ![NN, K]⟩ ![0, 1] h2 (broadcastInDim ⟨2, ![NN, 1]⟩ ![0] h v) (ix2 p k) = _
  rw [bcast_row_apply (by decide), bcast_col_apply (by decide)]

/-- A HOST LAYER: the product of the scaled aggregate `s`, plus the spread bias `bb`, plus the product of the node's own
    row, is `linB` entry by entry. -/
theorem host_layer {K M : Nat} (D : DotDims ⟨2, ![NN, K]⟩ ⟨2, ![K, M]⟩ ⟨2, ![NN, M]⟩) (hD : Cert.LibPlainDot.Plain D)
    (prec : Option ContractPrecision)
    (s a h : A2 NN K) (d : Fin NN → EReal) (Wl Wr : A2 K M) (bb : A2 NN M) (b : Fin M → EReal)
    (hs : ∀ p k, s (ix2 p k) = a (ix2 p k) * d p) (hbb : ∀ p q, bb (ix2 p q) = b q) :
    addf (F := Ideal) (φ := .f32) (addf (F := Ideal) (φ := .f32) (Host.dotGeneral (F := Ideal) (φ₁ := .f32) (φ₂ := .f32) D prec s Wl) bb)
      (Host.dotGeneral (F := Ideal) (φ₁ := .f32) (φ₂ := .f32) D prec h Wr) = arr2 (linB a h d Wl Wr b) := by
  refine eq_arr2 _ _ fun p q => ?_
  unfold linB
  show (Host.dotGeneral (F := Ideal) (φ₁ := .f32) (φ₂ := .f32) D prec s Wl (ix2 p q) + bb (ix2 p q))
    + Host.dotGeneral (F := Ideal) (φ₁ := .f32) (φ₂ := .f32) D prec h Wr (ix2 p q) = _
  rw [Cert.LibPlainDot.hostDot_apply hD, Cert.LibPlainDot.hostDot_apply hD, hbb]
  simp only [hs]

/-- A rectifier: the maximum with an array of zeros. -/
theorem relu_eq {n M : Nat} (y z : A2 n M) (hz : ∀ i, z i = 0) :
    maximumf (F := Ideal) (φ := .f32) y z = arr2 fun p q => max (y (ix2 p q)) 0 := by
  refine eq_arr2 _ _ fun p q => ?_
  show max (y (ix2 p q)) (z (ix2 p q)) = _
  rw [hz]

end Cert.Sage

end
-- ==== Proof.RefTail.lean ====
/-
  The host program's normalisation tail read as `layerNorm`.

  A row's mean is its sum (a host reduction started at zero) divided by 128.  The variance routine recomputes the mean,
  sums the squared deviations and divides by `128 - ddof` with `ddof` the integer 0, guarded by `128 - ddof > 0` (else a
  not-a-number word): 128 less zero is 128 and is positive, so the guard is open and the quotient is `rowVar`.  The result is
  the deviation times the reciprocal square root of variance plus a constant, scaled and shifted column by column.
-/
import proofs.«103097_j17102559773409_2_alg».proof.Proof.RefStages
import Idealize.ShloMosaic.PureOps.Ideal.Laws

noncomputable section

namespace Cert.Sage

open Idealize.ShloMosaic Idealize.ShloMosaic.ValueIdx

/-- The scalar shape. -/
abbrev S0 : Shape := ⟨0, ![]⟩

/-- The f32 word of 128.0 denotes 128. -/
theorem ofBits_128 : Ideal.ofBits .f32 0x43000000#32 = ((128 : ℝ) : EReal) := by
  simp [Ideal.ofBits, Ideal.ieee, -EReal.coe_mul]; norm_num

/-- A host sum along the rows of an `[a, b]` array, at row `p`: the start value plus the row's entries. -/
theorem hostReduceAdd_row {a b : Nat} (x : A2 a b) (init : S0.Idx → EReal)
    (h' : (⟨2, ![a, b]⟩ : Shape).ReducesTo [1] ⟨1, ![a]⟩) (hu : 0 < S0.numel)
    (hred : (⟨2, ![a, b]⟩ : Shape).Reduces [1] ⟨1, ![a]⟩) (p : Fin a) :
    Host.reduceAdd (F := Ideal) (φ := .f32) x init h' hu (ix1 p) = init (Shape.Idx.first hu) + ∑ t : Fin b, x (ix2 p t) := by
  show Ideal.hostReduceAdd h' x (init (Shape.Idx.first hu)) (ix1 p) = _
  refine (Ideal.hostReduceAdd_single h' hred x _ (ix1 p)).trans ?_
  congr 1
  exact Finset.sum_congr rfl fun t _ => congrArg x (funext fun c => Fin.ext (by
    match c with
    | ⟨0, _⟩ => rfl
    | ⟨1, _⟩ => rfl))

section Tail
variable (g : A2 64 128)
  (hcol : (⟨1, ![64]⟩ : Shape).BroadcastsInDim ⟨2, ![64, 1]⟩ ![0])
  (h0 : S0.BroadcastsInDim ⟨2, ![64, 1]⟩ ![])
  (hrow : (⟨2, ![64, 1]⟩ : Shape).BroadcastsInDim ⟨2, ![64, 128]⟩ ![0, 1])
  (hr : (⟨2, ![64, 128]⟩ : Shape).ReducesTo [1] ⟨1, ![64]⟩) (hu : 0 < S0.numel)

/-- THE MEAN COLUMN: the row sums from zero, placed as a column, over a column of 128s. -/
theorem mean_apply (i : Fin 64) (u : Fin 1) :
    Host.divf (F := Ideal) (φ := .f32)
      (broadcastInDim ⟨2, ![64, 1]⟩ ![0] hcol
        (Host.reduceAdd (F := Ideal) (φ := .f32) g (constant (F := Ideal) S0 .f32 0x00000000#32) hr hu))
      (broadcastInDim ⟨2, ![64, 1]⟩ ![] h0 (constant (F := Ideal) S0 .f32 0x43000000#32)) (ix2 i u) = rowMean g i := by
  show Ideal.div (broadcastInDim ⟨2, ![64, 1]⟩ ![0] hcol
      (Host.reduceAdd (F := Ideal) (φ := .f32) g (constant (F := Ideal) S0 .f32 0x00000000#32) hr hu) (ix2 i u))
    (Ideal.ofBits .f32 0x43000000#32) = _
  rw [bcast_col_apply (by decide), hostReduceAdd_row g _ hr hu (by decide) i]
  show Ideal.div (Ideal.ofBits .f32 0x00000000#32 + _) _ = _
  rw [Ideal.ofBits_zero_f32, zero_add]
  rfl

/-- 128 less the integer zero read as a float is the word of 128. -/
theorem denom_eq (j : S0.Idx) :
    subf (F := Ideal) (φ := .f32) (constant (F := Ideal) S0 .f32 0x43000000#32) (sitofp (F := Ideal) .f32 (constantI S0 32 0#32)) j
      = Ideal.ofBits .f32 0x43000000#32 := by
  show Ideal.ofBits .f32 0x43000000#32 - (((0#32 : BitVec 32).toInt : ℝ) : EReal) = _
  simp

/-- The guard `128 - 0 > 0` is open. -/
theorem guard_one (j : S0.Idx) :
    cmpf (F := Ideal) (φ := .f32) .ogt
      (subf (F := Ideal) (φ := .f32) (constant (F := Ideal) S0 .f32 0x43000000#32) (sitofp (F := Ideal) .f32 (constantI S0 32 0#32)))
      (constant (F := Ideal) S0 .f32 0x00000000#32) j = 1#1 := by
  show Ideal.cmp .ogt (subf (F := Ideal) (φ := .f32) (constant (F := Ideal) S0 .f32 0x43000000#32)
    (sitofp (F := Ideal) .f32 (constantI S0 32 0#32)) j) (Ideal.ofBits .f32 0x00000000#32) = 1#1
  rw [denom_eq, Ideal.ofBits_zero_f32, ofBits_128]
  have : (0 : EReal) < ((128 : ℝ) : EReal) := by exact_mod_cast (by norm_num : (0 : ℝ) < 128)
  simp [Ideal.cmp, this]

/-- A scalar spread over any shape is that scalar everywhere. -/
theorem bcast_scalar_apply {α : Type} {t : Shape} (h : S0.BroadcastsInDim t ![]) (x : S0.Idx → α) (j : t.Idx) (k : S0.Idx) :
    broadcastInDim t ![] h x j = x k := by
  unfold broadcastInDim
  exact congrArg x (funext fun a => a.elim0)

/-- A guarded quotient whose guard is open, whose numerator is the summed squared deviations and whose denominator is the
    word of 128, is the row's variance. -/
theorem var_core (c : IVec ⟨2, ![64, 1]⟩ 1) (A B e : A2 64 1) (i : Fin 64) (u : Fin 1) (hc : c (ix2 i u) = 1#1)
    (hA : A (ix2 i u) = ∑ j : Fin 128, (g (ix2 i j) - rowMean g i) * (g (ix2 i j) - rowMean g i))
    (hB : B (ix2 i u) = Ideal.ofBits .f32 0x43000000#32) :
    select c (Host.divf (F := Ideal) (φ := .f32) A B) e (ix2 i u) = rowVar g i := by
  show Scalar.select (c (ix2 i u)) (Ideal.div (A (ix2 i u)) (B (ix2 i u))) (e (ix2 i u)) = _
  rw [hc, hA, hB]
  rfl

/-- The summed squared deviations, placed as a column, for any mean column `mc` that holds the row means. -/
theorem sqdev_apply (mc : A2 64 1) (hmc : ∀ i u, mc (ix2 i u) = rowMean g i) (i : Fin 64) (u : Fin 1) :
    broadcastInDim ⟨2, ![64, 1]⟩ ![0] hcol
        (Host.reduceAdd (F := Ideal) (φ := .f32)
          (mulf (F := Ideal) (φ := .f32) (subf (F := Ideal) (φ := .f32) g (broadcastInDim ⟨2, ![64, 128]⟩ ![0, 1] hrow mc))
            (subf (F := Ideal) (φ := .f32) g (broadcastInDim ⟨2, ![64, 128]⟩ ![0, 1] hrow mc)))
          (constant (F := Ideal) S0 .f32 0x00000000#32) hr hu) (ix2 i u)
      = ∑ j : Fin 128, (g (ix2 i j) - rowMean g i) * (g (ix2 i j) - rowMean g i) := by
  rw [bcast_col_apply (by decide), hostReduceAdd_row _ _ hr hu (by decide) i]
  show Ideal.ofBits .f32 0x00000000#32 + _ = _
  rw [Ideal.ofBits_zero_f32, zero_add]
  refine Finset.sum_congr rfl fun t _ => ?_
  show (g (ix2 i t) - broadcastInDim ⟨2, ![64, 128]⟩ ![0, 1] hrow mc (ix2 i t))
    * (g (ix2 i t) - broadcastInDim ⟨2, ![64, 128]⟩ ![0, 1] hrow mc (ix2 i t)) = _
  rw [bcast_row_apply (by decide), hmc]

/-- THE VARIANCE COLUMN: the guarded quotient of the summed squared deviations, for any mean column `mc` that holds the
    row means and any array `e` in the closed branch of the guard. -/
theorem var_apply (mc e : A2 64 1) (hmc : ∀ i u, mc (ix2 i u) = rowMean g i) (i : Fin 64) (u : Fin 1) :
    select
      (broadcastInDim ⟨2, ![64, 1]⟩ ![] h0 (cmpf (F := Ideal) (φ := .f32) .ogt
        (subf (F := Ideal) (φ := .f32) (constant (F := Ideal) S0 .f32 0x43000000#32) (sitofp (F := Ideal) .f32 (constantI S0 32 0#32)))
        (constant (F := Ideal) S0 .f32 0x00000000#32)))
      (Host.divf (F := Ideal) (φ := .f32)
        (broadcastInDim ⟨2, ![64, 1]⟩ ![0] hcol
          (Host.reduceAdd (F := Ideal) (φ := .f32)
            (mulf (F := Ideal) (φ := .f32) (subf (F := Ideal) (φ := .f32) g (broadcastInDim ⟨2, ![64, 128]⟩ ![0, 1] hrow mc))
              (subf (F := Ideal) (φ := .f32) g (broadcastInDim ⟨2, ![64, 128]⟩ ![0, 1] hrow mc)))
            (constant (F := Ideal) S0 .f32 0x00000000#32) hr hu))
        (broadcastInDim ⟨2, ![64, 1]⟩ ![] h0
          (subf (F := Ideal) (φ := .f32) (constant (F := Ideal) S0 .f32 0x43000000#32) (sitofp (F := Ideal) .f32 (constantI S0 32 0#32)))))
      e (ix2 i u) = rowVar g i :=
  var_core g _ _ _ e i u ((bcast_scalar_apply h0 _ _ ix0).trans (guard_one ix0))
    (sqdev_apply g hcol hrow hr hu mc hmc i u) ((bcast_scalar_apply h0 _ _ ix0).trans (denom_eq ix0))

/-- THE TAIL: deviation times reciprocal root of variance plus the constant, scaled and shifted. -/
theorem tail_eq (mc vc : A2 64 1) (hmc : ∀ i u, mc (ix2 i u) = rowMean g i) (hvc : ∀ i u, vc (ix2 i u) = rowVar g i)
    (γ β : A1 128) (hb1 : (⟨1, ![128]⟩ : Shape).BroadcastsInDim ⟨2, ![1, 128]⟩ ![1])
    (hb2 : (⟨2, ![1, 128]⟩ : Shape).BroadcastsInDim ⟨2, ![64, 128]⟩ ![0, 1]) :
    addf (F := Ideal) (φ := .f32)
      (mulf (F := Ideal) (φ := .f32)
        (mulf (F := Ideal) (φ := .f32) (subf (F := Ideal) (φ := .f32) g (broadcastInDim ⟨2, ![64, 128]⟩ ![0, 1] hrow mc))
          (broadcastInDim ⟨2, ![64, 128]⟩ ![0, 1] hrow
            (Host.rsqrt (F := Ideal) (φ := .f32) (addf (F := Ideal) (φ := .f32) vc
              (broadcastInDim ⟨2, ![64, 1]⟩ ![] h0 (constant (F := Ideal) S0 .f32 0x3727C5AC#32))))))
        (broadcastInDim ⟨2, ![64, 128]⟩ ![0, 1] hb2 (broadcastInDim ⟨2, ![1, 128]⟩ ![1] hb1 γ)))
      (broadcastInDim ⟨2, ![64, 128]⟩ ![0, 1] hb2 (broadcastInDim ⟨2, ![1, 128]⟩ ![1] hb1 β))
      = arr2 (layerNorm g (fun j => γ (ix1 j)) (fun j => β (ix1 j))) := by
  refine eq_arr2 _ _ fun i j => ?_
  show ((g (ix2 i j) - broadcastInDim ⟨2, ![64, 128]⟩ ![0, 1] hrow mc (ix2 i j))
      * broadcastInDim ⟨2, ![64, 128]⟩ ![0, 1] hrow
          (Host.rsqrt (F := Ideal) (φ := .f32) (addf (F := Ideal) (φ := .f32) vc
            (broadcastInDim ⟨2, ![64, 1]⟩ ![] h0 (constant (F := Ideal) S0 .f32 0x3727C5AC#32)))) (ix2 i j))
      * broadcastInDim ⟨2, ![64, 128]⟩ ![0, 1] hb2 (broadcastInDim ⟨2, ![1, 128]⟩ ![1] hb1 γ) (ix2 i j)
      + broadcastInDim ⟨2, ![64, 128]⟩ ![0, 1] hb2 (broadcastInDim ⟨2, ![1, 128]⟩ ![1] hb1 β) (ix2 i j) = _
  rw [bcast_row_apply (by decide), bcast_row_apply (by decide), bias_apply, bias_apply, hmc]
  show ((g (ix2 i j) - rowMean g i) * Ideal.rsqrt (vc (ix2 i 0) + Ideal.ofBits .f32 0x3727C5AC#32)) * γ (ix1 j) + β (ix1 j) = _
  rw [hvc]
  rfl

end Tail

end Cert.Sage

end
-- ==== Proof.RefLayers.lean ====
/-
  The reference network's layers and its normalisation, read entry by entry.

  Each layer of the reference is a matrix product of the neighbour sum scaled by the node weights, plus the bias spread
  over the nodes, plus a matrix product of the node's own row.  The neighbour sum is the sum over the edges arriving at a
  node of the source rows; scaling by the weight column multiplies row `p` by the weight of node `p`; a matrix product
  at an entry is the sum over the inner index.  Entry by entry a layer is therefore the second arrangement's layer formula
  of Proof/Spec.lean, its clamp at zero the maximum with zero, and the normalisation tail the row normalisation.
-/
import proofs.«103097_j17102559773409_2_alg».proof.Proof.RefDefs
import proofs.«103097_j17102559773409_2_alg».proof.Proof.RefStages
import proofs.«103097_j17102559773409_2_alg».proof.Proof.RefTail
import proofs.«103097_j17102559773409_2_alg».proof.Proof.LibAgg

noncomputable section

namespace Cert.ReferenceIdeal.RefVal

open Cert.ReferenceIdeal Cert.ReferenceIdeal.Gen Idealize.ShloMosaic Idealize.ShloMosaic.ValueIdx Cert.Sage

variable (ei : IVec S2x800000 32)

/-! ## The neighbour sums -/

/-- The neighbour sum of a one-column array. -/
theorem nsum1_eq (x : FVec Ideal S50000x1 .f32) : nsum1 ei x = arr2 (agg (sidx ei) (didx ei) x) := by
  unfold nsum1
  exact scatter_gather_agg _ _ _ x (fun i => bcast_zero_apply _ i) (sidx ei) (didx ei)

/-- The neighbour sum of a 256-column array. -/
theorem nsum256_eq (h : FVec Ideal S50000x256 .f32) : nsum256 ei h = arr2 (agg (sidx ei) (didx ei) h) := by
  unfold nsum256
  exact scatter_gather_agg _ _ _ h (fun i => bcast_zero_apply _ i) (sidx ei) (didx ei)

/-! ## The layers before their clamp -/

/-- The first layer, entry by entry. -/
theorem lay0_eq (x : FVec Ideal S50000x1 .f32) (Wl : FVec Ideal S1x256 .f32) (b : FVec Ideal S256 .f32) (Wr : FVec Ideal S1x256 .f32) :
    lay0 ei x Wl b Wr
      = arr2 (linB (arr2 (agg (sidx ei) (didx ei) x)) x (fun p => dvec ei (ix1 p)) Wl Wr (fun q => b (ix1 q))) := by
  unfold lay0 dcol
  rw [nsum1_eq]
  exact host_layer dot_S50000x1_S1x256_S50000x256_1_0_0_1_n_n ⟨rfl, rfl, rfl, rfl, rfl, rfl⟩ none _ _ x _ Wl Wr _ _
    (fun p k => scaled_col_apply _ (dvec ei) _ p k) (fun p q => bias_apply b _ _ p q)

/-- The second layer, entry by entry, of ANY array of node rows. -/
theorem lay1_eq (h : FVec Ideal S50000x256 .f32) (Wl : FVec Ideal S256x256 .f32) (b : FVec Ideal S256 .f32) (Wr : FVec Ideal S256x256 .f32) :
    lay1 ei h Wl b Wr
      = arr2 (linB (arr2 (agg (sidx ei) (didx ei) h)) h (fun p => dvec ei (ix1 p)) Wl Wr (fun q => b (ix1 q))) := by
  unfold lay1 dmat dcol
  rw [nsum256_eq]
  exact host_layer dot_S50000x256_S256x256_S50000x256_1_0_0_1_n_n ⟨rfl, rfl, rfl, rfl, rfl, rfl⟩ none _ _ h _ Wl Wr _ _
    (fun p k => scaled_row_apply _ (dvec ei) _ _ p k) (fun p q => bias_apply b _ _ p q)

/-- THE LAST LAYER, entry by entry, of ANY array of node rows. -/
theorem layer2_eq (h : FVec Ideal S50000x256 .f32) (Wl : FVec Ideal S256x128 .f32) (b : FVec Ideal S128 .f32) (Wr : FVec Ideal S256x128 .f32) :
    lay2 ei h Wl b Wr
      = arr2 (linB (arr2 (agg (sidx ei) (didx ei) h)) h (fun p => dvec ei (ix1 p)) Wl Wr (fun q => b (ix1 q))) := by
  unfold lay2 dmat dcol
  rw [nsum256_eq]
  exact host_layer dot_S50000x256_S256x128_S50000x128_1_0_0_1_n_n ⟨rfl, rfl, rfl, rfl, rfl, rfl⟩ none _ _ h _ Wl Wr _ _
    (fun p k => scaled_row_apply _ (dvec ei) _ _ p k) (fun p q => bias_apply b _ _ p q)

/-! ## The clamped layers -/

/-- THE FIRST HIDDEN LAYER is the second arrangement's. -/
theorem h0_eq (x : FVec Ideal S50000x1 .f32) (Wl : FVec Ideal S1x256 .f32) (b : FVec Ideal S256 .f32) (Wr : FVec Ideal S1x256 .f32) :
    relu (lay0 ei x Wl b Wr) = h0B (sidx ei) (didx ei) (fun p => dvec ei (ix1 p)) x Wl b Wr := by
  unfold relu
  rw [relu_eq _ _ (fun i => bcast_zero_apply _ i), lay0_eq]
  rfl

/-- THE SECOND HIDDEN LAYER of ANY array of node rows: the layer formula clamped at zero. -/
theorem layer1_eq (h : FVec Ideal S50000x256 .f32) (Wl : FVec Ideal S256x256 .f32) (b : FVec Ideal S256 .f32) (Wr : FVec Ideal S256x256 .f32) :
    relu (lay1 ei h Wl b Wr)
      = arr2 fun p q => max (linB (arr2 (agg (sidx ei) (didx ei) h)) h (fun p => dvec ei (ix1 p)) Wl Wr (fun q => b (ix1 q)) p q) 0 := by
  unfold relu
  rw [relu_eq _ _ (fun i => bcast_zero_apply _ i), lay1_eq]
  rfl

/-! ## The normalisation -/

/-- THE NORMALISATION TAIL is the row normalisation: its mean column holds the row means, its guarded variance column the
    row variances. -/
theorem norm_eq (g : FVec Ideal S64x128 .f32) (γ β : FVec Ideal S128 .f32) :
    norm g γ β = arr2 (layerNorm g (fun j => γ (ix1 j)) (fun j => β (ix1 j))) := by
  unfold norm
  refine tail_eq g _ _ _ _ ?_ ?_ γ β _ _
  · intro i u
    exact mean_apply g _ _ _ _ i u
  · intro i u
    exact var_apply g _ _ _ _ _ _ _ (fun i u => mean_apply g _ _ _ _ i u) i u

end Cert.ReferenceIdeal.RefVal

end
-- ==== Proof.RefVal.lean ====
/-
  The reference network's result as the specification's second arrangement.

  The line of operations leaves in the result buffer the row normalisation of the per-graph mean of the output layer
  (Proof/RefFold.lean); the normalisation is the specification's, each layer is the specification's layer over the
  neighbour sum of the layer before (Proof/RefLayers.lean); put together this is the specification's network in which
  the last neighbour matrix is applied after the rows are aggregated.
-/
import proofs.«103097_j17102559773409_2_alg».proof.Proof.RefFold
import proofs.«103097_j17102559773409_2_alg».proof.Proof.RefLayers
import proofs.«103097_j17102559773409_2_alg».proof.Proof.Spec

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx

/-- After the line, the result buffer holds the specification's network (second arrangement) of the arguments: the
    edge list read as source and destination columns, the reciprocal degrees, the per-graph mean, and the eleven
    float arguments. -/
theorem result_eq (V : Valuation τ sig (Elt Ideal)) :
    after (ops (F := Ideal)) V (Proc.devRef .tc main_v97)
      = Cert.Sage.netB (sidx (V (Proc.devRef .tc main_arg1))) (didx (V (Proc.devRef .tc main_arg1))) (fun p => dvec (V (Proc.devRef .tc main_arg1)) (ix1 p)) (pool (V (Proc.devRef .tc main_arg2)))
          (V (Proc.devRef .tc main_arg0)) (V (Proc.devRef .tc main_arg3)) (V (Proc.devRef .tc main_arg4)) (V (Proc.devRef .tc main_arg5)) (V (Proc.devRef .tc main_arg6)) (V (Proc.devRef .tc main_arg7))
          (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [f_v97, norm_eq, layer2_eq, layer1_eq, h0_eq]
  rfl

end Cert.ReferenceIdeal.RefVal

end
-- ==== Proof.Linear.lean ====
/-
  The two arrangements of the network agree on real inputs.

  The first two layers differ only in the order in which three summands are added, and addition of extended reals is
  commutative and associative, so they agree on every input.  The last layer differs by where the neighbour matrix `W`
  is applied: arrangement A sums, over the edges into a node, the rows `h · W` and then scales the sum by the node's
  reciprocal degree `D`; arrangement B sums the rows `h`, scales, and then applies `W`.  Over the reals
      (∑ₑ [e → node] ∑ₖ h(src e, k) · W(k)) · D  =  ∑ₖ ((∑ₑ [e → node] h(src e, k)) · D) · W(k)
  by distributivity and exchanging the two finite sums.  Distributivity fails at infinities, so the identity is carried
  through real witnesses: every entry of the hidden layers is a real number because sums, products and maxima of reals are.
-/
import proofs.«103097_j17102559773409_2_alg».proof.Proof.Spec

noncomputable section

namespace Cert.Sage

open Idealize.ShloMosaic Idealize.ShloMosaic.ValueIdx

/-! ## Real numbers among the extended reals -/

/-- An extended real that is a real number. -/
def IsReal (x : EReal) : Prop := ∃ r : ℝ, x = (r : EReal)

theorem IsReal.zero : IsReal 0 := ⟨0, rfl⟩
theorem IsReal.coe (r : ℝ) : IsReal (r : EReal) := ⟨r, rfl⟩
theorem IsReal.add {x y : EReal} : IsReal x → IsReal y → IsReal (x + y)
  | ⟨a, ha⟩, ⟨b, hb⟩ => ⟨a + b, by rw [ha, hb, EReal.coe_add]⟩
theorem IsReal.mul {x y : EReal} : IsReal x → IsReal y → IsReal (x * y)
  | ⟨a, ha⟩, ⟨b, hb⟩ => ⟨a * b, by rw [ha, hb, EReal.coe_mul]⟩
theorem IsReal.max_zero {x : EReal} : IsReal x → IsReal (max x 0)
  | ⟨a, ha⟩ => by
    rcases le_total x 0 with h | h
    · rw [max_eq_right h]; exact IsReal.zero
    · rw [max_eq_left h]; exact ⟨a, ha⟩
theorem IsReal.sum {ι : Type} (s : Finset ι) (f : ι → EReal) (h : ∀ i ∈ s, IsReal (f i)) : IsReal (∑ i ∈ s, f i) :=
  Finset.sum_induction f IsReal (fun _ _ => IsReal.add) IsReal.zero h
theorem IsReal.ite_zero {c : Prop} [Decidable c] {x : EReal} (h : IsReal x) : IsReal (if c then x else 0) := by
  split
  · exact h
  · exact IsReal.zero

/-- A finite sum of real numbers, read among the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ## The exchange, over the reals -/

/-- Scaling a selected sum of row products is the row product of the scaled selected sums. -/
theorem swap_real {ι κ : Type} [Fintype ι] [Fintype κ] (c : ι → Prop) [DecidablePred c] (H : ι → κ → ℝ) (W : κ → ℝ) (D : ℝ) :
    (∑ e, if c e then ∑ k, H e k * W k else 0) * D = ∑ k, ((∑ e, if c e then H e k else 0) * D) * W k := by
  have hR : ∀ k, ((∑ e, if c e then H e k else 0) * D) * W k = ∑ e, (if c e then H e k else 0) * D * W k := by
    intro k; rw [Finset.sum_mul, Finset.sum_mul]
  simp only [hR]
  rw [Finset.sum_comm, Finset.sum_mul]
  refine Finset.sum_congr rfl fun e _ => ?_
  by_cases h : c e
  · simp only [h, if_true]; rw [Finset.sum_mul]; exact Finset.sum_congr rfl fun k _ => by ring
  · simp only [h, if_false, zero_mul, Finset.sum_const_zero]

/-- The same among the extended reals, for entries that are real numbers. -/
theorem swap_ereal {ι κ : Type} [Fintype ι] [Fintype κ] (c : ι → Prop) [DecidablePred c] (h : ι → κ → EReal) (w : κ → EReal) (d : EReal)
    (hh : ∀ e k, IsReal (h e k)) (hw : ∀ k, IsReal (w k)) (hd : IsReal d) :
    (∑ e, if c e then ∑ k, h e k * w k else 0) * d = ∑ k, ((∑ e, if c e then h e k else 0) * d) * w k := by
  choose H hH using hh
  choose W hW using hw
  obtain ⟨D, rfl⟩ := hd
  have e1 : ∀ e, (if c e then ∑ k, h e k * w k else 0) = (((if c e then ∑ k, H e k * W k else 0 : ℝ)) : EReal) := by
    intro e; split
    · rw [coe_sum]; exact Finset.sum_congr rfl fun k _ => by rw [hH, hW, EReal.coe_mul]
    · rfl
  have e2 : ∀ k e, (if c e then h e k else 0) = (((if c e then H e k else 0 : ℝ)) : EReal) := by
    intro k e; split
    · exact hH e k
    · rfl
  have e1' : (∑ e, if c e then ∑ k, h e k * w k else 0) = ∑ e, (((if c e then ∑ k, H e k * W k else 0 : ℝ)) : EReal) :=
    Finset.sum_congr rfl fun e _ => e1 e
  have e2' : ∀ k, (∑ e, if c e then h e k else 0) = ∑ e, (((if c e then H e k else 0 : ℝ)) : EReal) :=
    fun k => Finset.sum_congr rfl fun e _ => e2 k e
  rw [e1']
  simp only [e2', hW]
  simp only [← coe_sum, ← EReal.coe_mul]
  exact congrArg _ (swap_real c H W D)

/-! ## The layers -/

section Layers
variable (sidx didx : IdxList) (d : Fin NN → EReal)

theorem agg_isReal {C : Nat} (h : A2 NN C) (hh : ∀ i, IsReal (h i)) (r : Fin NN) (q : Fin C) : IsReal (agg sidx didx h r q) :=
  IsReal.sum _ _ fun _ _ => IsReal.ite_zero (hh _)

/-- The one-feature first layer in the two orders of addition. -/
theorem lin0A_eq_linB (a x : A2 NN 1) (wl wr : A2 1 256) (b : Fin 256 → EReal) (p : Fin NN) (q : Fin 256) :
    lin0A a x d wl wr b p q = linB a x d wl wr b p q := by
  unfold lin0A linB
  rw [Fin.sum_univ_one, Fin.sum_univ_one, add_right_comm]

/-- A layer in the two orders of addition. -/
theorem lin1A_eq_linB {K M : Nat} (a h : A2 NN K) (Wl Wr : A2 K M) (b : Fin M → EReal) (p : Fin NN) (q : Fin M) :
    lin1A a h d Wl Wr b p q = linB a h d Wl Wr b p q := by
  unfold lin1A linB
  rw [add_right_comm]

/-- A layer of real inputs has real entries. -/
theorem linB_isReal {K M : Nat} (a h : A2 NN K) (Wl Wr : A2 K M) (b : Fin M → EReal)
    (ha : ∀ i, IsReal (a i)) (hh : ∀ i, IsReal (h i)) (hd : ∀ p, IsReal (d p)) (hWl : ∀ i, IsReal (Wl i)) (hWr : ∀ i, IsReal (Wr i))
    (hb : ∀ q, IsReal (b q)) (p : Fin NN) (q : Fin M) : IsReal (linB a h d Wl Wr b p q) := by
  unfold linB
  exact ((IsReal.sum _ _ fun _ _ => ((ha _).mul (hd _)).mul (hWl _)).add (hb _)).add (IsReal.sum _ _ fun _ _ => (hh _).mul (hWr _))

/-- The last layer: projecting the rows before they are aggregated and scaled, or after. -/
theorem lin2A_eq_linB {K M : Nat} (h : A2 NN K) (Wl Wr : A2 K M) (b : Fin M → EReal)
    (hh : ∀ i, IsReal (h i)) (hd : ∀ p, IsReal (d p)) (hWl : ∀ i, IsReal (Wl i)) (p : Fin NN) (q : Fin M) :
    lin2A (arr2 (agg sidx didx (arr2 (proj h Wl)))) h d Wr b p q = linB (arr2 (agg sidx didx h)) h d Wl Wr b p q := by
  unfold lin2A linB
  simp only [arr2_ix2]
  have key : agg sidx didx (arr2 (proj h Wl)) p q * d p = ∑ k : Fin K, (agg sidx didx h p k * d p) * Wl (ix2 k q) := by
    unfold agg
    simp only [arr2_ix2, proj]
    exact swap_ereal (fun e : Fin EE => (didx (ix2 e 0)).toInt = (p.val : ℤ))
      (fun e k => h (ix2 (Cert.RowGatherScatter.srcRow (N := NN) (Nat.succ_pos _) sidx e) k)) (fun k => Wl (ix2 k q)) (d p)
      (fun _ _ => hh _) (fun _ => hWl _) (hd p)
  rw [key, add_right_comm]

end Layers

/-! ## The networks -/

section Nets
variable (sidx didx : IdxList) (d : Fin NN → EReal) (pool : A2 NN 128 → A2 64 128)
  (x : A2 NN 1) (Wl0 : A2 1 256) (b0 : A1 256) (Wr0 : A2 1 256)
  (Wl1 : A2 256 256) (b1 : A1 256) (Wr1 : A2 256 256)
  (Wl2 : A2 256 128) (b2 : A1 128) (Wr2 : A2 256 128) (γ β : A1 128)

theorem h0A_eq : h0A sidx didx d x Wl0 b0 Wr0 = h0B sidx didx d x Wl0 b0 Wr0 := by
  unfold h0A h0B
  refine congrArg arr2 (funext fun p => funext fun q => ?_)
  rw [lin0A_eq_linB]

theorem h1A_eq : h1A sidx didx d x Wl0 b0 Wr0 Wl1 b1 Wr1 = h1B sidx didx d x Wl0 b0 Wr0 Wl1 b1 Wr1 := by
  unfold h1A h1B
  rw [h0A_eq]
  refine congrArg arr2 (funext fun p => funext fun q => ?_)
  rw [lin1A_eq_linB]

theorem arr2_isReal {a b : Nat} (f : Fin a → Fin b → EReal) (h : ∀ p q, IsReal (f p q)) (i : (⟨2, ![a, b]⟩ : Shape).Idx) :
    IsReal (arr2 f i) := h _ _

variable (hd : ∀ p, IsReal (d p)) (hx : ∀ i, IsReal (x i)) (hWl0 : ∀ i, IsReal (Wl0 i)) (hb0 : ∀ i, IsReal (b0 i)) (hWr0 : ∀ i, IsReal (Wr0 i))
  (hWl1 : ∀ i, IsReal (Wl1 i)) (hb1 : ∀ i, IsReal (b1 i)) (hWr1 : ∀ i, IsReal (Wr1 i)) (hWl2 : ∀ i, IsReal (Wl2 i))

include hd hx hWl0 hb0 hWr0 in
theorem h0B_isReal (i) : IsReal (h0B sidx didx d x Wl0 b0 Wr0 i) := by
  unfold h0B
  exact arr2_isReal _ (fun p q => (linB_isReal d _ _ _ _ _ (arr2_isReal _ (agg_isReal sidx didx x hx)) hx hd hWl0 hWr0 (fun _ => hb0 _) p q).max_zero) i

include hd hx hWl0 hb0 hWr0 hWl1 hb1 hWr1 in
theorem h1B_isReal (i) : IsReal (h1B sidx didx d x Wl0 b0 Wr0 Wl1 b1 Wr1 i) := by
  unfold h1B
  have h0 := h0B_isReal sidx didx d x Wl0 b0 Wr0 hd hx hWl0 hb0 hWr0
  exact arr2_isReal _ (fun p q => (linB_isReal d _ _ _ _ _ (arr2_isReal _ (agg_isReal sidx didx _ h0)) h0 hd hWl1 hWr1 (fun _ => hb1 _) p q).max_zero) i

include hd hx hWl0 hb0 hWr0 hWl1 hb1 hWr1 hWl2 in
theorem h2A_eq : h2A sidx didx d x Wl0 b0 Wr0 Wl1 b1 Wr1 Wl2 b2 Wr2 = h2B sidx didx d x Wl0 b0 Wr0 Wl1 b1 Wr1 Wl2 b2 Wr2 := by
  unfold h2A h2B hl2A
  rw [h1A_eq]
  refine congrArg arr2 (funext fun p => funext fun q => ?_)
  exact lin2A_eq_linB sidx didx d _ Wl2 Wr2 _ (h1B_isReal sidx didx d x Wl0 b0 Wr0 Wl1 b1 Wr1 hd hx hWl0 hb0 hWr0 hWl1 hb1 hWr1) hd hWl2 p q

include hd hx hWl0 hb0 hWr0 hWl1 hb1 hWr1 hWl2 in
/-- THE TWO ARRANGEMENTS AGREE when the reciprocal degrees, the features and the weights of the three layers are real. -/
theorem netA_eq_netB : netA sidx didx d pool x Wl0 b0 Wr0 Wl1 b1 Wr1 Wl2 b2 Wr2 γ β = netB sidx didx d pool x Wl0 b0 Wr0 Wl1 b1 Wr1 Wl2 b2 Wr2 γ β := by
  unfold netA netB
  rw [h2A_eq sidx didx d x Wl0 b0 Wr0 Wl1 b1 Wr1 Wl2 b2 Wr2 hd hx hWl0 hb0 hWr0 hWl1 hb1 hWr1 hWl2]

end Nets

end Cert.Sage

end
-- ==== Proof.Recip.lean ====
/-
  The reciprocal degree is a real number.

  A node's reciprocal degree is `1 / max(deg, 1)`.  Whatever extended real `deg` is, `max(deg, 1)` is at least one, so
  it is not zero and the quotient is the product with its inverse; the inverse of a real number that is at least one is a
  real number, and the inverse of +∞ is 0.
-/
import proofs.«103097_j17102559773409_2_alg».proof.Proof.Linear
import Idealize.ShloMosaic.PureOps.IdealRules

noncomputable section

namespace Cert.Sage

open Idealize.ShloMosaic

/-- The f32 word of 1.0 denotes one. -/
theorem ofBits_one : Ideal.ofBits .f32 0x3F800000#32 = 1 := IdealRules.sign_bit.ideal_onePat .f32

/-- `1 / max(y, 1)` is a real number for every extended real `y`. -/
theorem isReal_recip (y : EReal) :
    IsReal (Ideal.div (Ideal.ofBits .f32 0x3F800000#32) (max y (Ideal.ofBits .f32 0x3F800000#32))) := by
  rw [ofBits_one]
  have h01 : (0 : EReal) < 1 := by exact_mod_cast (zero_lt_one : (0 : ℝ) < 1)
  have hpos : (0 : EReal) < max y 1 := lt_of_lt_of_le h01 (le_max_right _ _)
  unfold Ideal.div
  rw [if_neg (ne_of_gt hpos), one_mul]
  induction y using EReal.rec with
  | bot => rw [max_eq_right bot_le]; exact ⟨(1 : ℝ)⁻¹, by rw [EReal.coe_inv, EReal.coe_one]⟩
  | coe r =>
    rcases le_total (r : EReal) 1 with h | h
    · rw [max_eq_right h]; exact ⟨(1 : ℝ)⁻¹, by rw [EReal.coe_inv, EReal.coe_one]⟩
    · rw [max_eq_left h]; exact ⟨r⁻¹, (EReal.coe_inv r).symm⟩
  | top => rw [max_eq_left le_top, EReal.inv_top]; exact IsReal.zero

end Cert.Sage

end
-- ==== Proof.LibFiniteInputs.lean ====
/-
  Finite inputs.  A precondition of the form "every entry's absolute value is below +∞", taken over a whole array by an
  all-reduction, makes every entry of the array a real number: an all-reduction that is 1 has every compared entry 1;
  the word `0x7F800000` denotes `⊤`; and an extended real with `max x (-x) < ⊤` is neither infinity.
  Generic in the array's shape and in the axes reduced; the scalar shape is spelt literally so that any program's own
  abbreviation of it unifies.
-/
import Idealize.ShloMosaic.Lib.ReduceAll
import Idealize.ShloMosaic.Lib.ValueIdx
import Idealize.ShloMosaic.PureOps.Ideal.Laws

noncomputable section

namespace Cert.FiniteInputs

open Idealize.ShloMosaic Idealize.ShloMosaic.ValueIdx

/-- The scalar shape. -/
abbrev S0 : Shape := ⟨0, ![]⟩

instance : Subsingleton S0.Idx := ⟨fun a b => funext fun d => d.elim0⟩

/-- The word of +∞ denotes `⊤`. -/
theorem inf_f32 : Ideal.ofBits .f32 0x7F800000#32 = ⊤ := by simp [Ideal.ofBits, Ideal.ieee]

/-- An extended real whose absolute value compares below +∞ is a real. -/
theorem real_of_lt (x : EReal) (h : Ideal.cmp .olt (max x (-x)) (Ideal.ofBits .f32 0x7F800000#32) = 1#1) :
    ∃ r : ℝ, x = ((r : ℝ) : EReal) := by
  rw [inf_f32] at h
  have hlt : max x (-x) < ⊤ := by
    by_contra hn
    have : Ideal.cmp .olt (max x (-x)) ⊤ = 0#1 := by simp [Ideal.cmp, hn]
    rw [this] at h
    exact absurd h (by decide)
  induction x using EReal.rec with
  | bot => exact absurd hlt (by simp)
  | coe r => exact ⟨r, rfl⟩
  | top => exact absurd hlt (by simp)

/-- One array: the all-reduction of `|a| < +∞` is 1, so every entry of `a` is a real. -/
theorem all_real {s : Shape} {axes : List (Fin s.rank)} (a : FVec Ideal s .f32) (hb : S0.BroadcastsInDim s (![] : Fin 0 → Fin s.rank))
    (hr : s.ReducesTo axes S0) (hn : 0 < S0.numel)
    (e : Host.reduce IntOp.andi (cmpf .olt (Host.absf a) (broadcastInDim s ![] hb (constant (F := Ideal) S0 .f32 0x7F800000#32)))
      (constantI S0 1 1#1) hr hn ix0 = 1#1) (i : s.Idx) : ∃ r : ℝ, a i = ((r : ℝ) : EReal) :=
  real_of_lt (a i) (Host.reduce_andi_all _ _ hr hn ix0 e i)

end Cert.FiniteInputs

end
-- ==== Proof.Finite.lean ====
/-
  Under the precondition every float argument is real-valued.

  The precondition is the conjunction, one conjunct per float argument, of "every entry's absolute value is below +∞",
  each taken over the whole array by an all-reduction; the conjunction is a chain of `and`s of one-bit words.  A chain of
  `and`s that is 1 has every link 1, and an all-reduction that is 1 makes every entry a real number.
-/
import proofs.«103097_j17102559773409_2_alg».proof.Pre_finite_inputs
import proofs.«103097_j17102559773409_2_alg».proof.Proof.LibFiniteInputs
import proofs.«103097_j17102559773409_2_alg».proof.Proof.Linear

noncomputable section

namespace Cert.Sage

open Idealize.ShloMosaic Idealize.ShloMosaic.ValueIdx Cert.Pre_finite_inputs

/-- Every entry of the twelve float arguments is a real number when the precondition holds of them. -/
theorem reals_of_pre [Cert.Pre_finite_inputs.Facts]
    (a0 : FVec Ideal S50000x1 .f32) (a1 : IVec S2x800000 32) (a2 : IVec S50000 32) (a3 : FVec Ideal S1x256 .f32)
    (a4 : FVec Ideal S256 .f32) (a5 : FVec Ideal S1x256 .f32) (a6 : FVec Ideal S256x256 .f32) (a7 : FVec Ideal S256 .f32)
    (a8 : FVec Ideal S256x256 .f32) (a9 : FVec Ideal S256x128 .f32) (a10 : FVec Ideal S128 .f32) (a11 : FVec Ideal S256x128 .f32)
    (a12 : FVec Ideal S128 .f32) (a13 : FVec Ideal S128 .f32)
    (h : Cert.Pre_finite_inputs.fn (F := Ideal) a0 a1 a2 a3 a4 a5 a6 a7 a8 a9 a10 a11 a12 a13 = fun _ => 1#1) :
    (∀ i, IsReal (a0 i)) ∧ (∀ i, IsReal (a3 i)) ∧ (∀ i, IsReal (a4 i)) ∧ (∀ i, IsReal (a5 i)) ∧ (∀ i, IsReal (a6 i))
      ∧ (∀ i, IsReal (a7 i)) ∧ (∀ i, IsReal (a8 i)) ∧ (∀ i, IsReal (a9 i)) ∧ (∀ i, IsReal (a10 i)) ∧ (∀ i, IsReal (a11 i)) := by
  have h0 := congrFun h ix0
  dsimp only [fn, fn_part1, fn_part2, fn_part3, Idealize.ShloMosaic.andi] at h0
  obtain ⟨h0, -⟩ := IntOp.andi_eq_one.1 h0
  obtain ⟨h0, -⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨Cert.FiniteInputs.all_real a0 _ _ _ e0, Cert.FiniteInputs.all_real a3 _ _ _ e3, Cert.FiniteInputs.all_real a4 _ _ _ e4,
    Cert.FiniteInputs.all_real a5 _ _ _ e5, Cert.FiniteInputs.all_real a6 _ _ _ e6, Cert.FiniteInputs.all_real a7 _ _ _ e7,
    Cert.FiniteInputs.all_real a8 _ _ _ e8, Cert.FiniteInputs.all_real a9 _ _ _ e9, Cert.FiniteInputs.all_real a10 _ _ _ e10,
    Cert.FiniteInputs.all_real a11 _ _ _ e11⟩

end Cert.Sage

end
-- ==== Proof.Bridge.lean ====
/-
  Under the precondition the kernel's arrangement of the network is the reference's arrangement.

  The reciprocal degrees `1 / max(deg, 1)` are real numbers whatever the degree counts are, the float arguments are
  real-valued under the precondition, and on real inputs the two arrangements agree (Proof/Linear.lean).
-/
import proofs.«103097_j17102559773409_2_alg».proof.Proof.KHost
import proofs.«103097_j17102559773409_2_alg».proof.Proof.Linear
import proofs.«103097_j17102559773409_2_alg».proof.Proof.Recip
import proofs.«103097_j17102559773409_2_alg».proof.Proof.Finite

noncomputable section

namespace Cert.Sage

open Idealize.ShloMosaic Idealize.ShloMosaic.ValueIdx
open Cert.KernelIdeal Cert.KernelIdeal.KVal

/-- The quotient of a one-array by the maximum of any array with it is real-valued. -/
theorem isReal_recip_vec {s : Shape} (one y : FVec Ideal s .f32) (h1 : ∀ i, one i = Ideal.ofBits .f32 0x3F800000#32) (i : s.Idx) :
    IsReal (Host.divf (F := Ideal) one (maximumf (F := Ideal) y one) i) := by
  show IsReal (Ideal.div (one i) (max (y i) (one i)))
  rw [h1]; exact isReal_recip _

/-- Every node's reciprocal degree is a real number. -/
theorem dvec_isReal (ei : IVec S2x800000 32) (p : Fin NN) : IsReal (dvec ei (ix1 p)) := by
  unfold dvec dvecOf
  exact isReal_recip_vec _ _ (fun _ => rfl) _

/-- THE BRIDGE: on arguments of which the precondition holds, the two arrangements give one array. -/
theorem nets_agree [Cert.Pre_finite_inputs.Facts]
    (a0 : FVec Ideal S50000x1 .f32) (a1 : IVec S2x800000 32) (a2 : IVec S50000 32) (a3 : FVec Ideal S1x256 .f32)
    (a4 : FVec Ideal S256 .f32) (a5 : FVec Ideal S1x256 .f32) (a6 : FVec Ideal S256x256 .f32) (a7 : FVec Ideal S256 .f32)
    (a8 : FVec Ideal S256x256 .f32) (a9 : FVec Ideal S256x128 .f32) (a10 : FVec Ideal S128 .f32) (a11 : FVec Ideal S256x128 .f32)
    (a12 : FVec Ideal S128 .f32) (a13 : FVec Ideal S128 .f32)
    (h : Cert.Pre_finite_inputs.fn (F := Ideal) a0 a1 a2 a3 a4 a5 a6 a7 a8 a9 a10 a11 a12 a13 = fun _ => 1#1) :
    netA (sidx a1) (didx a1) (fun p => dvec a1 (ix1 p)) (pool a2) a0 a3 a4 a5 a6 a7 a8 a9 a10 a11 a12 a13
      = netB (sidx a1) (didx a1) (fun p => dvec a1 (ix1 p)) (pool a2) a0 a3 a4 a5 a6 a7 a8 a9 a10 a11 a12 a13 := by
  obtain ⟨h0, h3, h4, h5, h6, h7, h8, h9, -, -⟩ := reals_of_pre a0 a1 a2 a3 a4 a5 a6 a7 a8 a9 a10 a11 a12 a13 h
  exact netA_eq_netB (sidx a1) (didx a1) (fun p => dvec a1 (ix1 p)) (pool a2) a0 a3 a4 a5 a6 a7 a8 a9 a10 a11 a12 a13
    (fun p => dvec_isReal a1 p) h0 h3 h4 h5 h6 h7 h8 h9

end Cert.Sage

end
-- ==== Proof.lean ====
/-
  A three-layer mean-aggregating graph network with per-graph mean pooling and a row normalisation: the kernel program
  against the reference program, at the extended reals.

  Both programs gather the source rows of the edges, sum them by destination node, scale by the node's reciprocal degree
  `1 / max(deg, 1)`, apply a neighbour matrix and a root matrix with a bias, rectify after the first two layers, average the
  node rows per graph and normalise each graph's row.  The kernel program computes the three layers and the normalisation
  in four launches over row blocks of 2000 nodes; each launch leaves in its output array one whole-array function of the
  arrays it finds (Proof/Region0 … Region3), and between the launches the host operations gather and sum (Proof/KHost,
  Proof/KChain), so its result is the network in the arrangement `netA` of Proof/Spec.lean.  The reference program is one
  line of host operations whose result is the arrangement `netB` (Proof/RefRun, Proof/RefVal).

  The two arrangements differ in the order of additions, which is immaterial, and in the last layer: the kernel applies
  the neighbour matrix to every node's row BEFORE the rows are summed over the edges and scaled, the reference AFTER.  That
  is the linearity of the edge sum and of the scaling, which holds for real numbers; the precondition makes every float
  argument real-valued, the reciprocal degrees are real whatever the counts, and sums, products and maxima of reals are
  real, so every hidden entry is real (Proof/Linear, Proof/Finite, Proof/Recip, Proof/Bridge).  The index lists, the
  reciprocal degrees and the pooling are the same operations in both programs and are never opened.
-/
import proofs.«103097_j17102559773409_2_alg».proof.Defs
import proofs.«103097_j17102559773409_2_alg».proof.Proof.Gen.Kernel
import proofs.«103097_j17102559773409_2_alg».proof.Proof.Gen.Kernel.Frame
import proofs.«103097_j17102559773409_2_alg».proof.Proof.Gen.KernelIdeal
import proofs.«103097_j17102559773409_2_alg».proof.Proof.Gen.KernelIdeal.Frame
import proofs.«103097_j17102559773409_2_alg».proof.Proof.Gen.ReferenceIdeal
import proofs.«103097_j17102559773409_2_alg».proof.Proof.Gen.Pre_finite_inputs
import proofs.«103097_j17102559773409_2_alg».proof.Proof.KRun
import proofs.«103097_j17102559773409_2_alg».proof.Proof.KChain
import proofs.«103097_j17102559773409_2_alg».proof.Proof.Region0
import proofs.«103097_j17102559773409_2_alg».proof.Proof.Region1
import proofs.«103097_j17102559773409_2_alg».proof.Proof.Region2
import proofs.«103097_j17102559773409_2_alg».proof.Proof.Region3
import proofs.«103097_j17102559773409_2_alg».proof.Proof.RefRun
import proofs.«103097_j17102559773409_2_alg».proof.Proof.RefVal
import proofs.«103097_j17102559773409_2_alg».proof.Proof.Bridge

noncomputable section

namespace Cert.Proof

open Idealize.ShloMosaic Idealize.SL.Sem Idealize.ShloMosaic.ValueIdx

/-! ## The frames and the idealization -/

theorem frame_k : Cert.frame_Kernel := fun m ρ _ => Cert.Kernel.Gen.frame m ρ

theorem frame_ki : Cert.frame_KernelIdeal := fun m ρ _ => Cert.KernelIdeal.Gen.frame m ρ

/-- The reference's run keeps its arguments: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-! ## The two programs' shared operations are the same terms -/

theorem sidx_eq (ei) : Cert.ReferenceIdeal.RefVal.sidx ei = Cert.KernelIdeal.KVal.sidx ei := rfl
theorem didx_eq (ei) : Cert.ReferenceIdeal.RefVal.didx ei = Cert.KernelIdeal.KVal.didx ei := rfl
theorem dvec_eq (ei) : Cert.ReferenceIdeal.RefVal.dvec ei = Cert.KernelIdeal.KVal.dvec ei := rfl
theorem pool_eq (bt h) : Cert.ReferenceIdeal.RefVal.pool bt h = Cert.KernelIdeal.KVal.pool bt h := rfl

/-! ## Equal results -/

open Cert.ReferenceIdeal in
/-- Both programs end with the network of the argument arrays: the kernel in arrangement A, the reference in arrangement
    B, which agree under the precondition. -/
theorem algebraic : Cert.algebraic_KernelIdeal_ReferenceIdeal := by
  intro m ρ m' ρ' hpre hagree
  refine ⟨fun c => Cert.Sage.netA
      (Cert.KernelIdeal.KVal.sidx (m ((c.tc : Thread Cert.KernelIdeal.nD Cert.KernelIdeal.τ).loc Cert.KernelIdeal.main_arg1))) (Cert.KernelIdeal.KVal.didx (m ((c.tc : Thread Cert.KernelIdeal.nD Cert.KernelIdeal.τ).loc Cert.KernelIdeal.main_arg1)))
      (fun p => Cert.KernelIdeal.KVal.dvec (m ((c.tc : Thread Cert.KernelIdeal.nD Cert.KernelIdeal.τ).loc Cert.KernelIdeal.main_arg1)) (ix1 p)) (Cert.KernelIdeal.KVal.pool (m ((c.tc : Thread Cert.KernelIdeal.nD Cert.KernelIdeal.τ).loc Cert.KernelIdeal.main_arg2)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono (fun r h c => ⟨(h c).1.trans
        (Cert.KernelIdeal.KVal.result_eq Cert.KernelIdeal.Reg.region0 Cert.KernelIdeal.Reg.region1a Cert.KernelIdeal.Reg.region1b
          Cert.KernelIdeal.Reg.region2 Cert.KernelIdeal.Reg.region3 m ρ c), (h c).2⟩)
      (Cert.KernelIdeal.KVal.run_result (F := Ideal) m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8, e9, e10, e11, e12, e13⟩ := hagree c
    rw [Cert.ReferenceIdeal.RefVal.result_eq]
    show Cert.Sage.netB (RefVal.sidx (m' ((c.tc : Thread Cert.ReferenceIdeal.nD Cert.ReferenceIdeal.τ).loc Cert.ReferenceIdeal.main_arg1))) (RefVal.didx (m' ((c.tc : Thread Cert.ReferenceIdeal.nD Cert.ReferenceIdeal.τ).loc Cert.ReferenceIdeal.main_arg1)))
        (fun p => RefVal.dvec (m' ((c.tc : Thread Cert.ReferenceIdeal.nD Cert.ReferenceIdeal.τ).loc Cert.ReferenceIdeal.main_arg1)) (ix1 p)) (RefVal.pool (m' ((c.tc : Thread Cert.ReferenceIdeal.nD Cert.ReferenceIdeal.τ).loc Cert.ReferenceIdeal.main_arg2)))
        (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))
      = Cert.Sage.netA
        (Cert.KernelIdeal.KVal.sidx (m ((c.tc : Thread Cert.KernelIdeal.nD Cert.KernelIdeal.τ).loc Cert.KernelIdeal.main_arg1))) (Cert.KernelIdeal.KVal.didx (m ((c.tc : Thread Cert.KernelIdeal.nD Cert.KernelIdeal.τ).loc Cert.KernelIdeal.main_arg1)))
        (fun p => Cert.KernelIdeal.KVal.dvec (m ((c.tc : Thread Cert.KernelIdeal.nD Cert.KernelIdeal.τ).loc Cert.KernelIdeal.main_arg1)) (ix1 p)) (Cert.KernelIdeal.KVal.pool (m ((c.tc : Thread Cert.KernelIdeal.nD Cert.KernelIdeal.τ).loc Cert.KernelIdeal.main_arg2)))
        (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
    rw [e0, e1, e2, e3, e4, e5, e6, e7, e8, e9, e10, e11, e12, e13]
    simp only [sidx_eq, didx_eq, dvec_eq, pool_eq]
    exact (Cert.Sage.nets_agree _ _ _ _ _ _ _ _ _ _ _ _ _ _ (hpre c)).symm

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
